-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn_part1 {F : FTy → Type} [FloatOps F] (main_v13 : IVec S_ 1) (main_v16 : IVec S4x4096x3 1) : IVec S_ 1 :=
  let main_c_5 : IVec S_ 1 := constantI S_ 1 1#1
  let main_v17 : IVec S_ 1 := (fun x v => Host.reduce IntOp.andi x v reducesTo_S4x4096x3_S_d0_1_2 h_S_) main_v16 main_c_5
  let main_v18 : IVec S_ 1 := andi main_v13 main_v17
  main_v18

def fn {F : FTy → Type} [FloatOps F] (main_arg0 : FVec F S4x4096x3 .f32) (main_arg1 : FVec F S4x4096x3 .f32) (main_arg2 : FVec F S4x4096x3 .f32) (main_arg3 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096x3 .f32 := Host.absf main_arg3
  let main_cst_4 : FVec F S_ .f32 := constant S_ .f32 0x7F800000#32
  let main_v15 : FVec F S4x4096x3 .f32 := broadcastInDim S4x4096x3 ![] bcast_S_S4x4096x3 main_cst_4
  let main_v16 : IVec S4x4096x3 1 := cmpf .olt main_v14 main_v15
  fn_part1 (F := F) main_v13 main_v16
-- ==== Kernel.lean ====
abbrev S4x4096x3 : Shape := ⟨3, ![4, 4096, 3]⟩
abbrev S4x3x4096 : Shape := ⟨3, ![4, 3, 4096]⟩
abbrev S4x1x1 : Shape := ⟨3, ![4, 1, 1]⟩
abbrev S1x3x1024 : Shape := ⟨3, ![1, 3, 1024]⟩
abbrev S1x1x1 : Shape := ⟨3, ![1, 1, 1]⟩
abbrev S1x1 : Shape := ⟨2, ![1, 1]⟩
abbrev S3x1024 : Shape := ⟨2, ![3, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩
abbrev S1 : Shape := ⟨1, ![1]⟩
abbrev S_ : Shape := ⟨0, ![]⟩

abbrev nBuf : Space → Nat
  | .hbm => 21
  | .vmem => 33
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x3x4096, .f32⟩
  | .hbm, ⟨5, _⟩ => ⟨S4x3x4096, .f32⟩
  | .hbm, ⟨6, _⟩ => ⟨S4x3x4096, .f32⟩
  | .hbm, ⟨7, _⟩ => ⟨S4x3x4096, .f32⟩
  | .hbm, ⟨8, _⟩ => ⟨S4x1x1, .f32⟩
  | .hbm, ⟨9, _⟩ => ⟨S_, .f32⟩
  | .hbm, ⟨10, _⟩ => ⟨S_, .f32⟩
  | .hbm, ⟨11, _⟩ => ⟨S4x1x1, .f32⟩
  | .hbm, ⟨12, _⟩ => ⟨S_, .f32⟩
  | .hbm, ⟨13, _⟩ => ⟨S_, .f32⟩
  | .hbm, ⟨14, _⟩ => ⟨S4x1x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1x3x1024, .f32⟩
  | .local _ .vmem, ⟨1, _⟩ => ⟨S1x3x1024, .f32⟩
  | .local _ .vmem, ⟨2, _⟩ => ⟨S1x3x1024, .f32⟩
  | .local _ .vmem, ⟨3, _⟩ => ⟨S1x3x1024, .f32⟩
  | .local _ .vmem, ⟨4, _⟩ => ⟨S1x3x1024, .f32⟩
  | .local _ .vmem, ⟨5, _⟩ => ⟨S1x3x1024, .f32⟩
  | .local _ .vmem, ⟨6, _⟩ => ⟨S1x3x1024, .f32⟩
  | .local _ .vmem, ⟨7, _⟩ => ⟨S1x3x1024, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | .local _ .vmem, ⟨11, _⟩ => ⟨S1x3x1024, .f32⟩
  | .local _ .vmem, ⟨12, _⟩ => ⟨S1x3x1024, .f32⟩
  | .local _ .vmem, ⟨13, _⟩ => ⟨S1x3x1024, .f32⟩
  | .local _ .vmem, ⟨14, _⟩ => ⟨S1x3x1024, .f32⟩
  | .local _ .vmem, ⟨15, _⟩ => ⟨S1x3x1024, .f32⟩
  | .local _ .vmem, ⟨16, _⟩ => ⟨S1x3x1024, .f32⟩
  | .local _ .vmem, ⟨17, _⟩ => ⟨S1x3x1024, .f32⟩
  | .local _ .vmem, ⟨18, _⟩ => ⟨S1x3x1024, .f32⟩
  | .local _ .vmem, ⟨19, _⟩ => ⟨S1x1x1, .f32⟩
  | .local _ .vmem, ⟨20, _⟩ => ⟨S1x1x1, .f32⟩
  | .local _ .vmem, ⟨21, _⟩ => ⟨S1x1, .f32⟩
  | .local _ .vmem, ⟨22, _⟩ => ⟨S1x3x1024, .f32⟩
  | .local _ .vmem, ⟨23, _⟩ => ⟨S1x3x1024, .f32⟩
  | .local _ .vmem, ⟨24, _⟩ => ⟨S1x3x1024, .f32⟩
  | .local _ .vmem, ⟨25, _⟩ => ⟨S1x3x1024, .f32⟩
  | .local _ .vmem, ⟨26, _⟩ => ⟨S1x3x1024, .f32⟩
  | .local _ .vmem, ⟨27, _⟩ => ⟨S1x3x1024, .f32⟩
  | .local _ .vmem, ⟨28, _⟩ => ⟨S1x3x1024, .f32⟩
  | .local _ .vmem, ⟨29, _⟩ => ⟨S1x3x1024, .f32⟩
  | .local _ .vmem, ⟨30, _⟩ => ⟨S1x1x1, .f32⟩
  | .local _ .vmem, ⟨31, _⟩ => ⟨S1x1x1, .f32⟩
  | .local _ .vmem, ⟨32, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_scratch0 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem3_1 : DmaSem sig := 27
abbrev cc2_sem4_0 : DmaSem sig := 28
abbrev cc2_sem4_1 : DmaSem sig := 29

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg1 : BitVec 32 := BitVec.ofNat 32 (i 1).val
  let c3_i32 : BitVec 32 := 3#32
  let v42 : BitVec 1 := Scalar.cmpi .eq arg1 c3_i32
  let arg2 : BitVec 32 := BitVec.ofNat 32 (i 2).val
  let c3_i32_24 : BitVec 32 := 3#32
  let v43 : BitVec 1 := Scalar.cmpi .eq arg2 c3_i32_24
  let v44 : BitVec 1 := Scalar.andi v42 v43
  let v45 : BitVec 32 := Scalar.extui v44
  let c0_i32_25 : BitVec 32 := 0#32
  let v46 : BitVec 1 := Scalar.cmpi .ne v45 c0_i32_25
  v46

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x3x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev grid1 : Pipeline.Grid := ⟨3, ![4, 4, 4], ![false, false, false]⟩

def k1_cond2 (i : grid1.Coords) : BitVec 1 :=
  let arg1 : BitVec 32 := BitVec.ofNat 32 (i 1).val
  let c3_i32 : BitVec 32 := 3#32
  let v42 : BitVec 1 := Scalar.cmpi .eq arg1 c3_i32
  let arg2 : BitVec 32 := BitVec.ofNat 32 (i 2).val
  let c3_i32_24 : BitVec 32 := 3#32
  let v43 : BitVec 1 := Scalar.cmpi .eq arg2 c3_i32_24
  let v44 : BitVec 1 := Scalar.andi v42 v43
  let v45 : BitVec 32 := Scalar.extui v44
  let c0_i32_25 : BitVec 32 := 0#32
  let v46 : BitVec 1 := Scalar.cmpi .ne v45 c0_i32_25
  v46

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x3x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x3x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x3x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x3x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, true]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, false]

abbrev grid2 : Pipeline.Grid := ⟨3, ![4, 4, 4], ![false, false, false]⟩

def k2_cond2 (i : grid2.Coords) : BitVec 1 :=
  let arg1 : BitVec 32 := BitVec.ofNat 32 (i 1).val
  let c3_i32 : BitVec 32 := 3#32
  let v42 : BitVec 1 := Scalar.cmpi .eq arg1 c3_i32
  let arg2 : BitVec 32 := BitVec.ofNat 32 (i 2).val
  let c3_i32_24 : BitVec 32 := 3#32
  let v43 : BitVec 1 := Scalar.cmpi .eq arg2 c3_i32_24
  let v44 : BitVec 1 := Scalar.andi v42 v43
  let v45 : BitVec 32 := Scalar.extui v44
  let c0_i32_25 : BitVec 32 := 0#32
  let v46 : BitVec 1 := Scalar.cmpi .ne v45 c0_i32_25
  v46

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x3x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x3x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S1x3x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x3x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, true]

abbrev stage2_4 : Fin 2 → Memref sig .tc .vmem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false, false]

class Facts₀ : Prop where
  transposes_S4x4096x3_S4x3x4096_0_2_1 : S4x4096x3.Transposes [0, 2, 1] S4x3x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x3x1024_S1x3x1024_0_0_0 : ∀ a, (![0, 0, 0] : Fin 3 → Nat) a + S1x3x1024.size a ≤ S1x3x1024.size a
  h_S1x3x1024 : 0 < S1x3x1024.numel
  shapeCasts_S1x3x1024_S3x1024 : S1x3x1024.ShapeCasts S3x1024
  reduces_S3x1024_S1024 : S3x1024.Reduces [0] S1024
  shapeCasts_S1024_S1x1024 : S1024.ShapeCasts S1x1024
  transposes_S1x1024_p1_0_S1024x1 : S1x1024.Transposes [1, 0] S1024x1
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S4x1x1_S_d0_1_2 : S4x1x1.ReducesTo [0, 1, 2] S_
  h_S_ : 0 < S_.numel
  dot_S3x1024_S3x1024_S1024x1024_0_0_1_1_n_n_wf : DotDims.WF S3x1024 S3x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x1024.size a ≤ S4x3x4096.size a
  hwx0_0 : ∀ i : grid0.Coords, EltTy.bits .f32 = 32 ∨ (Rect.block (s := S4x3x4096) S1x3x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x1024.size a ≤ S4x3x4096.size a
  hwx0_1 : ∀ i : grid0.Coords, EltTy.bits .f32 = 32 ∨ (Rect.block (s := S4x3x4096) S1x3x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1024.size a ≤ S4x3x4096.size a
  hwx0_2 : ∀ i : grid0.Coords, EltTy.bits .f32 = 32 ∨ (Rect.block (s := S4x3x4096) S1x3x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1024.size a ≤ S4x3x4096.size a
  hwx0_3 : ∀ i : grid0.Coords, EltTy.bits .f32 = 32 ∨ (Rect.block (s := S4x3x4096) S1x3x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3x1024.size a ≤ S4x3x4096.size a
  hwx1_0 : ∀ i : grid1.Coords, EltTy.bits .f32 = 32 ∨ (Rect.block (s := S4x3x4096) S1x3x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x3x1024.size a ≤ S4x3x4096.size a
  hwx1_1 : ∀ i : grid1.Coords, EltTy.bits .f32 = 32 ∨ (Rect.block (s := S4x3x4096) S1x3x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3x1024.size a ≤ S4x3x4096.size a
  hwx1_2 : ∀ i : grid1.Coords, EltTy.bits .f32 = 32 ∨ (Rect.block (s := S4x3x4096) S1x3x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3x1024.size a ≤ S4x3x4096.size a
  hwx1_3 : ∀ i : grid1.Coords, EltTy.bits .f32 = 32 ∨ (Rect.block (s := S4x3x4096) S1x3x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S4x1x1.size a
  hwx1_4 : ∀ i : grid1.Coords, EltTy.bits .f32 = 32 ∨ (Rect.block (s := S4x1x1) S1x1x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x3x1024.size a ≤ S4x3x4096.size a
  hwx2_0 : ∀ i : grid2.Coords, EltTy.bits .f32 = 32 ∨ (Rect.block (s := S4x3x4096) S1x3x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x3x1024.size a ≤ S4x3x4096.size a
  hwx2_1 : ∀ i : grid2.Coords, EltTy.bits .f32 = 32 ∨ (Rect.block (s := S4x3x4096) S1x3x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3x1024.size a ≤ S4x3x4096.size a
  hwx2_2 : ∀ i : grid2.Coords, EltTy.bits .f32 = 32 ∨ (Rect.block (s := S4x3x4096) S1x3x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x3x1024.size a ≤ S4x3x4096.size a
  hwx2_3 : ∀ i : grid2.Coords, EltTy.bits .f32 = 32 ∨ (Rect.block (s := S4x3x4096) S1x3x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x1.size a ≤ S4x1x1.size a
  hwx2_4 : ∀ i : grid2.Coords, EltTy.bits .f32 = 32 ∨ (Rect.block (s := S4x1x1) S1x1x1.size (cc2_transform_4 i) (hinb2_4 i)).WholeWords (EltTy.packing .f32)

variable [Facts₀]

def dot_S3x1024_S3x1024_S1024x1024_0_0_1_1_n_n : DotDims S3x1024 S3x1024 S1024x1024 where
  lhsContracting := [0]
  rhsContracting := [0]
  lhsNonContracting := [1]
  rhsNonContracting := [1]
  lhsBatch := []
  rhsBatch := []
  wf := dot_S3x1024_S3x1024_S1024x1024_0_0_1_1_n_n_wf

abbrev win0_0 : Pipeline.Window sig grid0 :=
  Pipeline.Window.ofSpec (Memref.whole main_v0) S1x3x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x3x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x3x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v1) S1x3x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x3x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x3x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x3x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v6) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v0) S1x3x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x3x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x3x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x3x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8) S1x1x1.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩

abbrev nBuf : Space → Nat
  | .hbm => 53
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x3, .f32⟩
  | .hbm, ⟨3, _⟩ => ⟨S4x4096x3, .f32⟩
  | .hbm, ⟨4, _⟩ => ⟨S4x4096x1x3, .f32⟩
  | .hbm, ⟨5, _⟩ => ⟨S4x1x4096x3, .f32⟩
  | .hbm, ⟨6, _⟩ => ⟨S4x4096x4096x3, .f32⟩
  | .hbm, ⟨7, _⟩ => ⟨S4x4096x4096x3, .f32⟩
  | .hbm, ⟨8, _⟩ => ⟨S4x4096x4096x3, .f32⟩
  | .hbm, ⟨9, _⟩ => ⟨S4x4096x4096x3, .f32⟩
  | .hbm, ⟨10, _⟩ => ⟨S_, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S4x4096x4096, .f32⟩
  | .hbm, ⟨17, _⟩ => ⟨S_, .f32⟩
  | .hbm, ⟨18, _⟩ => ⟨S_, .f32⟩
  | .hbm, ⟨19, _⟩ => ⟨S4x4096x1x3, .f32⟩
  | .hbm, ⟨20, _⟩ => ⟨S4x1x4096x3, .f32⟩
  | .hbm, ⟨21, _⟩ => ⟨S4x4096x4096x3, .f32⟩
  | .hbm, ⟨22, _⟩ => ⟨S4x4096x4096x3, .f32⟩
  | .hbm, ⟨23, _⟩ => ⟨S4x4096x4096x3, .f32⟩
  | .hbm, ⟨24, _⟩ => ⟨S4x4096x4096x3, .f32⟩
  | .hbm, ⟨25, _⟩ => ⟨S_, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S_, .f32⟩
  | .hbm, ⟨34, _⟩ => ⟨S4x4096x1x3, .f32⟩
  | .hbm, ⟨35, _⟩ => ⟨S4x1x4096x3, .f32⟩
  | .hbm, ⟨36, _⟩ => ⟨S4x4096x4096x3, .f32⟩
  | .hbm, ⟨37, _⟩ => ⟨S4x4096x4096x3, .f32⟩
  | .hbm, ⟨38, _⟩ => ⟨S4x4096x4096x3, .f32⟩
  | .hbm, ⟨39, _⟩ => ⟨S4x4096x4096x3, .f32⟩
  | .hbm, ⟨40, _⟩ => ⟨S_, .f32⟩
  | .hbm, ⟨41, _⟩ => ⟨S4x4096x4096, .f32⟩
  | .hbm, ⟨42, _⟩ => ⟨S4x4096x4096, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S4x4096x4096, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_3 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S_d0_1_2 : S4x4096x4096.ReducesTo [0, 1, 2] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.KBody0Defs.lean ====
/-
  Launch 0: the two branch conditions of the body over the grid, where its result window is idle, and the
  body's memrefs at a point.
-/
import proofs.«134606_j77163382440707_2_alg».proof.Proof.Gen.Kernel.Launch
import proofs.«134606_j77163382440707_2_alg».proof.Proof.Gen.Kernel.Skeleton
import proofs.«134606_j77163382440707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch (the accumulator is copied to the result): taken when both tiles are the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- The result window is idle exactly where the second branch is not taken, and is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S1x3x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1x1 .f32 := Memref.whole cc0_scratch0
/-- The accumulator and one staging buffer of the result window, as views through which contents are stated. -/
abbrev VS0 : View sig .tc .vmem S1x1 .f32 := (scM0).view
abbrev VO0 : View sig .tc .vmem S1x1x1 .f32 := (Memref.whole cc0_stg4_0 : Memref sig .tc .vmem S1x1x1 .f32).view

end Cert.Kernel.Gen

end
-- ==== Proof.KBody0RunA.lean ====
/-
  Launch 0, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.KBody0Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨[], ?_, fun xi4 E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody0RunB.lean ====
/-
  Launch 0, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.KBody0Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨[], ?_, fun xi4 E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody0RunC.lean ====
/-
  Launch 0, the last tile of a batch: the tile's total is added and the accumulator copied to the result block.  The body run on whole staging memrefs: the four input blocks at given contents stay as they
  were, and what the result block and the accumulator end with is recorded as the lists of their stores (last first).
-/
import proofs.«134606_j77163382440707_2_alg».proof.Proof.KBody0Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨?_, ?_, fun E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.KRegion0.lean ====
/-
  Launch 0 at given entry contents `V` of the core's buffers: what the accumulator and the result block hold after
  each grid point (by recursion on the point, through the three cases of the body), the pipeline's proof data, and
  the body obligation at every point.
-/
import proofs.«134606_j77163382440707_2_alg».proof.Proof.KBody0RunA
import proofs.«134606_j77163382440707_2_alg».proof.Proof.KBody0RunB
import proofs.«134606_j77163382440707_2_alg».proof.Proof.KBody0RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first tile's stores into the accumulator cover it. -/
theorem scover0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 x1 x2 x3 : Vec F S1x3x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y
/-- What the first tile leaves in the accumulator. -/
def sout0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 x1 x2 x3 : Vec F S1x3x1024 .f32) : Vec F S1x1 .f32 :=
  VS0.read (Elt F) (VS0.writes (Elt F) VS0.junk (kernelRun0_A c i arg3 harg3 arg4 harg4 arg5 harg5 arg6 harg6 arg7 harg7 arg8 harg8 hc0 hc1 x0 x1 x2 x3).2.1)
/-- A middle tile's store into the accumulator covers it. -/
theorem scover0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 x1 x2 x3 : Vec F S1x3x1024 .f32) (xs : Vec F S1x1 .f32) (y : S1x1.Idx) :
    ∃ pc ∈ (kernelRun0_B c i arg3 harg3 arg4 harg4 arg5 harg5 arg6 harg6 arg7 harg7 arg8 harg8 hc0 hc1 x0 x1 x2 x3 xs).2.1, y ∈ pc.1.set :=
  View.cover_of_tiledL (kernelRun0_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 x1 x2 x3 : Vec F S1x3x1024 .f32) (xs : Vec F S1x1 .f32) : Vec F S1x1 .f32 :=
  VS0.read (Elt F) (VS0.writes (Elt F) VS0.junk (kernelRun0_B c i arg3 harg3 arg4 harg4 arg5 harg5 arg6 harg6 arg7 harg7 arg8 harg8 hc0 hc1 x0 x1 x2 x3 xs).2.1)
/-- The last tile's store into the accumulator covers it, and its store into the result block covers that. -/
theorem scover0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) (y : S1x1.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1x1.size (by sl_kernel_rfl) y
theorem cover0_C_4 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) (y : S1x1x1.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) : Vec F S1x1 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)
def out0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) : Vec F S1x1x1 .f32 :=
  VO0.read (Elt F) (VO0.writes (Elt F) VO0.junk (kernelRun0_C c i arg3 harg3 arg4 harg4 arg5 harg5 arg6 harg6 arg7 harg7 arg8 harg8 hc0 hc1 x0 x1 x2 x3 xs).1)
/-- Where the result block is not stored (and not written back) its recorded contents are a placeholder nothing reads. -/
def idle0 : Vec F S1x1x1 .f32 := VO0.read (Elt F) VO0.junk

/-! ## Point by point -/

/-- What the result block and the accumulator hold after the body at point `n`: the case the point is in (first, middle
    or last tile of its batch), a middle or last tile over what the point before left in the accumulator. -/
def outsAt0 (c : Dev nD) : (n : ℕ) → n < cfg0.N → Vec F S1x1x1 .f32 × Vec F S1x1 .f32
  | 0, hn => (idle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idle0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)
theorem outsAt0_B (c : Dev nD) (t : Fin cfg0.N) (h0 : ¬t.val % 16 = 0) (h1 : ¬t.val % 16 = 15) :
    outsAt0 V c t.val t.isLt = (idle0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]
  rfl

/-- Before the first point the library's invariant; after point `n` the accumulator at what that point left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q := qs
  owed _ := 0

theorem A_eq0 (c : Dev nD) (w : Fin cfg0.W) : (dat0 V qs c).A w = V c (Pipeline.arrRef spec0 w) := by
  dsimp only [dat0]
theorem PhiS0_castSucc (c : Dev nD) (t : Fin cfg0.N) :
    (dat0 V qs c).Φ t.castSucc = PhiS0 V c t.val (Nat.le_of_lt t.isLt) := by
  dsimp only [dat0]; simp only [Fin.coe_castSucc]
theorem after0_0 (c : Dev nD) (t : Fin cfg0.N) : (dat0 V qs c).after 0 t = iblk0 V c 0 t := by dsimp only [dat0]
theorem after0_1 (c : Dev nD) (t : Fin cfg0.N) : (dat0 V qs c).after 1 t = iblk0 V c 1 t := by dsimp only [dat0]
theorem after0_2 (c : Dev nD) (t : Fin cfg0.N) : (dat0 V qs c).after 2 t = iblk0 V c 2 t := by dsimp only [dat0]
theorem after0_3 (c : Dev nD) (t : Fin cfg0.N) : (dat0 V qs c).after 3 t = iblk0 V c 3 t := by dsimp only [dat0]
theorem after0_4 (c : Dev nD) (t : Fin cfg0.N) : (dat0 V qs c).after 4 t = (outsAt0 V c t.val t.isLt).1 := by dsimp only [dat0]
theorem before0_0 (c : Dev nD) (t : Fin cfg0.N) (d) : (dat0 V qs c).before 0 t d = iblk0 V c 0 t :=
  before0_0_of V (dat0 V qs c) (A_eq0 V qs c 0) (after0_0 V qs c) t d
theorem before0_1 (c : Dev nD) (t : Fin cfg0.N) (d) : (dat0 V qs c).before 1 t d = iblk0 V c 1 t :=
  before0_1_of V (dat0 V qs c) (A_eq0 V qs c 1) (after0_1 V qs c) t d
theorem before0_2 (c : Dev nD) (t : Fin cfg0.N) (d) : (dat0 V qs c).before 2 t d = iblk0 V c 2 t :=
  before0_2_of V (dat0 V qs c) (A_eq0 V qs c 2) (after0_2 V qs c) t d
theorem before0_3 (c : Dev nD) (t : Fin cfg0.N) (d) : (dat0 V qs c).before 3 t d = iblk0 V c 3 t :=
  before0_3_of V (dat0 V qs c) (A_eq0 V qs c 3) (after0_3 V qs c) t d

/-! ## The body obligation -/

def bodyPre0 (c : Dev nD) (t : Fin cfg0.N) : sProp 𝕄 :=
  iprop((dat0 V qs c).Φ t.castSucc ∗ (dat0 V qs c).owesAt () t.castSucc
    ∗ (∃ d, owns (c : Thread nD τ) (ms0_0 t) fullShare ((dat0 V qs c).before 0 t d))
    ∗ (∃ d, owns (c : Thread nD τ) (ms0_1 t) fullShare ((dat0 V qs c).before 1 t d))
    ∗ (∃ d, owns (c : Thread nD τ) (ms0_2 t) fullShare ((dat0 V qs c).before 2 t d))
    ∗ (∃ d, owns (c : Thread nD τ) (ms0_3 t) fullShare ((dat0 V qs c).before 3 t d))
    ∗ (∃ d, owns (c : Thread nD τ) (ms0_4 t) fullShare ((dat0 V qs c).before 4 t d)))

def bodyPost0 (c : Dev nD) (t : Fin cfg0.N) : sProp 𝕄 :=
  iprop((dat0 V qs c).Φ t.succ ∗ (dat0 V qs c).owesAt () t.succ
    ∗ (dat0 V qs c).leavesExact 0 t
    ∗ (dat0 V qs c).leavesExact 1 t
    ∗ (dat0 V qs c).leavesExact 2 t
    ∗ (dat0 V qs c).leavesExact 3 t
    ∗ (dat0 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body0 (c : Dev nD) (t : Fin cfg0.N) :
    bodyPre0 V qs c t ⊢ wp frame (wpE (defs₀ (F := F)) Variants.none c none) Set.univ (bodyAt0 t) (fun _ => bodyPost0 V qs c t) := by
  unfold bodyPre0 bodyPost0 bodyAt0
  simp only [before0_0, before0_1, before0_2, before0_3]
  rw [show (dat0 V qs c).owesAt () t.succ = (dat0 V qs c).owesAt () t.castSucc from rfl]
  rw [show (dat0 V qs c).Φ t.succ = PhiS0 V c (t.val + 1) t.isLt from rfl, PhiS0_succ]
  have hN : t.val < 64 := lt_of_lt_of_eq t.isLt (show cfg0.N = 64 from N_0)
  by_cases h0 : t.val % 16 = 0
  · by_cases h1 : t.val % 16 = 15
    · exfalso; omega
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [Dat.leavesExact_idle (dat0 V qs c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V qs c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V qs c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [show (dat0 V qs c).leavesExact 4 t = owns (c : Thread nD τ) (ms0_4 t) fullShare ((dat0 V qs c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V qs c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [Dat.leavesExact_idle (dat0 V qs c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V qs c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V qs c) (defs₀ (F := F)) Variants.none () Set.univ := fun t => by
  rw [bigSep_W0, bigSep_W0]
  exact sound_body0 V qs c t

/-- What the launch hands the region is the invariant before the first point. -/
theorem hin0 (c : Dev nD) : Pipeline.ΦA spec0 c ⊢ (dat0 V qs c).Φ 0 := by
  rw [show (dat0 V qs c).Φ 0 = PhiS0 V c 0 (Nat.zero_le _) from rfl, PhiS0_zero V c 0 _ rfl]
  try exact Idealize.SL.BI.Entails.refl _

/-- After the last point the invariant gives the library's back: the accumulator's contents are forgotten. -/
theorem hout0 (c : Dev nD) : (dat0 V qs c).Φ (Fin.last cfg0.N) ⊢ Pipeline.ΦA spec0 c := by
  rw [show (dat0 V qs c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrest⟩, Hg⟩
  isplitl [HS0 Hrest]
  · isplitl [HS0]
    · iexists _; iexact HS0
    iexact Hrest
  iexact Hg

end Region

end Cert.Kernel.Gen

end
-- ==== Proof.KSharePair0.lean ====
/-
  Launch 0 reads each of its two input arrays through two windows (the row tiles and the column tiles of one point
  cloud; the same for its normals).  The array's full share is dealt to the two windows as its two halves when the
  launch is entered, and joined again when it is left.
-/
import proofs.«134606_j77163382440707_2_alg».proof.Proof.KRegion0

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD)

/-- The buffers behind the launch's five windows: the two input arrays and the result. -/
theorem arrBufs0_eq (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v2) ↦{fullShare} Vv main_v2) ∗ (((c : Thread nD τ).loc main_v4) ↦{fullShare} Vv main_v4)) := by
  unfold Pipeline.arrBufs
  exact bigSep_eq_bigSepL_of_eq [main_v0, main_v2, main_v4] (by decide) (by decide) _

/-- The windows' arrays one by one, each at its window's share. -/
theorem arrays0_eq (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_v0) ↦{dat.q 0} G 0) ∗ (((c : Thread nD τ).loc main_v0) ↦{dat.q 1} G 1)
          ∗ (((c : Thread nD τ).loc main_v2) ↦{dat.q 2} G 2) ∗ (((c : Thread nD τ).loc main_v2) ↦{dat.q 3} G 3)
          ∗ (((c : Thread nD τ).loc main_v4) ↦{fullShare} G 4)) := by
  have h : (dat.arrays G : sProp 𝕄) = bigSep Finset.univ fun w : Fin cfg0.W =>
      ((((c : Thread nD τ).loc (Pipeline.arrRef spec0 w)) ↦{dat.share w} G w : sProp 𝕄)) := by
    unfold Dat.arrays
    exact bigSep_congr fun w _ => by rw [(arr_whole0 w).set_eq_univ]
  have s0 : dat.share 0 = dat.q 0 := if_neg (by decide)
  have s1 : dat.share 1 = dat.q 1 := if_neg (by decide)
  have s2 : dat.share 2 = dat.q 2 := if_neg (by decide)
  have s3 : dat.share 3 = dat.q 3 := if_neg (by decide)
  have s4 : dat.share 4 = fullShare := if_pos (by decide)
  rw [h, bigSep_W0, s0, s1, s2, s3, s4]

/-- ENTRY: the three buffers whole at the contents `Vv` are the five windows' arrays, the two halves of each input
    array's share going to its two windows. -/
theorem arrays0_of_bufs (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg0.W) → Buf (Elt F) ((cfg0.win w).arr.view.loc (c : Thread nD τ)))
    (h0 : G 0 = Vv main_v0) (h1 : G 1 = Vv main_v0) (h2 : G 2 = Vv main_v2) (h3 : G 3 = Vv main_v2) (h4 : G 4 = Vv main_v4) :
    (Pipeline.arrBufs (Ix := Unit) (Name := ℕ) (U := UR sig nD τ) (Lvl := ℕ) spec0 c Vv : sProp 𝕄) ⊢ dat.arrays G := by
  rw [arrBufs0_eq, arrays0_eq, hq0, hq1, hq2, hq3, h0, h1, h2, h3, h4]
  iintro ⟨Ha, Hb, Ho⟩
  ihave Ha' := (pointsTo_share (PosShare.mem_left_op_right fullShare)).1 $$ Ha
  ihave Hb' := (pointsTo_share (PosShare.mem_left_op_right fullShare)).1 $$ Hb
  icases Ha' with ⟨Ha0, Ha1⟩
  icases Hb' with ⟨Hb0, Hb1⟩
  isplitl [Ha0]; · iexact Ha0
  isplitl [Ha1]; · iexact Ha1
  isplitl [Hb0]; · iexact Hb0
  isplitl [Hb1]; · iexact Hb1
  iexact Ho

/-- EXIT: the five windows' arrays, each input's two at one contents, are the three buffers whole again. -/
theorem bufs0_of_arrays (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg0.W) → Buf (Elt F) ((cfg0.win w).arr.view.loc (c : Thread nD τ)))
    (h0 : G 0 = Vv main_v0) (h1 : G 1 = Vv main_v0) (h2 : G 2 = Vv main_v2) (h3 : G 3 = Vv main_v2) (h4 : G 4 = Vv main_v4) :
    (dat.arrays G : sProp 𝕄) ⊢ Pipeline.arrBufs (Ix := Unit) (Name := ℕ) (U := UR sig nD τ) (Lvl := ℕ) spec0 c Vv := by
  rw [arrBufs0_eq, arrays0_eq, hq0, hq1, hq2, hq3, h0, h1, h2, h3, h4]
  iintro ⟨Ha0, Ha1, Hb0, Hb1, Ho⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Ho

end

end Cert.Kernel.Gen

end
-- ==== Proof.KBody1Defs.lean ====
/-
  Launch 1: the two branch conditions of the body over the grid, where its result window is idle, and the
  body's memrefs at a point.
-/
import proofs.«134606_j77163382440707_2_alg».proof.Proof.Gen.Kernel.Launch
import proofs.«134606_j77163382440707_2_alg».proof.Proof.Gen.Kernel.Skeleton
import proofs.«134606_j77163382440707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch (the accumulator is copied to the result): taken when both tiles are the last. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The result window is idle exactly where the second branch is not taken, and is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging memref at point `t`, and its wholeness. -/
abbrev ms1_0 (t : Fin cfg1.N) : Memref sig .tc .vmem S1x3x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1x1 .f32 := Memref.whole cc1_scratch0
/-- The accumulator and one staging buffer of the result window, as views through which contents are stated. -/
abbrev VS1 : View sig .tc .vmem S1x1 .f32 := (scM1).view
abbrev VO1 : View sig .tc .vmem S1x1x1 .f32 := (Memref.whole cc1_stg4_0 : Memref sig .tc .vmem S1x1x1 .f32).view

end Cert.Kernel.Gen

end
-- ==== Proof.KBody1RunA.lean ====
/-
  Launch 1, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.KBody1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨[], ?_, fun xi4 E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody1RunB.lean ====
/-
  Launch 1, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.KBody1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨[], ?_, fun xi4 E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody1RunC.lean ====
/-
  Launch 1, the last tile of a batch: the tile's total is added and the accumulator copied to the result block.  The body run on whole staging memrefs: the four input blocks at given contents stay as they
  were, and what the result block and the accumulator end with is recorded as the lists of their stores (last first).
-/
import proofs.«134606_j77163382440707_2_alg».proof.Proof.KBody1Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨?_, ?_, fun E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.KRegion1.lean ====
/-
  Launch 1 at given entry contents `V` of the core's buffers: what the accumulator and the result block hold after
  each grid point (by recursion on the point, through the three cases of the body), the pipeline's proof data, and
  the body obligation at every point.
-/
import proofs.«134606_j77163382440707_2_alg».proof.Proof.KBody1RunA
import proofs.«134606_j77163382440707_2_alg».proof.Proof.KBody1RunB
import proofs.«134606_j77163382440707_2_alg».proof.Proof.KBody1RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first tile's stores into the accumulator cover it. -/
theorem scover1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i) (x0 x1 x2 x3 : Vec F S1x3x1024 .f32) (y : S1x1.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1x1.size (by sl_kernel_rfl) y
/-- What the first tile leaves in the accumulator. -/
def sout1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i) (x0 x1 x2 x3 : Vec F S1x3x1024 .f32) : Vec F S1x1 .f32 :=
  VS1.read (Elt F) (VS1.writes (Elt F) VS1.junk (kernelRun1_A c i arg3 harg3 arg4 harg4 arg5 harg5 arg6 harg6 arg7 harg7 arg8 harg8 hc0 hc1 x0 x1 x2 x3).2.1)
/-- A middle tile's store into the accumulator covers it. -/
theorem scover1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i) (x0 x1 x2 x3 : Vec F S1x3x1024 .f32) (xs : Vec F S1x1 .f32) (y : S1x1.Idx) :
    ∃ pc ∈ (kernelRun1_B c i arg3 harg3 arg4 harg4 arg5 harg5 arg6 harg6 arg7 harg7 arg8 harg8 hc0 hc1 x0 x1 x2 x3 xs).2.1, y ∈ pc.1.set :=
  View.cover_of_tiledL (kernelRun1_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i) (x0 x1 x2 x3 : Vec F S1x3x1024 .f32) (xs : Vec F S1x1 .f32) : Vec F S1x1 .f32 :=
  VS1.read (Elt F) (VS1.writes (Elt F) VS1.junk (kernelRun1_B c i arg3 harg3 arg4 harg4 arg5 harg5 arg6 harg6 arg7 harg7 arg8 harg8 hc0 hc1 x0 x1 x2 x3 xs).2.1)
/-- The last tile's store into the accumulator covers it, and its store into the result block covers that. -/
theorem scover1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) (y : S1x1.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1x1.size (by sl_kernel_rfl) y
theorem cover1_C_4 (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) (y : S1x1x1.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) : Vec F S1x1 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)
def out1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) : Vec F S1x1x1 .f32 :=
  VO1.read (Elt F) (VO1.writes (Elt F) VO1.junk (kernelRun1_C c i arg3 harg3 arg4 harg4 arg5 harg5 arg6 harg6 arg7 harg7 arg8 harg8 hc0 hc1 x0 x1 x2 x3 xs).1)
/-- Where the result block is not stored (and not written back) its recorded contents are a placeholder nothing reads. -/
def idle1 : Vec F S1x1x1 .f32 := VO1.read (Elt F) VO1.junk

/-! ## Point by point -/

/-- What the result block and the accumulator hold after the body at point `n`: the case the point is in (first, middle
    or last tile of its batch), a middle or last tile over what the point before left in the accumulator. -/
def outsAt1 (c : Dev nD) : (n : ℕ) → n < cfg1.N → Vec F S1x1x1 .f32 × Vec F S1x1 .f32
  | 0, hn => (idle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (idle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = (idle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]
  rfl

/-- Before the first point the library's invariant; after point `n` the accumulator at what that point left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := qs
  owed _ := 0

theorem A_eq1 (c : Dev nD) (w : Fin cfg1.W) : (dat1 V qs c).A w = V c (Pipeline.arrRef spec1 w) := by
  dsimp only [dat1]
theorem PhiS1_castSucc (c : Dev nD) (t : Fin cfg1.N) :
    (dat1 V qs c).Φ t.castSucc = PhiS1 V c t.val (Nat.le_of_lt t.isLt) := by
  dsimp only [dat1]; simp only [Fin.coe_castSucc]
theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = (outsAt1 V c t.val t.isLt).1 := by dsimp only [dat1]
theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-! ## The body obligation -/

def bodyPre1 (c : Dev nD) (t : Fin cfg1.N) : sProp 𝕄 :=
  iprop((dat1 V qs c).Φ t.castSucc ∗ (dat1 V qs c).owesAt () t.castSucc
    ∗ (∃ d, owns (c : Thread nD τ) (ms1_0 t) fullShare ((dat1 V qs c).before 0 t d))
    ∗ (∃ d, owns (c : Thread nD τ) (ms1_1 t) fullShare ((dat1 V qs c).before 1 t d))
    ∗ (∃ d, owns (c : Thread nD τ) (ms1_2 t) fullShare ((dat1 V qs c).before 2 t d))
    ∗ (∃ d, owns (c : Thread nD τ) (ms1_3 t) fullShare ((dat1 V qs c).before 3 t d))
    ∗ (∃ d, owns (c : Thread nD τ) (ms1_4 t) fullShare ((dat1 V qs c).before 4 t d)))

def bodyPost1 (c : Dev nD) (t : Fin cfg1.N) : sProp 𝕄 :=
  iprop((dat1 V qs c).Φ t.succ ∗ (dat1 V qs c).owesAt () t.succ
    ∗ (dat1 V qs c).leavesExact 0 t
    ∗ (dat1 V qs c).leavesExact 1 t
    ∗ (dat1 V qs c).leavesExact 2 t
    ∗ (dat1 V qs c).leavesExact 3 t
    ∗ (dat1 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).owesAt () t.succ = (dat1 V qs c).owesAt () t.castSucc from rfl]
  rw [show (dat1 V qs c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V qs c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V qs c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [show (dat1 V qs c).leavesExact 4 t = owns (c : Thread nD τ) (ms1_4 t) fullShare ((dat1 V qs c).after 4 t) from by
        unfold Dat.leavesExact; rw [liveAt1_4 t ((hcond1_1 t).mpr h1)], after1_4]
      rw [outsAt1_C V c t h0 h1]
      unfold out1_C sout1_C; (try dsimp only)
      have hz : t.val ≠ 0 := by omega
      rw [PhiS1_castSucc V qs c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4 t (fun h => h1 ((hcond1_1 t).mp h))) (noFlush1_4 t (fun h => h1 ((hcond1_1 t).mp h)))]
      rw [outsAt1_B V c t h0 h1]
      unfold sout1_B; (try dsimp only)
      have hz : t.val ≠ 0 := by omega
      rw [PhiS1_castSucc V qs c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V qs c) (defs₀ (F := F)) Variants.none () Set.univ := fun t => by
  rw [bigSep_W1, bigSep_W1]
  exact sound_body1 V qs c t

/-- What the launch hands the region is the invariant before the first point. -/
theorem hin1 (c : Dev nD) : Pipeline.ΦA spec1 c ⊢ (dat1 V qs c).Φ 0 := by
  rw [show (dat1 V qs c).Φ 0 = PhiS1 V c 0 (Nat.zero_le _) from rfl, PhiS1_zero V c 0 _ rfl]
  try exact Idealize.SL.BI.Entails.refl _

/-- After the last point the invariant gives the library's back: the accumulator's contents are forgotten. -/
theorem hout1 (c : Dev nD) : (dat1 V qs c).Φ (Fin.last cfg1.N) ⊢ Pipeline.ΦA spec1 c := by
  rw [show (dat1 V qs c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Region

end Cert.Kernel.Gen

end
-- ==== Proof.KSharePair1.lean ====
/-
  Launch 1 reads each of its two input arrays through two windows (the row tiles and the column tiles of one point
  cloud; the same for its normals).  The array's full share is dealt to the two windows as its two halves when the
  launch is entered, and joined again when it is left.
-/
import proofs.«134606_j77163382440707_2_alg».proof.Proof.KRegion1

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD)

/-- The buffers behind the launch's five windows: the two input arrays and the result. -/
theorem arrBufs1_eq (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v1) ↦{fullShare} Vv main_v1) ∗ (((c : Thread nD τ).loc main_v3) ↦{fullShare} Vv main_v3) ∗ (((c : Thread nD τ).loc main_v6) ↦{fullShare} Vv main_v6)) := by
  unfold Pipeline.arrBufs
  exact bigSep_eq_bigSepL_of_eq [main_v1, main_v3, main_v6] (by decide) (by decide) _

/-- The windows' arrays one by one, each at its window's share. -/
theorem arrays1_eq (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc main_v1) ↦{dat.q 0} G 0) ∗ (((c : Thread nD τ).loc main_v1) ↦{dat.q 1} G 1)
          ∗ (((c : Thread nD τ).loc main_v3) ↦{dat.q 2} G 2) ∗ (((c : Thread nD τ).loc main_v3) ↦{dat.q 3} G 3)
          ∗ (((c : Thread nD τ).loc main_v6) ↦{fullShare} G 4)) := by
  have h : (dat.arrays G : sProp 𝕄) = bigSep Finset.univ fun w : Fin cfg1.W =>
      ((((c : Thread nD τ).loc (Pipeline.arrRef spec1 w)) ↦{dat.share w} G w : sProp 𝕄)) := by
    unfold Dat.arrays
    exact bigSep_congr fun w _ => by rw [(arr_whole1 w).set_eq_univ]
  have s0 : dat.share 0 = dat.q 0 := if_neg (by decide)
  have s1 : dat.share 1 = dat.q 1 := if_neg (by decide)
  have s2 : dat.share 2 = dat.q 2 := if_neg (by decide)
  have s3 : dat.share 3 = dat.q 3 := if_neg (by decide)
  have s4 : dat.share 4 = fullShare := if_pos (by decide)
  rw [h, bigSep_W1, s0, s1, s2, s3, s4]

/-- ENTRY: the three buffers whole at the contents `Vv` are the five windows' arrays, the two halves of each input
    array's share going to its two windows. -/
theorem arrays1_of_bufs (dat : Dat τ (Elt F) Unit ℕ (UR sig nD τ) ℕ cfg1 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg1.W) → Buf (Elt F) ((cfg1.win w).arr.view.loc (c : Thread nD τ)))
    (h0 : G 0 = Vv main_v1) (h1 : G 1 = Vv main_v1) (h2 : G 2 = Vv main_v3) (h3 : G 3 = Vv main_v3) (h4 : G 4 = Vv main_v6) :
    (Pipeline.arrBufs (Ix := Unit) (Name := ℕ) (U := UR sig nD τ) (Lvl := ℕ) spec1 c Vv : sProp 𝕄) ⊢ dat.arrays G := by
  rw [arrBufs1_eq, arrays1_eq, hq0, hq1, hq2, hq3, h0, h1, h2, h3, h4]
  iintro ⟨Ha, Hb, Ho⟩
  ihave Ha' := (pointsTo_share (PosShare.mem_left_op_right fullShare)).1 $$ Ha
  ihave Hb' := (pointsTo_share (PosShare.mem_left_op_right fullShare)).1 $$ Hb
  icases Ha' with ⟨Ha0, Ha1⟩
  icases Hb' with ⟨Hb0, Hb1⟩
  isplitl [Ha0]; · iexact Ha0
  isplitl [Ha1]; · iexact Ha1
  isplitl [Hb0]; · iexact Hb0
  isplitl [Hb1]; · iexact Hb1
  iexact Ho

/-- EXIT: the five windows' arrays, each input's two at one contents, are the three buffers whole again. -/
theorem bufs1_of_arrays (dat : Dat τ (Elt F) Unit ℕ (UR sig nD τ) ℕ cfg1 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg1.W) → Buf (Elt F) ((cfg1.win w).arr.view.loc (c : Thread nD τ)))
    (h0 : G 0 = Vv main_v1) (h1 : G 1 = Vv main_v1) (h2 : G 2 = Vv main_v3) (h3 : G 3 = Vv main_v3) (h4 : G 4 = Vv main_v6) :
    (dat.arrays G : sProp 𝕄) ⊢ Pipeline.arrBufs (Ix := Unit) (Name := ℕ) (U := UR sig nD τ) (Lvl := ℕ) spec1 c Vv := by
  rw [arrBufs1_eq, arrays1_eq, hq0, hq1, hq2, hq3, h0, h1, h2, h3, h4]
  iintro ⟨Ha0, Ha1, Hb0, Hb1, Ho⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Ho

end

end Cert.Kernel.Gen

end
-- ==== Proof.KBody2Defs.lean ====
/-
  Launch 2: the two branch conditions of the body over the grid, where its result window is idle, and the
  body's memrefs at a point.
-/
import proofs.«134606_j77163382440707_2_alg».proof.Proof.Gen.Kernel.Launch
import proofs.«134606_j77163382440707_2_alg».proof.Proof.Gen.Kernel.Skeleton
import proofs.«134606_j77163382440707_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond2_0 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)
/-- The second branch (the accumulator is copied to the result): taken when both tiles are the last. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- The result window is idle exactly where the second branch is not taken, and is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging memref at point `t`, and its wholeness. -/
abbrev ms2_0 (t : Fin cfg2.N) : Memref sig .tc .vmem S1x3x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x3x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x3x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x1 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2 : Memref sig .tc .vmem S1x1 .f32 := Memref.whole cc2_scratch0
/-- The accumulator and one staging buffer of the result window, as views through which contents are stated. -/
abbrev VS2 : View sig .tc .vmem S1x1 .f32 := (scM2).view
abbrev VO2 : View sig .tc .vmem S1x1x1 .f32 := (Memref.whole cc2_stg4_0 : Memref sig .tc .vmem S1x1x1 .f32).view

end Cert.Kernel.Gen

end
-- ==== Proof.KBody2RunA.lean ====
/-
  Launch 2, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.KBody2Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨[], ?_, fun xi4 E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody2RunB.lean ====
/-
  Launch 2, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.KBody2Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨[], ?_, fun xi4 E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Gen

end
-- ==== Proof.KBody2RunC.lean ====
/-
  Launch 2, the last tile of a batch: the tile's total is added and the accumulator copied to the result block.  The body run on whole staging memrefs: the four input blocks at given contents stay as they
  were, and what the result block and the accumulator end with is recorded as the lists of their stores (last first).
-/
import proofs.«134606_j77163382440707_2_alg».proof.Proof.KBody2Defs

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨?_, ?_, fun E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Gen

end
-- ==== Proof.KRegion2.lean ====
/-
  Launch 2 at given entry contents `V` of the core's buffers: what the accumulator and the result block hold after
  each grid point (by recursion on the point, through the three cases of the body), the pipeline's proof data, and
  the body obligation at every point.
-/
import proofs.«134606_j77163382440707_2_alg».proof.Proof.KBody2RunA
import proofs.«134606_j77163382440707_2_alg».proof.Proof.KBody2RunB
import proofs.«134606_j77163382440707_2_alg».proof.Proof.KBody2RunC

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first tile's stores into the accumulator cover it. -/
theorem scover2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i) (x0 x1 x2 x3 : Vec F S1x3x1024 .f32) (y : S1x1.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1x1.size (by sl_kernel_rfl) y
/-- What the first tile leaves in the accumulator. -/
def sout2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i) (x0 x1 x2 x3 : Vec F S1x3x1024 .f32) : Vec F S1x1 .f32 :=
  VS2.read (Elt F) (VS2.writes (Elt F) VS2.junk (kernelRun2_A c i arg3 harg3 arg4 harg4 arg5 harg5 arg6 harg6 arg7 harg7 arg8 harg8 hc0 hc1 x0 x1 x2 x3).2.1)
/-- A middle tile's store into the accumulator covers it. -/
theorem scover2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i) (x0 x1 x2 x3 : Vec F S1x3x1024 .f32) (xs : Vec F S1x1 .f32) (y : S1x1.Idx) :
    ∃ pc ∈ (kernelRun2_B c i arg3 harg3 arg4 harg4 arg5 harg5 arg6 harg6 arg7 harg7 arg8 harg8 hc0 hc1 x0 x1 x2 x3 xs).2.1, y ∈ pc.1.set :=
  View.cover_of_tiledL (kernelRun2_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i) (x0 x1 x2 x3 : Vec F S1x3x1024 .f32) (xs : Vec F S1x1 .f32) : Vec F S1x1 .f32 :=
  VS2.read (Elt F) (VS2.writes (Elt F) VS2.junk (kernelRun2_B c i arg3 harg3 arg4 harg4 arg5 harg5 arg6 harg6 arg7 harg7 arg8 harg8 hc0 hc1 x0 x1 x2 x3 xs).2.1)
/-- The last tile's store into the accumulator covers it, and its store into the result block covers that. -/
theorem scover2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1x1.size (by sl_kernel_rfl) y
theorem cover2_C_4 (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) (y : S1x1x1.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) : Vec F S1x1 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)
def out2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) : Vec F S1x1x1 .f32 :=
  VO2.read (Elt F) (VO2.writes (Elt F) VO2.junk (kernelRun2_C c i arg3 harg3 arg4 harg4 arg5 harg5 arg6 harg6 arg7 harg7 arg8 harg8 hc0 hc1 x0 x1 x2 x3 xs).1)
/-- Where the result block is not stored (and not written back) its recorded contents are a placeholder nothing reads. -/
def idle2 : Vec F S1x1x1 .f32 := VO2.read (Elt F) VO2.junk

/-! ## Point by point -/

/-- What the result block and the accumulator hold after the body at point `n`: the case the point is in (first, middle
    or last tile of its batch), a middle or last tile over what the point before left in the accumulator. -/
def outsAt2 (c : Dev nD) : (n : ℕ) → n < cfg2.N → Vec F S1x1x1 .f32 × Vec F S1x1 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 16 = 0 then
      if h1 : (n + 1) % 16 = 15 then
        False.elim (by omega)
      else
        (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (idle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (idle2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)
theorem outsAt2_B (c : Dev nD) (t : Fin cfg2.N) (h0 : ¬t.val % 16 = 0) (h1 : ¬t.val % 16 = 15) :
    outsAt2 V c t.val t.isLt = (idle2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]
  rfl

/-- Before the first point the library's invariant; after point `n` the accumulator at what that point left. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q := qs
  owed _ := 0

theorem A_eq2 (c : Dev nD) (w : Fin cfg2.W) : (dat2 V qs c).A w = V c (Pipeline.arrRef spec2 w) := by
  dsimp only [dat2]
theorem PhiS2_castSucc (c : Dev nD) (t : Fin cfg2.N) :
    (dat2 V qs c).Φ t.castSucc = PhiS2 V c t.val (Nat.le_of_lt t.isLt) := by
  dsimp only [dat2]; simp only [Fin.coe_castSucc]
theorem after2_0 (c : Dev nD) (t : Fin cfg2.N) : (dat2 V qs c).after 0 t = iblk2 V c 0 t := by dsimp only [dat2]
theorem after2_1 (c : Dev nD) (t : Fin cfg2.N) : (dat2 V qs c).after 1 t = iblk2 V c 1 t := by dsimp only [dat2]
theorem after2_2 (c : Dev nD) (t : Fin cfg2.N) : (dat2 V qs c).after 2 t = iblk2 V c 2 t := by dsimp only [dat2]
theorem after2_3 (c : Dev nD) (t : Fin cfg2.N) : (dat2 V qs c).after 3 t = iblk2 V c 3 t := by dsimp only [dat2]
theorem after2_4 (c : Dev nD) (t : Fin cfg2.N) : (dat2 V qs c).after 4 t = (outsAt2 V c t.val t.isLt).1 := by dsimp only [dat2]
theorem before2_0 (c : Dev nD) (t : Fin cfg2.N) (d) : (dat2 V qs c).before 0 t d = iblk2 V c 0 t :=
  before2_0_of V (dat2 V qs c) (A_eq2 V qs c 0) (after2_0 V qs c) t d
theorem before2_1 (c : Dev nD) (t : Fin cfg2.N) (d) : (dat2 V qs c).before 1 t d = iblk2 V c 1 t :=
  before2_1_of V (dat2 V qs c) (A_eq2 V qs c 1) (after2_1 V qs c) t d
theorem before2_2 (c : Dev nD) (t : Fin cfg2.N) (d) : (dat2 V qs c).before 2 t d = iblk2 V c 2 t :=
  before2_2_of V (dat2 V qs c) (A_eq2 V qs c 2) (after2_2 V qs c) t d
theorem before2_3 (c : Dev nD) (t : Fin cfg2.N) (d) : (dat2 V qs c).before 3 t d = iblk2 V c 3 t :=
  before2_3_of V (dat2 V qs c) (A_eq2 V qs c 3) (after2_3 V qs c) t d

/-! ## The body obligation -/

def bodyPre2 (c : Dev nD) (t : Fin cfg2.N) : sProp 𝕄 :=
  iprop((dat2 V qs c).Φ t.castSucc ∗ (dat2 V qs c).owesAt () t.castSucc
    ∗ (∃ d, owns (c : Thread nD τ) (ms2_0 t) fullShare ((dat2 V qs c).before 0 t d))
    ∗ (∃ d, owns (c : Thread nD τ) (ms2_1 t) fullShare ((dat2 V qs c).before 1 t d))
    ∗ (∃ d, owns (c : Thread nD τ) (ms2_2 t) fullShare ((dat2 V qs c).before 2 t d))
    ∗ (∃ d, owns (c : Thread nD τ) (ms2_3 t) fullShare ((dat2 V qs c).before 3 t d))
    ∗ (∃ d, owns (c : Thread nD τ) (ms2_4 t) fullShare ((dat2 V qs c).before 4 t d)))

def bodyPost2 (c : Dev nD) (t : Fin cfg2.N) : sProp 𝕄 :=
  iprop((dat2 V qs c).Φ t.succ ∗ (dat2 V qs c).owesAt () t.succ
    ∗ (dat2 V qs c).leavesExact 0 t
    ∗ (dat2 V qs c).leavesExact 1 t
    ∗ (dat2 V qs c).leavesExact 2 t
    ∗ (dat2 V qs c).leavesExact 3 t
    ∗ (dat2 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body2 (c : Dev nD) (t : Fin cfg2.N) :
    bodyPre2 V qs c t ⊢ wp frame (wpE (defs₀ (F := F)) Variants.none c none) Set.univ (bodyAt2 t) (fun _ => bodyPost2 V qs c t) := by
  unfold bodyPre2 bodyPost2 bodyAt2
  simp only [before2_0, before2_1, before2_2, before2_3]
  rw [show (dat2 V qs c).owesAt () t.succ = (dat2 V qs c).owesAt () t.castSucc from rfl]
  rw [show (dat2 V qs c).Φ t.succ = PhiS2 V c (t.val + 1) t.isLt from rfl, PhiS2_succ]
  have hN : t.val < 64 := lt_of_lt_of_eq t.isLt (show cfg2.N = 64 from N_2)
  by_cases h0 : t.val % 16 = 0
  · by_cases h1 : t.val % 16 = 15
    · exfalso; omega
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [Dat.leavesExact_idle (dat2 V qs c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V qs c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V qs c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [show (dat2 V qs c).leavesExact 4 t = owns (c : Thread nD τ) (ms2_4 t) fullShare ((dat2 V qs c).after 4 t) from by
        unfold Dat.leavesExact; rw [liveAt2_4 t ((hcond2_1 t).mpr h1)], after2_4]
      rw [outsAt2_C V c t h0 h1]
      unfold out2_C sout2_C; (try dsimp only)
      have hz : t.val ≠ 0 := by omega
      rw [PhiS2_castSucc V qs c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [Dat.leavesExact_idle (dat2 V qs c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := by omega
      rw [PhiS2_castSucc V qs c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V qs c) (defs₀ (F := F)) Variants.none () Set.univ := fun t => by
  rw [bigSep_W2, bigSep_W2]
  exact sound_body2 V qs c t

/-- What the launch hands the region is the invariant before the first point. -/
theorem hin2 (c : Dev nD) : Pipeline.ΦA spec2 c ⊢ (dat2 V qs c).Φ 0 := by
  rw [show (dat2 V qs c).Φ 0 = PhiS2 V c 0 (Nat.zero_le _) from rfl, PhiS2_zero V c 0 _ rfl]
  try exact Idealize.SL.BI.Entails.refl _

/-- After the last point the invariant gives the library's back: the accumulator's contents are forgotten. -/
theorem hout2 (c : Dev nD) : (dat2 V qs c).Φ (Fin.last cfg2.N) ⊢ Pipeline.ΦA spec2 c := by
  rw [show (dat2 V qs c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrest⟩, Hg⟩
  isplitl [HS0 Hrest]
  · isplitl [HS0]
    · iexists _; iexact HS0
    iexact Hrest
  iexact Hg

end Region

end Cert.Kernel.Gen

end
-- ==== Proof.KRunMain.lean ====
/-
  The whole program at any float instance: the core's buffer contents at every boundary between the host stretches and
  the three launches, the three launches as segments of @main, and the run — every weakly fair execution terminates with
  every unscoped buffer at the last boundary's contents.
-/
import proofs.«134606_j77163382440707_2_alg».proof.Proof.KSharePair0
import proofs.«134606_j77163382440707_2_alg».proof.Proof.KSharePair1
import proofs.«134606_j77163382440707_2_alg».proof.Proof.KRegion2
import proofs.«134606_j77163382440707_2_alg».proof.Proof.Gen.Kernel.Regions

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Launches 0 and 1 read each input array through two windows: the windows get the two halves of the array's share. -/
def qsPair : Fin 5 → PosShare TreeShare := fun w => if w.val % 2 = 0 then fullShare.left else fullShare.right
/-- Launch 2's five windows are on five arrays, each held whole. -/
def qsFull : Fin 5 → PosShare TreeShare := fun _ => fullShare

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After launch 0: its result array at what the write-backs leave, every other buffer as entered. -/
def W2 (c : Dev nD) : Valuation τ sig (Elt F) :=
  Function.update (W1 m ρ c) (Proc.devRef .tc main_v4) ((dat0 (U1 m ρ) qsPair c).arrAt 4 cfg0.N)
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After launch 1. -/
def W4 (c : Dev nD) : Valuation τ sig (Elt F) :=
  Function.update (W3 m ρ c) (Proc.devRef .tc main_v6) ((dat1 (U3 m ρ) qsPair c).arrAt 4 cfg1.N)
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After launch 2. -/
def W6 (c : Dev nD) : Valuation τ sig (Elt F) :=
  Function.update (W5 m ρ c) (Proc.devRef .tc main_v8) ((dat2 (U5 m ρ) qsFull c).arrAt 4 cfg2.N)
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)

theorem W2_out (c : Dev nD) : W2 m ρ c (Proc.devRef .tc main_v4) = (dat0 (U1 m ρ) qsPair c).arrAt 4 cfg0.N := by
  unfold W2; exact Function.update_self ..
theorem W2_of_ne (c : Dev nD) (b : Ref sig .tc) (hb : b ≠ main_v4) : W2 m ρ c (Proc.devRef .tc b) = W1 m ρ c (Proc.devRef .tc b) := by
  unfold W2; exact Function.update_of_ne (StableHlo.devRef_ne_of_ne hb) ..

theorem W4_out (c : Dev nD) : W4 m ρ c (Proc.devRef .tc main_v6) = (dat1 (U3 m ρ) qsPair c).arrAt 4 cfg1.N := by
  unfold W4; exact Function.update_self ..
theorem W4_of_ne (c : Dev nD) (b : Ref sig .tc) (hb : b ≠ main_v6) : W4 m ρ c (Proc.devRef .tc b) = W3 m ρ c (Proc.devRef .tc b) := by
  unfold W4; exact Function.update_of_ne (StableHlo.devRef_ne_of_ne hb) ..

theorem W6_out (c : Dev nD) : W6 m ρ c (Proc.devRef .tc main_v8) = (dat2 (U5 m ρ) qsFull c).arrAt 4 cfg2.N := by
  unfold W6; exact Function.update_self ..
theorem W6_of_ne (c : Dev nD) (b : Ref sig .tc) (hb : b ≠ main_v8) : W6 m ρ c (Proc.devRef .tc b) = W5 m ρ c (Proc.devRef .tc b) := by
  unfold W6; exact Function.update_of_ne (StableHlo.devRef_ne_of_ne hb) ..

theorem W2_in0 (c : Dev nD) : W2 m ρ c (Proc.devRef .tc main_v0) = U1 m ρ c main_v0 := W2_of_ne m ρ c main_v0 (by decide)
theorem W2_in2 (c : Dev nD) : W2 m ρ c (Proc.devRef .tc main_v2) = U1 m ρ c main_v2 := W2_of_ne m ρ c main_v2 (by decide)
theorem W4_in0 (c : Dev nD) : W4 m ρ c (Proc.devRef .tc main_v1) = U3 m ρ c main_v1 := W4_of_ne m ρ c main_v1 (by decide)
theorem W4_in2 (c : Dev nD) : W4 m ρ c (Proc.devRef .tc main_v3) = U3 m ρ c main_v3 := W4_of_ne m ρ c main_v3 (by decide)
/-- Off a launch's arrays nothing changes across it. -/
theorem W2_rest (c : Dev nD) :
    (Pipeline.unscopedRest (Ix := Unit) (Name := ℕ) (U := UR sig nD τ) (Lvl := ℕ) spec0 c (U1 m ρ c) : sProp 𝕄)
      = Pipeline.unscopedRest (Ix := Unit) (Name := ℕ) (U := UR sig nD τ) (Lvl := ℕ) spec0 c (U2 m ρ c) := by
  unfold Pipeline.unscopedRest
  exact bigSep_congr fun b hb => by
    have h : U2 m ρ c b = U1 m ρ c b := W2_of_ne m ρ c b (fun e => (Finset.mem_sdiff.mp hb).2 (e ▸ (by decide : main_v4 ∈ Finset.univ.image (Pipeline.arrRef spec0))))
    rw [h]
theorem W4_rest (c : Dev nD) :
    (Pipeline.unscopedRest (Ix := Unit) (Name := ℕ) (U := UR sig nD τ) (Lvl := ℕ) spec1 c (U3 m ρ c) : sProp 𝕄)
      = Pipeline.unscopedRest (Ix := Unit) (Name := ℕ) (U := UR sig nD τ) (Lvl := ℕ) spec1 c (U4 m ρ c) := by
  unfold Pipeline.unscopedRest
  exact bigSep_congr fun b hb => by
    have h : U4 m ρ c b = U3 m ρ c b := W4_of_ne m ρ c b (fun e => (Finset.mem_sdiff.mp hb).2 (e ▸ (by decide : main_v6 ∈ Finset.univ.image (Pipeline.arrRef spec1))))
    rw [h]

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (U1 m ρ) qsPair c
  | ⟨1, _⟩ => fun c => dat1 (U3 m ρ) qsPair c
  | ⟨2, _⟩ => fun c => dat2 (U5 m ρ) qsFull c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state "every unscoped buffer at the boundary's contents, the generator register at some
    state, nothing owed": entered at `W1`, left at `W2`.  Its two input arrays are dealt to their two windows by
    halves and joined again; the result array comes back at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) qsPair c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hub := Pipeline.unscopedBufs_split₀ (Ix := Unit) (Name := ℕ) (U := UR sig nD τ) (Lvl := ℕ) cfgs 0 winFacts₀0.arr_unscoped c (U1 m ρ c)
    rw [Pipeline.unscopedBufs_held] at hub
    rw [hub]
    iintro ⟨⟨⟨Ha, Hrest⟩, Hp, HO⟩, -, -⟩
    imodintro
    isplitl [Ha]
    · iapply (arrays0_of_bufs c (pdats m ρ 0 c) rfl rfl rfl rfl (U1 m ρ c) ((pdats m ρ 0 c).arrAt · 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (U1 m ρ) c 0 (Nat.zero_le _) from rfl, PhiS0_zero (U1 m ρ) c 0 _ rfl]; unfold Pipeline.ΦA
    iintro ⟨Hp, -, Hr⟩
    isplitl [Hr]; · iexact Hr
    iexact Hp
  hout c := by
    rw [Pipeline.ownSems0_none]
    refine (hout0 (U1 m ρ) qsPair c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 0 winFacts₀0.arr_unscoped c (U2 m ρ c)
    rw [Pipeline.unscopedBufs_held] at hub
    rw [hub]
    iintro ⟨Ha, HO, HY, Hrest⟩
    imodintro
    isplitl [Ha Hrest]
    · isplitl [Ha]
      · iapply (bufs0_of_arrays c (pdats m ρ 0 c) rfl rfl rfl rfl (U2 m ρ c) ((pdats m ρ 0 c).arrAt · cfg0.N)
          (((pdats m ρ 0 c).arrAt_in 0 rfl _).trans (W2_in0 m ρ c).symm) (((pdats m ρ 0 c).arrAt_in 1 rfl _).trans (W2_in0 m ρ c).symm)
          (((pdats m ρ 0 c).arrAt_in 2 rfl _).trans (W2_in2 m ρ c).symm) (((pdats m ρ 0 c).arrAt_in 3 rfl _).trans (W2_in2 m ρ c).symm)
          (W2_out m ρ c).symm)
        iexact Ha
      · iapply (Entails.of_eq (W2_rest m ρ c))
        iexact Hrest
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": entered at `W3`, left at `W4`.  Its two input arrays are dealt to their two windows by
    halves and joined again; the result array comes back at what the write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) qsPair c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hub := Pipeline.unscopedBufs_split₀ (Ix := Unit) (Name := ℕ) (U := UR sig nD τ) (Lvl := ℕ) cfgs 1 winFacts₀1.arr_unscoped c (U3 m ρ c)
    rw [Pipeline.unscopedBufs_held] at hub
    rw [hub]
    iintro ⟨⟨⟨Ha, Hrest⟩, Hp, HO⟩, -, -⟩
    imodintro
    isplitl [Ha]
    · iapply (arrays1_of_bufs c (pdats m ρ 1 c) rfl rfl rfl rfl (U3 m ρ c) ((pdats m ρ 1 c).arrAt · 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (U3 m ρ) c 0 (Nat.zero_le _) from rfl, PhiS1_zero (U3 m ρ) c 0 _ rfl]; unfold Pipeline.ΦA
    iintro ⟨Hp, -, Hr⟩
    isplitl [Hr]; · iexact Hr
    iexact Hp
  hout c := by
    rw [Pipeline.ownSems0_none]
    refine (hout1 (U3 m ρ) qsPair c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 1 winFacts₀1.arr_unscoped c (U4 m ρ c)
    rw [Pipeline.unscopedBufs_held] at hub
    rw [hub]
    iintro ⟨Ha, HO, HY, Hrest⟩
    imodintro
    isplitl [Ha Hrest]
    · isplitl [Ha]
      · iapply (bufs1_of_arrays c (pdats m ρ 1 c) rfl rfl rfl rfl (U4 m ρ c) ((pdats m ρ 1 c).arrAt · cfg1.N)
          (((pdats m ρ 1 c).arrAt_in 0 rfl _).trans (W4_in0 m ρ c).symm) (((pdats m ρ 1 c).arrAt_in 1 rfl _).trans (W4_in0 m ρ c).symm)
          (((pdats m ρ 1 c).arrAt_in 2 rfl _).trans (W4_in2 m ρ c).symm) (((pdats m ρ 1 c).arrAt_in 3 rfl _).trans (W4_in2 m ρ c).symm)
          (W4_out m ρ c).symm)
        iexact Ha
      · iapply (Entails.of_eq (W4_rest m ρ c))
        iexact Hrest
    isplitl [HY]; · iexact HY
    unfold Pipeline.Dat.owesAt Pipeline.owesWithin
    icases HO with ⟨%W, -, HO⟩; iexists W; iexact HO

/-! ### Launch 2: five windows on five arrays -/

theorem hF2 (c : Dev nD) (w : Fin cfg2.W) : (dat2 (U5 m ρ) qsFull c).arrAt w cfg2.N = U6 m ρ c (Pipeline.arrRef spec2 w) := by
  match w with
  | ⟨0, _⟩ => exact ((dat2 (U5 m ρ) qsFull c).arrAt_in 0 rfl _).trans ((A_eq2 (U5 m ρ) qsFull c 0).trans (W6_of_ne m ρ c main_v0 (by decide)).symm)
  | ⟨1, _⟩ => exact ((dat2 (U5 m ρ) qsFull c).arrAt_in 1 rfl _).trans ((A_eq2 (U5 m ρ) qsFull c 1).trans (W6_of_ne m ρ c main_v1 (by decide)).symm)
  | ⟨2, _⟩ => exact ((dat2 (U5 m ρ) qsFull c).arrAt_in 2 rfl _).trans ((A_eq2 (U5 m ρ) qsFull c 2).trans (W6_of_ne m ρ c main_v2 (by decide)).symm)
  | ⟨3, _⟩ => exact ((dat2 (U5 m ρ) qsFull c).arrAt_in 3 rfl _).trans ((A_eq2 (U5 m ρ) qsFull c 3).trans (W6_of_ne m ρ c main_v3 (by decide)).symm)
  | ⟨4, _⟩ => exact (W6_out m ρ c).symm
theorem hrest2 (c : Dev nD) : ∀ b, b ∉ Finset.univ.image (Pipeline.arrRef spec2) → U6 m ρ c b = U5 m ρ c b :=
  fun b hb => W6_of_ne m ρ c b fun e => hb (e ▸ (by decide : main_v8 ∈ Finset.univ.image (Pipeline.arrRef spec2)))

set_option backward.isDefEq.respectTransparency.types false in
/-- Launch 2 over the thread state: entered at `W5`, left at `W6`; its arrays split out of the unscoped buffers and
    put back, each whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) qsFull c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiS2 (U5 m ρ) c 0 (Nat.zero_le _) from rfl, PhiS2_zero (U5 m ρ) c 0 _ rfl]; unfold Pipeline.ΦA
    iintro ⟨Hp, -, Hr⟩
    isplitl [Hr]; · iexact Hr
    iexact Hp
  hout c := by
    rw [Pipeline.ownSems0_none]
    refine (hout2 (U5 m ρ) qsFull c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (msegs m ρ) := (main_chain c).trans (by chain_rfl)

set_option backward.isDefEq.respectTransparency.types false in
/-- THE RUN.  At the compiled mesh, from any memory with zero counters, every weakly fair execution of @main on the
    TensorCores terminates, nothing faulting, and in every final state every unscoped buffer of every core holds the
    last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Gen

end
-- ==== Proof.KFrames.lean ====
/-
  The frame: in every final state each argument array holds what it was launched with — no host stretch writes an
  argument and no launch's result array is one.
-/
import proofs.«134606_j77163382440707_2_alg».proof.Proof.KRunMain

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no launch's result reaches the end as launched. -/
theorem W7_keep (c : Dev nD) (r : Ref sig .tc) (h0 : r ∉ hostOps0_W) (h1 : r ∉ hostOps1_W) (h2 : r ∉ hostOps2_W) (h3 : r ∉ hostOps3_W)
    (h4 : r ≠ main_v4) (h6 : r ≠ main_v6) (h8 : r ≠ main_v8) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r h8
    _ = W4 m ρ c (Proc.devRef .tc r) := StableHlo.after_of_writes_sub hostOps2 _ hostOps2_writes h2
    _ = W3 m ρ c (Proc.devRef .tc r) := W4_of_ne m ρ c r h6
    _ = W2 m ρ c (Proc.devRef .tc r) := StableHlo.after_of_writes_sub hostOps1 _ hostOps1_writes h1
    _ = W1 m ρ c (Proc.devRef .tc r) := W2_of_ne m ρ c r h4
    _ = W0 m ρ c (Proc.devRef .tc r) := StableHlo.after_of_writes_sub hostOps0 _ hostOps0_writes h0
    _ = m ((c : Thread nD τ).loc r) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_keep m ρ c main_arg0 (by decide) (by decide) (by decide) (by decide) (by decide) (by decide) (by decide)),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide))⟩)
    (run_all m ρ)

end Cert.Kernel.Gen

end
-- ==== Proof.Body0Defs.lean ====
/-
  Launch 0: the two branch conditions of the body over the grid, where its result window is idle, and the
  body's memrefs at a point.
-/
import proofs.«134606_j77163382440707_2_alg».proof.Proof.Gen.KernelIdeal.Launch
import proofs.«134606_j77163382440707_2_alg».proof.Proof.Gen.KernelIdeal.Skeleton
import proofs.«134606_j77163382440707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond0_0 (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond0_0 : ∀ t : Fin cfg0.N, cond0_0 (grid0.coords t) ↔ t.val % 16 = 0 :=
  (by decide +kernel : ∀ t : Fin grid0.N, cond0_0 (grid0.coords t) ↔ t.val % 16 = 0)
/-- The second branch (the accumulator is copied to the result): taken when both tiles are the last. -/
abbrev cond0_1 (i : grid0.Coords) : Prop := k0_cond2 i = 1#1
/-- It holds at the points ≡ 15 (mod 16). -/
theorem hcond0_1 : ∀ t : Fin cfg0.N, cond0_1 (grid0.coords t) ↔ t.val % 16 = 15 :=
  (by decide +kernel : ∀ t : Fin grid0.N, cond0_1 (grid0.coords t) ↔ t.val % 16 = 15)

/-- The result window is idle exactly where the second branch is not taken, and is not written back there. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-- Each window's current staging memref at point `t`, and its wholeness. -/
abbrev ms0_0 (t : Fin cfg0.N) : Memref sig .tc .vmem S1x3x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x3x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0 : Memref sig .tc .vmem S1x1 .f32 := Memref.whole cc0_scratch0
/-- The accumulator and one staging buffer of the result window, as views through which contents are stated. -/
abbrev VS0 : View sig .tc .vmem S1x1 .f32 := (scM0).view
abbrev VO0 : View sig .tc .vmem S1x1x1 .f32 := (Memref.whole cc0_stg4_0 : Memref sig .tc .vmem S1x1x1 .f32).view

end Cert.KernelIdeal.Gen

end
-- ==== Proof.Body0RunA.lean ====
/-
  Launch 0, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.Body0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨[], ?_, fun xi4 E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body0RunB.lean ====
/-
  Launch 0, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.Body0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨[], ?_, fun xi4 E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body0RunC.lean ====
/-
  Launch 0, the last tile of a batch: the tile's total is added and the accumulator copied to the result block.  The body run on whole staging memrefs: the four input blocks at given contents stay as they
  were, and what the result block and the accumulator end with is recorded as the lists of their stores (last first).
-/
import proofs.«134606_j77163382440707_2_alg».proof.Proof.Body0Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc0__kernel_sum_kernel i arg3 harg3 arg4 harg4 arg5 harg5 arg6 harg6 arg7 harg7 arg8 harg8) K } := by
  refine ⟨?_, ?_, fun E K => ?run⟩
  case run =>
    simp only [cc0__kernel_sum_kernel_eq_skeleton]; unfold cc0__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.Region0.lean ====
/-
  Launch 0 at given entry contents `V` of the core's buffers: what the accumulator and the result block hold after
  each grid point (by recursion on the point, through the three cases of the body), the pipeline's proof data, and
  the body obligation at every point.
-/
import proofs.«134606_j77163382440707_2_alg».proof.Proof.Body0RunA
import proofs.«134606_j77163382440707_2_alg».proof.Proof.Body0RunB
import proofs.«134606_j77163382440707_2_alg».proof.Proof.Body0RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What each case leaves -/

/-- The first tile's stores into the accumulator cover it. -/
theorem scover0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 x1 x2 x3 : Vec F S1x3x1024 .f32) (y : S1x1.Idx) :
    ∃ pc ∈ (kernelRun0_A c i arg3 harg3 arg4 harg4 arg5 harg5 arg6 harg6 arg7 harg7 arg8 harg8 hc0 hc1 x0 x1 x2 x3).2.1, y ∈ pc.1.set :=
  View.cover_of_tiledL (kernelRun0_A c i arg3 harg3 arg4 harg4 arg5 harg5 arg6 harg6 arg7 harg7 arg8 harg8 hc0 hc1 x0 x1 x2 x3).2.1 S1x1.size (by sl_kernel_rfl) y
/-- What the first tile leaves in the accumulator. -/
def sout0_A (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 x1 x2 x3 : Vec F S1x3x1024 .f32) : Vec F S1x1 .f32 :=
  VS0.read (Elt F) (VS0.writes (Elt F) VS0.junk (kernelRun0_A c i arg3 harg3 arg4 harg4 arg5 harg5 arg6 harg6 arg7 harg7 arg8 harg8 hc0 hc1 x0 x1 x2 x3).2.1)
/-- A middle tile's store into the accumulator covers it. -/
theorem scover0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 x1 x2 x3 : Vec F S1x3x1024 .f32) (xs : Vec F S1x1 .f32) (y : S1x1.Idx) :
    ∃ pc ∈ (kernelRun0_B c i arg3 harg3 arg4 harg4 arg5 harg5 arg6 harg6 arg7 harg7 arg8 harg8 hc0 hc1 x0 x1 x2 x3 xs).2.1, y ∈ pc.1.set :=
  View.cover_of_tiledL (kernelRun0_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout0_B (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 x1 x2 x3 : Vec F S1x3x1024 .f32) (xs : Vec F S1x1 .f32) : Vec F S1x1 .f32 :=
  VS0.read (Elt F) (VS0.writes (Elt F) VS0.junk (kernelRun0_B c i arg3 harg3 arg4 harg4 arg5 harg5 arg6 harg6 arg7 harg7 arg8 harg8 hc0 hc1 x0 x1 x2 x3 xs).2.1)
/-- The last tile's store into the accumulator covers it, and its store into the result block covers that. -/
theorem scover0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) (y : S1x1.Idx) :
    ∃ pc ∈ (kernelRun0_C c i arg3 harg3 arg4 harg4 arg5 harg5 arg6 harg6 arg7 harg7 arg8 harg8 hc0 hc1 x0 x1 x2 x3 xs).2.1, y ∈ pc.1.set :=
  View.cover_of_tiledL (kernelRun0_C c i arg3 harg3 arg4 harg4 arg5 harg5 arg6 harg6 arg7 harg7 arg8 harg8 hc0 hc1 x0 x1 x2 x3 xs).2.1 S1x1.size (by sl_kernel_rfl) y
theorem cover0_C_4 (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) (y : S1x1x1.Idx) :
    ∃ pc ∈ (kernelRun0_C c i arg3 harg3 arg4 harg4 arg5 harg5 arg6 harg6 arg7 harg7 arg8 harg8 hc0 hc1 x0 x1 x2 x3 xs).1, y ∈ pc.1.set :=
  View.cover_of_tiledL (kernelRun0_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) : Vec F S1x1 .f32 :=
  VS0.read (Elt F) (VS0.writes (Elt F) VS0.junk (kernelRun0_C c i arg3 harg3 arg4 harg4 arg5 harg5 arg6 harg6 arg7 harg7 arg8 harg8 hc0 hc1 x0 x1 x2 x3 xs).2.1)
def out0_C (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) : Vec F S1x1x1 .f32 :=
  VO0.read (Elt F) (VO0.writes (Elt F) VO0.junk (kernelRun0_C c i arg3 harg3 arg4 harg4 arg5 harg5 arg6 harg6 arg7 harg7 arg8 harg8 hc0 hc1 x0 x1 x2 x3 xs).1)
/-- Where the result block is not stored (and not written back) its recorded contents are a placeholder nothing reads. -/
def idle0 : Vec F S1x1x1 .f32 := VO0.read (Elt F) VO0.junk

/-! ## Point by point -/

/-- What the result block and the accumulator hold after the body at point `n`: the case the point is in (first, middle
    or last tile of its batch), a middle or last tile over what the point before left in the accumulator. -/
def outsAt0 (c : Dev nD) : (n : ℕ) → n < cfg0.N → Vec F S1x1x1 .f32 × Vec F S1x1 .f32
  | 0, hn => (idle0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 16 = 0 then
      if h1 : (n + 1) % 16 = 15 then
        False.elim (by omega)
      else
        (idle0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2,
         sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (idle0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idle0, sout0_A c (grid0.coords t) (ms0_0 t) (hs0_0 t) (ms0_1 t) (hs0_1 t) (ms0_2 t) (hs0_2 t) (ms0_3 t) (hs0_3 t) (ms0_4 t) (hs0_4 t) scM0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)
theorem outsAt0_B (c : Dev nD) (t : Fin cfg0.N) (h0 : ¬t.val % 16 = 0) (h1 : ¬t.val % 16 = 15) :
    outsAt0 V c t.val t.isLt = (idle0, sout0_B c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (ms0_3 t) (hs0_3 t) (ms0_4 t) (hs0_4 t) scM0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS0 (c : Dev nD) : sProp 𝕄 :=
  bigSep (((Finset.univ.filter fun b : Ref sig .tc => b.isScoped) \ Finset.univ.image (Pipeline.stageRef spec0)).erase cc0_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA0_eq (c : Dev nD) :
    (Pipeline.ΦA spec0 c : sProp 𝕄)
      = iprop(iprop((∃ d, owns (c : Thread nD τ) scM0 fullShare d) ∗ restS0 c) ∗ (∃ r, prngReg c r)) := by
  unfold Pipeline.ΦA Pipeline.scopedRest restS0
  rw [bigSep_erase (i := cc0_scratch0) (by decide)]
  simp only [scM0, owns_whole]
  rfl

/-- Before the first point the library's invariant; after point `n` the accumulator at what that point left. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ restS0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ restS0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ restS0 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS0 V c t.val (Nat.le_of_lt_succ t.isLt)
  q := qs
  owed _ := 0

theorem A_eq0 (c : Dev nD) (w : Fin cfg0.W) : (dat0 V qs c).A w = V c (Pipeline.arrRef spec0 w) := by
  dsimp only [dat0]
theorem PhiS0_castSucc (c : Dev nD) (t : Fin cfg0.N) :
    (dat0 V qs c).Φ t.castSucc = PhiS0 V c t.val (Nat.le_of_lt t.isLt) := by
  dsimp only [dat0]; simp only [Fin.coe_castSucc]
theorem after0_0 (c : Dev nD) (t : Fin cfg0.N) : (dat0 V qs c).after 0 t = iblk0 V c 0 t := by dsimp only [dat0]
theorem after0_1 (c : Dev nD) (t : Fin cfg0.N) : (dat0 V qs c).after 1 t = iblk0 V c 1 t := by dsimp only [dat0]
theorem after0_2 (c : Dev nD) (t : Fin cfg0.N) : (dat0 V qs c).after 2 t = iblk0 V c 2 t := by dsimp only [dat0]
theorem after0_3 (c : Dev nD) (t : Fin cfg0.N) : (dat0 V qs c).after 3 t = iblk0 V c 3 t := by dsimp only [dat0]
theorem after0_4 (c : Dev nD) (t : Fin cfg0.N) : (dat0 V qs c).after 4 t = (outsAt0 V c t.val t.isLt).1 := by dsimp only [dat0]
theorem before0_0 (c : Dev nD) (t : Fin cfg0.N) (d) : (dat0 V qs c).before 0 t d = iblk0 V c 0 t :=
  before0_0_of V (dat0 V qs c) (A_eq0 V qs c 0) (after0_0 V qs c) t d
theorem before0_1 (c : Dev nD) (t : Fin cfg0.N) (d) : (dat0 V qs c).before 1 t d = iblk0 V c 1 t :=
  before0_1_of V (dat0 V qs c) (A_eq0 V qs c 1) (after0_1 V qs c) t d
theorem before0_2 (c : Dev nD) (t : Fin cfg0.N) (d) : (dat0 V qs c).before 2 t d = iblk0 V c 2 t :=
  before0_2_of V (dat0 V qs c) (A_eq0 V qs c 2) (after0_2 V qs c) t d
theorem before0_3 (c : Dev nD) (t : Fin cfg0.N) (d) : (dat0 V qs c).before 3 t d = iblk0 V c 3 t :=
  before0_3_of V (dat0 V qs c) (A_eq0 V qs c 3) (after0_3 V qs c) t d

/-! ## The body obligation -/

def bodyPre0 (c : Dev nD) (t : Fin cfg0.N) : sProp 𝕄 :=
  iprop((dat0 V qs c).Φ t.castSucc ∗ (dat0 V qs c).owesAt () t.castSucc
    ∗ (∃ d, owns (c : Thread nD τ) (ms0_0 t) fullShare ((dat0 V qs c).before 0 t d))
    ∗ (∃ d, owns (c : Thread nD τ) (ms0_1 t) fullShare ((dat0 V qs c).before 1 t d))
    ∗ (∃ d, owns (c : Thread nD τ) (ms0_2 t) fullShare ((dat0 V qs c).before 2 t d))
    ∗ (∃ d, owns (c : Thread nD τ) (ms0_3 t) fullShare ((dat0 V qs c).before 3 t d))
    ∗ (∃ d, owns (c : Thread nD τ) (ms0_4 t) fullShare ((dat0 V qs c).before 4 t d)))

def bodyPost0 (c : Dev nD) (t : Fin cfg0.N) : sProp 𝕄 :=
  iprop((dat0 V qs c).Φ t.succ ∗ (dat0 V qs c).owesAt () t.succ
    ∗ (dat0 V qs c).leavesExact 0 t
    ∗ (dat0 V qs c).leavesExact 1 t
    ∗ (dat0 V qs c).leavesExact 2 t
    ∗ (dat0 V qs c).leavesExact 3 t
    ∗ (dat0 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body0 (c : Dev nD) (t : Fin cfg0.N) :
    bodyPre0 V qs c t ⊢ wp frame (wpE (defs₀ (F := F)) Variants.none c none) Set.univ (bodyAt0 t) (fun _ => bodyPost0 V qs c t) := by
  unfold bodyPre0 bodyPost0 bodyAt0
  simp only [before0_0, before0_1, before0_2, before0_3]
  rw [show (dat0 V qs c).owesAt () t.succ = (dat0 V qs c).owesAt () t.castSucc from rfl]
  rw [show (dat0 V qs c).Φ t.succ = PhiS0 V c (t.val + 1) t.isLt from rfl, PhiS0_succ]
  have hN : t.val < 64 := lt_of_lt_of_eq t.isLt (show cfg0.N = 64 from N_0)
  by_cases h0 : t.val % 16 = 0
  · by_cases h1 : t.val % 16 = 15
    · exfalso; omega
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [Dat.leavesExact_idle (dat0 V qs c) 4 t (idleAt0_4 t (fun h => h1 ((hcond0_1 t).mp h))) (noFlush0_4 t (fun h => h1 ((hcond0_1 t).mp h)))]
      rw [outsAt0_A V c t h0 h1]
      unfold sout0_A; (try dsimp only)
      by_cases hz : t.val = 0
      · rw [PhiS0_castSucc V qs c t, PhiS0_zero V c _ _ hz, PhiA0_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS0_castSucc V qs c t, PhiS0_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [show (dat0 V qs c).leavesExact 4 t = owns (c : Thread nD τ) (ms0_4 t) fullShare ((dat0 V qs c).after 4 t) from by
        unfold Dat.leavesExact; rw [liveAt0_4 t ((hcond0_1 t).mpr h1)], after0_4]
      rw [outsAt0_C V c t h0 h1]
      unfold out0_C sout0_C; (try dsimp only)
      have hz : t.val ≠ 0 := by omega
      rw [PhiS0_castSucc V qs c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V qs c).leavesExact 0 t = owns (c : Thread nD τ) (ms0_0 t) fullShare ((dat0 V qs c).after 0 t) from by
        unfold Dat.leavesExact; rw [liveAt0_0 t], after0_0]
      rw [show (dat0 V qs c).leavesExact 1 t = owns (c : Thread nD τ) (ms0_1 t) fullShare ((dat0 V qs c).after 1 t) from by
        unfold Dat.leavesExact; rw [liveAt0_1 t], after0_1]
      rw [show (dat0 V qs c).leavesExact 2 t = owns (c : Thread nD τ) (ms0_2 t) fullShare ((dat0 V qs c).after 2 t) from by
        unfold Dat.leavesExact; rw [liveAt0_2 t], after0_2]
      rw [show (dat0 V qs c).leavesExact 3 t = owns (c : Thread nD τ) (ms0_3 t) fullShare ((dat0 V qs c).after 3 t) from by
        unfold Dat.leavesExact; rw [liveAt0_3 t], after0_3]
      rw [Dat.leavesExact_idle (dat0 V qs c) 4 t (idleAt0_4 t (fun h => h1 ((hcond0_1 t).mp h))) (noFlush0_4 t (fun h => h1 ((hcond0_1 t).mp h)))]
      rw [outsAt0_B V c t h0 h1]
      unfold sout0_B; (try dsimp only)
      have hz : t.val ≠ 0 := by omega
      rw [PhiS0_castSucc V qs c t, PhiS0_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation0 (c : Dev nD) : BodyObligation (dat0 (F := F) V qs c) (defs₀ (F := F)) Variants.none () Set.univ := fun t => by
  rw [bigSep_W0, bigSep_W0]
  exact sound_body0 V qs c t

/-- What the launch hands the region is the invariant before the first point. -/
theorem hin0 (c : Dev nD) : Pipeline.ΦA spec0 c ⊢ (dat0 V qs c).Φ 0 := by
  rw [show (dat0 V qs c).Φ 0 = PhiS0 V c 0 (Nat.zero_le _) from rfl, PhiS0_zero V c 0 _ rfl]
  try exact Idealize.SL.BI.Entails.refl _

/-- After the last point the invariant gives the library's back: the accumulator's contents are forgotten. -/
theorem hout0 (c : Dev nD) : (dat0 V qs c).Φ (Fin.last cfg0.N) ⊢ Pipeline.ΦA spec0 c := by
  rw [show (dat0 V qs c).Φ (Fin.last cfg0.N) = PhiS0 V c (Fin.last cfg0.N).val (Nat.le_of_lt_succ (Fin.last cfg0.N).isLt) from rfl,
    PhiS0_pos V c _ _ (by rw [Fin.val_last]; have : cfg0.N = 64 := N_0; omega), PhiA0_eq]
  iintro ⟨⟨HS0, Hrest⟩, Hg⟩
  isplitl [HS0 Hrest]
  · isplitl [HS0]
    · iexists _; iexact HS0
    iexact Hrest
  iexact Hg

end Region

end Cert.KernelIdeal.Gen

end
-- ==== Proof.SharePair0.lean ====
/-
  Launch 0 reads each of its two input arrays through two windows (the row tiles and the column tiles of one point
  cloud; the same for its normals).  The array's full share is dealt to the two windows as its two halves when the
  launch is entered, and joined again when it is left.
-/
import proofs.«134606_j77163382440707_2_alg».proof.Proof.Region0

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD)

/-- The buffers behind the launch's five windows: the two input arrays and the result. -/
theorem arrBufs0_eq (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v0) ↦{fullShare} Vv main_v0) ∗ (((c : Thread nD τ).loc main_v2) ↦{fullShare} Vv main_v2) ∗ (((c : Thread nD τ).loc main_v4) ↦{fullShare} Vv main_v4)) := by
  unfold Pipeline.arrBufs
  exact bigSep_eq_bigSepL_of_eq [main_v0, main_v2, main_v4] (by decide) (by decide) _

/-- The windows' arrays one by one, each at its window's share. -/
theorem arrays0_eq (dat : Dat τ (Elt F) Unit ℕ (UR sig nD τ) ℕ cfg0 c)
    (G : (w : Fin cfg0.W) → Buf (Elt F) ((cfg0.win w).arr.view.loc (c : Thread nD τ))) :
    (dat.arrays G : sProp 𝕄)
      = iprop((((c : Thread nD τ).loc main_v0) ↦{dat.q 0} G 0) ∗ (((c : Thread nD τ).loc main_v0) ↦{dat.q 1} G 1)
          ∗ (((c : Thread nD τ).loc main_v2) ↦{dat.q 2} G 2) ∗ (((c : Thread nD τ).loc main_v2) ↦{dat.q 3} G 3)
          ∗ (((c : Thread nD τ).loc main_v4) ↦{fullShare} G 4)) := by
  have h : (dat.arrays G : sProp 𝕄) = bigSep Finset.univ fun w : Fin cfg0.W =>
      ((((c : Thread nD τ).loc (Pipeline.arrRef spec0 w)) ↦{dat.share w} G w : sProp 𝕄)) := by
    unfold Dat.arrays
    exact bigSep_congr fun w _ => by rw [(arr_whole0 w).set_eq_univ]
  have s0 : dat.share 0 = dat.q 0 := if_neg (by decide)
  have s1 : dat.share 1 = dat.q 1 := if_neg (by decide)
  have s2 : dat.share 2 = dat.q 2 := if_neg (by decide)
  have s3 : dat.share 3 = dat.q 3 := if_neg (by decide)
  have s4 : dat.share 4 = fullShare := if_pos (by decide)
  rw [h, bigSep_W0, s0, s1, s2, s3, s4]

/-- ENTRY: the three buffers whole at the contents `Vv` are the five windows' arrays, the two halves of each input
    array's share going to its two windows. -/
theorem arrays0_of_bufs (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg0.W) → Buf (Elt F) ((cfg0.win w).arr.view.loc (c : Thread nD τ)))
    (h0 : G 0 = Vv main_v0) (h1 : G 1 = Vv main_v0) (h2 : G 2 = Vv main_v2) (h3 : G 3 = Vv main_v2) (h4 : G 4 = Vv main_v4) :
    (Pipeline.arrBufs (Ix := Unit) (Name := ℕ) (U := UR sig nD τ) (Lvl := ℕ) spec0 c Vv : sProp 𝕄) ⊢ dat.arrays G := by
  rw [arrBufs0_eq, arrays0_eq, hq0, hq1, hq2, hq3, h0, h1, h2, h3, h4]
  iintro ⟨Ha, Hb, Ho⟩
  ihave Ha' := (pointsTo_share (PosShare.mem_left_op_right fullShare)).1 $$ Ha
  ihave Hb' := (pointsTo_share (PosShare.mem_left_op_right fullShare)).1 $$ Hb
  icases Ha' with ⟨Ha0, Ha1⟩
  icases Hb' with ⟨Hb0, Hb1⟩
  isplitl [Ha0]; · iexact Ha0
  isplitl [Ha1]; · iexact Ha1
  isplitl [Hb0]; · iexact Hb0
  isplitl [Hb1]; · iexact Hb1
  iexact Ho

/-- EXIT: the five windows' arrays, each input's two at one contents, are the three buffers whole again. -/
theorem bufs0_of_arrays (dat : Dat τ (Elt F) Unit ℕ (UR sig nD τ) ℕ cfg0 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg0.W) → Buf (Elt F) ((cfg0.win w).arr.view.loc (c : Thread nD τ)))
    (h0 : G 0 = Vv main_v0) (h1 : G 1 = Vv main_v0) (h2 : G 2 = Vv main_v2) (h3 : G 3 = Vv main_v2) (h4 : G 4 = Vv main_v4) :
    (dat.arrays G : sProp 𝕄) ⊢ Pipeline.arrBufs (Ix := Unit) (Name := ℕ) (U := UR sig nD τ) (Lvl := ℕ) spec0 c Vv := by
  rw [arrBufs0_eq, arrays0_eq, hq0, hq1, hq2, hq3, h0, h1, h2, h3, h4]
  iintro ⟨Ha0, Ha1, Hb0, Hb1, Ho⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Ho

end

end Cert.KernelIdeal.Gen

end
-- ==== Proof.Body1Defs.lean ====
/-
  Launch 1: the two branch conditions of the body over the grid, where its result window is idle, and the
  body's memrefs at a point.
-/
import proofs.«134606_j77163382440707_2_alg».proof.Proof.Gen.KernelIdeal.Launch
import proofs.«134606_j77163382440707_2_alg».proof.Proof.Gen.KernelIdeal.Skeleton
import proofs.«134606_j77163382440707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond1_0 (i : grid1.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
/-- The second branch (the accumulator is copied to the result): taken when both tiles are the last. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The result window is idle exactly where the second branch is not taken, and is not written back there. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-- Each window's current staging memref at point `t`, and its wholeness. -/
abbrev ms1_0 (t : Fin cfg1.N) : Memref sig .tc .vmem S1x3x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x3x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x3x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x3x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1x1 .f32 := Memref.whole cc1_scratch0
/-- The accumulator and one staging buffer of the result window, as views through which contents are stated. -/
abbrev VS1 : View sig .tc .vmem S1x1 .f32 := (scM1).view
abbrev VO1 : View sig .tc .vmem S1x1x1 .f32 := (Memref.whole cc1_stg4_0 : Memref sig .tc .vmem S1x1x1 .f32).view

end Cert.KernelIdeal.Gen

end
-- ==== Proof.Body1RunA.lean ====
/-
  Launch 1, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.Body1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨[], ?_, fun xi4 E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body1RunB.lean ====
/-
  Launch 1, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.Body1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨[], ?_, fun xi4 E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body1RunC.lean ====
/-
  Launch 1, the last tile of a batch: the tile's total is added and the accumulator copied to the result block.  The body run on whole staging memrefs: the four input blocks at given contents stay as they
  were, and what the result block and the accumulator end with is recorded as the lists of their stores (last first).
-/
import proofs.«134606_j77163382440707_2_alg».proof.Proof.Body1Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc1__kernel_sum_kernel i arg3 harg3 arg4 harg4 arg5 harg5 arg6 harg6 arg7 harg7 arg8 harg8) K } := by
  refine ⟨?_, ?_, fun E K => ?run⟩
  case run =>
    simp only [cc1__kernel_sum_kernel_eq_skeleton]; unfold cc1__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.Region1.lean ====
/-
  Launch 1 at given entry contents `V` of the core's buffers: what the accumulator and the result block hold after
  each grid point (by recursion on the point, through the three cases of the body), the pipeline's proof data, and
  the body obligation at every point.
-/
import proofs.«134606_j77163382440707_2_alg».proof.Proof.Body1RunA
import proofs.«134606_j77163382440707_2_alg».proof.Proof.Body1RunB
import proofs.«134606_j77163382440707_2_alg».proof.Proof.Body1RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The first tile's stores into the accumulator cover it. -/
theorem scover1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i) (x0 x1 x2 x3 : Vec F S1x3x1024 .f32) (y : S1x1.Idx) :
    ∃ pc ∈ (kernelRun1_A c i arg3 harg3 arg4 harg4 arg5 harg5 arg6 harg6 arg7 harg7 arg8 harg8 hc0 hc1 x0 x1 x2 x3).2.1, y ∈ pc.1.set :=
  View.cover_of_tiledL (kernelRun1_A c i arg3 harg3 arg4 harg4 arg5 harg5 arg6 harg6 arg7 harg7 arg8 harg8 hc0 hc1 x0 x1 x2 x3).2.1 S1x1.size (by sl_kernel_rfl) y
/-- What the first tile leaves in the accumulator. -/
def sout1_A (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i) (x0 x1 x2 x3 : Vec F S1x3x1024 .f32) : Vec F S1x1 .f32 :=
  VS1.read (Elt F) (VS1.writes (Elt F) VS1.junk (kernelRun1_A c i arg3 harg3 arg4 harg4 arg5 harg5 arg6 harg6 arg7 harg7 arg8 harg8 hc0 hc1 x0 x1 x2 x3).2.1)
/-- A middle tile's store into the accumulator covers it. -/
theorem scover1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i) (x0 x1 x2 x3 : Vec F S1x3x1024 .f32) (xs : Vec F S1x1 .f32) (y : S1x1.Idx) :
    ∃ pc ∈ (kernelRun1_B c i arg3 harg3 arg4 harg4 arg5 harg5 arg6 harg6 arg7 harg7 arg8 harg8 hc0 hc1 x0 x1 x2 x3 xs).2.1, y ∈ pc.1.set :=
  View.cover_of_tiledL (kernelRun1_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout1_B (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i) (x0 x1 x2 x3 : Vec F S1x3x1024 .f32) (xs : Vec F S1x1 .f32) : Vec F S1x1 .f32 :=
  VS1.read (Elt F) (VS1.writes (Elt F) VS1.junk (kernelRun1_B c i arg3 harg3 arg4 harg4 arg5 harg5 arg6 harg6 arg7 harg7 arg8 harg8 hc0 hc1 x0 x1 x2 x3 xs).2.1)
/-- The last tile's store into the accumulator covers it, and its store into the result block covers that. -/
theorem scover1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) (y : S1x1.Idx) :
    ∃ pc ∈ (kernelRun1_C c i arg3 harg3 arg4 harg4 arg5 harg5 arg6 harg6 arg7 harg7 arg8 harg8 hc0 hc1 x0 x1 x2 x3 xs).2.1, y ∈ pc.1.set :=
  View.cover_of_tiledL (kernelRun1_C c i arg3 harg3 arg4 harg4 arg5 harg5 arg6 harg6 arg7 harg7 arg8 harg8 hc0 hc1 x0 x1 x2 x3 xs).2.1 S1x1.size (by sl_kernel_rfl) y
theorem cover1_C_4 (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) (y : S1x1x1.Idx) :
    ∃ pc ∈ (kernelRun1_C c i arg3 harg3 arg4 harg4 arg5 harg5 arg6 harg6 arg7 harg7 arg8 harg8 hc0 hc1 x0 x1 x2 x3 xs).1, y ∈ pc.1.set :=
  View.cover_of_tiledL (kernelRun1_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) : Vec F S1x1 .f32 :=
  VS1.read (Elt F) (VS1.writes (Elt F) VS1.junk (kernelRun1_C c i arg3 harg3 arg4 harg4 arg5 harg5 arg6 harg6 arg7 harg7 arg8 harg8 hc0 hc1 x0 x1 x2 x3 xs).2.1)
def out1_C (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) : Vec F S1x1x1 .f32 :=
  VO1.read (Elt F) (VO1.writes (Elt F) VO1.junk (kernelRun1_C c i arg3 harg3 arg4 harg4 arg5 harg5 arg6 harg6 arg7 harg7 arg8 harg8 hc0 hc1 x0 x1 x2 x3 xs).1)
/-- Where the result block is not stored (and not written back) its recorded contents are a placeholder nothing reads. -/
def idle1 : Vec F S1x1x1 .f32 := VO1.read (Elt F) VO1.junk

/-! ## Point by point -/

/-- What the result block and the accumulator hold after the body at point `n`: the case the point is in (first, middle
    or last tile of its batch), a middle or last tile over what the point before left in the accumulator. -/
def outsAt1 (c : Dev nD) : (n : ℕ) → n < cfg1.N → Vec F S1x1x1 .f32 × Vec F S1x1 .f32
  | 0, hn => (idle1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 16 = 0 then
      if h1 : (n + 1) % 16 = 15 then
        False.elim (by omega)
      else
        (idle1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
         sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (idle1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (idle1, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)
theorem outsAt1_B (c : Dev nD) (t : Fin cfg1.N) (h0 : ¬t.val % 16 = 0) (h1 : ¬t.val % 16 = 15) :
    outsAt1 V c t.val t.isLt = (idle1, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS1 (c : Dev nD) : sProp 𝕄 :=
  bigSep (((Finset.univ.filter fun b : Ref sig .tc => b.isScoped) \ Finset.univ.image (Pipeline.stageRef spec1)).erase cc1_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA1_eq (c : Dev nD) :
    (Pipeline.ΦA spec1 c : sProp 𝕄)
      = iprop(iprop((∃ d, owns (c : Thread nD τ) scM1 fullShare d) ∗ restS1 c) ∗ (∃ r, prngReg c r)) := by
  unfold Pipeline.ΦA Pipeline.scopedRest restS1
  rw [bigSep_erase (i := cc1_scratch0) (by decide)]
  simp only [scM1, owns_whole]
  rfl

/-- Before the first point the library's invariant; after point `n` the accumulator at what that point left. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ restS1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ restS1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ restS1 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q := qs
  owed _ := 0

theorem A_eq1 (c : Dev nD) (w : Fin cfg1.W) : (dat1 V qs c).A w = V c (Pipeline.arrRef spec1 w) := by
  dsimp only [dat1]
theorem PhiS1_castSucc (c : Dev nD) (t : Fin cfg1.N) :
    (dat1 V qs c).Φ t.castSucc = PhiS1 V c t.val (Nat.le_of_lt t.isLt) := by
  dsimp only [dat1]; simp only [Fin.coe_castSucc]
theorem after1_0 (c : Dev nD) (t : Fin cfg1.N) : (dat1 V qs c).after 0 t = iblk1 V c 0 t := by dsimp only [dat1]
theorem after1_1 (c : Dev nD) (t : Fin cfg1.N) : (dat1 V qs c).after 1 t = iblk1 V c 1 t := by dsimp only [dat1]
theorem after1_2 (c : Dev nD) (t : Fin cfg1.N) : (dat1 V qs c).after 2 t = iblk1 V c 2 t := by dsimp only [dat1]
theorem after1_3 (c : Dev nD) (t : Fin cfg1.N) : (dat1 V qs c).after 3 t = iblk1 V c 3 t := by dsimp only [dat1]
theorem after1_4 (c : Dev nD) (t : Fin cfg1.N) : (dat1 V qs c).after 4 t = (outsAt1 V c t.val t.isLt).1 := by dsimp only [dat1]
theorem before1_0 (c : Dev nD) (t : Fin cfg1.N) (d) : (dat1 V qs c).before 0 t d = iblk1 V c 0 t :=
  before1_0_of V (dat1 V qs c) (A_eq1 V qs c 0) (after1_0 V qs c) t d
theorem before1_1 (c : Dev nD) (t : Fin cfg1.N) (d) : (dat1 V qs c).before 1 t d = iblk1 V c 1 t :=
  before1_1_of V (dat1 V qs c) (A_eq1 V qs c 1) (after1_1 V qs c) t d
theorem before1_2 (c : Dev nD) (t : Fin cfg1.N) (d) : (dat1 V qs c).before 2 t d = iblk1 V c 2 t :=
  before1_2_of V (dat1 V qs c) (A_eq1 V qs c 2) (after1_2 V qs c) t d
theorem before1_3 (c : Dev nD) (t : Fin cfg1.N) (d) : (dat1 V qs c).before 3 t d = iblk1 V c 3 t :=
  before1_3_of V (dat1 V qs c) (A_eq1 V qs c 3) (after1_3 V qs c) t d

/-! ## The body obligation -/

def bodyPre1 (c : Dev nD) (t : Fin cfg1.N) : sProp 𝕄 :=
  iprop((dat1 V qs c).Φ t.castSucc ∗ (dat1 V qs c).owesAt () t.castSucc
    ∗ (∃ d, owns (c : Thread nD τ) (ms1_0 t) fullShare ((dat1 V qs c).before 0 t d))
    ∗ (∃ d, owns (c : Thread nD τ) (ms1_1 t) fullShare ((dat1 V qs c).before 1 t d))
    ∗ (∃ d, owns (c : Thread nD τ) (ms1_2 t) fullShare ((dat1 V qs c).before 2 t d))
    ∗ (∃ d, owns (c : Thread nD τ) (ms1_3 t) fullShare ((dat1 V qs c).before 3 t d))
    ∗ (∃ d, owns (c : Thread nD τ) (ms1_4 t) fullShare ((dat1 V qs c).before 4 t d)))

def bodyPost1 (c : Dev nD) (t : Fin cfg1.N) : sProp 𝕄 :=
  iprop((dat1 V qs c).Φ t.succ ∗ (dat1 V qs c).owesAt () t.succ
    ∗ (dat1 V qs c).leavesExact 0 t
    ∗ (dat1 V qs c).leavesExact 1 t
    ∗ (dat1 V qs c).leavesExact 2 t
    ∗ (dat1 V qs c).leavesExact 3 t
    ∗ (dat1 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body1 (c : Dev nD) (t : Fin cfg1.N) :
    bodyPre1 V qs c t ⊢ wp frame (wpE (defs₀ (F := F)) Variants.none c none) Set.univ (bodyAt1 t) (fun _ => bodyPost1 V qs c t) := by
  unfold bodyPre1 bodyPost1 bodyAt1
  simp only [before1_0, before1_1, before1_2, before1_3]
  rw [show (dat1 V qs c).owesAt () t.succ = (dat1 V qs c).owesAt () t.castSucc from rfl]
  rw [show (dat1 V qs c).Φ t.succ = PhiS1 V c (t.val + 1) t.isLt from rfl, PhiS1_succ]
  have hN : t.val < 64 := lt_of_lt_of_eq t.isLt (show cfg1.N = 64 from N_1)
  by_cases h0 : t.val % 16 = 0
  · by_cases h1 : t.val % 16 = 15
    · exfalso; omega
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4 t (fun h => h1 ((hcond1_1 t).mp h))) (noFlush1_4 t (fun h => h1 ((hcond1_1 t).mp h)))]
      rw [outsAt1_A V c t h0 h1]
      unfold sout1_A; (try dsimp only)
      by_cases hz : t.val = 0
      · rw [PhiS1_castSucc V qs c t, PhiS1_zero V c _ _ hz, PhiA1_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS1_castSucc V qs c t, PhiS1_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [show (dat1 V qs c).leavesExact 4 t = owns (c : Thread nD τ) (ms1_4 t) fullShare ((dat1 V qs c).after 4 t) from by
        unfold Dat.leavesExact; rw [liveAt1_4 t ((hcond1_1 t).mpr h1)], after1_4]
      rw [outsAt1_C V c t h0 h1]
      unfold out1_C sout1_C; (try dsimp only)
      have hz : t.val ≠ 0 := by omega
      rw [PhiS1_castSucc V qs c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [show (dat1 V qs c).leavesExact 0 t = owns (c : Thread nD τ) (ms1_0 t) fullShare ((dat1 V qs c).after 0 t) from by
        unfold Dat.leavesExact; rw [liveAt1_0 t], after1_0]
      rw [show (dat1 V qs c).leavesExact 1 t = owns (c : Thread nD τ) (ms1_1 t) fullShare ((dat1 V qs c).after 1 t) from by
        unfold Dat.leavesExact; rw [liveAt1_1 t], after1_1]
      rw [show (dat1 V qs c).leavesExact 2 t = owns (c : Thread nD τ) (ms1_2 t) fullShare ((dat1 V qs c).after 2 t) from by
        unfold Dat.leavesExact; rw [liveAt1_2 t], after1_2]
      rw [show (dat1 V qs c).leavesExact 3 t = owns (c : Thread nD τ) (ms1_3 t) fullShare ((dat1 V qs c).after 3 t) from by
        unfold Dat.leavesExact; rw [liveAt1_3 t], after1_3]
      rw [Dat.leavesExact_idle (dat1 V qs c) 4 t (idleAt1_4 t (fun h => h1 ((hcond1_1 t).mp h))) (noFlush1_4 t (fun h => h1 ((hcond1_1 t).mp h)))]
      rw [outsAt1_B V c t h0 h1]
      unfold sout1_B; (try dsimp only)
      have hz : t.val ≠ 0 := by omega
      rw [PhiS1_castSucc V qs c t, PhiS1_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V qs c) (defs₀ (F := F)) Variants.none () Set.univ := fun t => by
  rw [bigSep_W1, bigSep_W1]
  exact sound_body1 V qs c t

/-- What the launch hands the region is the invariant before the first point. -/
theorem hin1 (c : Dev nD) : Pipeline.ΦA spec1 c ⊢ (dat1 V qs c).Φ 0 := by
  rw [show (dat1 V qs c).Φ 0 = PhiS1 V c 0 (Nat.zero_le _) from rfl, PhiS1_zero V c 0 _ rfl]
  try exact Idealize.SL.BI.Entails.refl _

/-- After the last point the invariant gives the library's back: the accumulator's contents are forgotten. -/
theorem hout1 (c : Dev nD) : (dat1 V qs c).Φ (Fin.last cfg1.N) ⊢ Pipeline.ΦA spec1 c := by
  rw [show (dat1 V qs c).Φ (Fin.last cfg1.N) = PhiS1 V c (Fin.last cfg1.N).val (Nat.le_of_lt_succ (Fin.last cfg1.N).isLt) from rfl,
    PhiS1_pos V c _ _ (by rw [Fin.val_last]; have : cfg1.N = 64 := N_1; omega), PhiA1_eq]
  iintro ⟨⟨HS0, Hrest⟩, Hg⟩
  isplitl [HS0 Hrest]
  · isplitl [HS0]
    · iexists _; iexact HS0
    iexact Hrest
  iexact Hg

end Region

end Cert.KernelIdeal.Gen

end
-- ==== Proof.SharePair1.lean ====
/-
  Launch 1 reads each of its two input arrays through two windows (the row tiles and the column tiles of one point
  cloud; the same for its normals).  The array's full share is dealt to the two windows as its two halves when the
  launch is entered, and joined again when it is left.
-/
import proofs.«134606_j77163382440707_2_alg».proof.Proof.Region1

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section

variable (c : Dev nD)

/-- The buffers behind the launch's five windows: the two input arrays and the result. -/
theorem arrBufs1_eq (Vv : (b : Ref sig .tc) → Buf (Elt F) ((c : Thread nD τ).loc b)) :
    (Pipeline.arrBufs (Ix := Unit) (Name := ℕ) (U := UR sig nD τ) (Lvl := ℕ) spec1 c Vv : sProp 𝕄)
      = iprop((((c : Thread nD τ).loc main_v1) ↦{fullShare} Vv main_v1) ∗ (((c : Thread nD τ).loc main_v3) ↦{fullShare} Vv main_v3) ∗ (((c : Thread nD τ).loc main_v6) ↦{fullShare} Vv main_v6)) := by
  unfold Pipeline.arrBufs
  exact bigSep_eq_bigSepL_of_eq [main_v1, main_v3, main_v6] (by decide) (by decide) _

/-- The windows' arrays one by one, each at its window's share. -/
theorem arrays1_eq (dat : Dat τ (Elt F) Unit ℕ (UR sig nD τ) ℕ cfg1 c)
    (G : (w : Fin cfg1.W) → Buf (Elt F) ((cfg1.win w).arr.view.loc (c : Thread nD τ))) :
    (dat.arrays G : sProp 𝕄)
      = iprop((((c : Thread nD τ).loc main_v1) ↦{dat.q 0} G 0) ∗ (((c : Thread nD τ).loc main_v1) ↦{dat.q 1} G 1)
          ∗ (((c : Thread nD τ).loc main_v3) ↦{dat.q 2} G 2) ∗ (((c : Thread nD τ).loc main_v3) ↦{dat.q 3} G 3)
          ∗ (((c : Thread nD τ).loc main_v6) ↦{fullShare} G 4)) := by
  have h : (dat.arrays G : sProp 𝕄) = bigSep Finset.univ fun w : Fin cfg1.W =>
      ((((c : Thread nD τ).loc (Pipeline.arrRef spec1 w)) ↦{dat.share w} G w : sProp 𝕄)) := by
    unfold Dat.arrays
    exact bigSep_congr fun w _ => by rw [(arr_whole1 w).set_eq_univ]
  have s0 : dat.share 0 = dat.q 0 := if_neg (by decide)
  have s1 : dat.share 1 = dat.q 1 := if_neg (by decide)
  have s2 : dat.share 2 = dat.q 2 := if_neg (by decide)
  have s3 : dat.share 3 = dat.q 3 := if_neg (by decide)
  have s4 : dat.share 4 = fullShare := if_pos (by decide)
  rw [h, bigSep_W1, s0, s1, s2, s3, s4]

/-- ENTRY: the three buffers whole at the contents `Vv` are the five windows' arrays, the two halves of each input
    array's share going to its two windows. -/
theorem arrays1_of_bufs (dat : Dat τ (Elt F) Unit ℕ (UR sig nD τ) ℕ cfg1 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg1.W) → Buf (Elt F) ((cfg1.win w).arr.view.loc (c : Thread nD τ)))
    (h0 : G 0 = Vv main_v1) (h1 : G 1 = Vv main_v1) (h2 : G 2 = Vv main_v3) (h3 : G 3 = Vv main_v3) (h4 : G 4 = Vv main_v6) :
    (Pipeline.arrBufs (Ix := Unit) (Name := ℕ) (U := UR sig nD τ) (Lvl := ℕ) spec1 c Vv : sProp 𝕄) ⊢ dat.arrays G := by
  rw [arrBufs1_eq, arrays1_eq, hq0, hq1, hq2, hq3, h0, h1, h2, h3, h4]
  iintro ⟨Ha, Hb, Ho⟩
  ihave Ha' := (pointsTo_share (PosShare.mem_left_op_right fullShare)).1 $$ Ha
  ihave Hb' := (pointsTo_share (PosShare.mem_left_op_right fullShare)).1 $$ Hb
  icases Ha' with ⟨Ha0, Ha1⟩
  icases Hb' with ⟨Hb0, Hb1⟩
  isplitl [Ha0]; · iexact Ha0
  isplitl [Ha1]; · iexact Ha1
  isplitl [Hb0]; · iexact Hb0
  isplitl [Hb1]; · iexact Hb1
  iexact Ho

/-- EXIT: the five windows' arrays, each input's two at one contents, are the three buffers whole again. -/
theorem bufs1_of_arrays (dat : Dat τ (Elt F) Unit ℕ (UR sig nD τ) ℕ cfg1 c)
    (hq0 : dat.q 0 = fullShare.left) (hq1 : dat.q 1 = fullShare.right) (hq2 : dat.q 2 = fullShare.left) (hq3 : dat.q 3 = fullShare.right)
    (Vv : (b : Ref sig .tc) → Buf (Elt F) ((c : Thread nD τ).loc b))
    (G : (w : Fin cfg1.W) → Buf (Elt F) ((cfg1.win w).arr.view.loc (c : Thread nD τ)))
    (h0 : G 0 = Vv main_v1) (h1 : G 1 = Vv main_v1) (h2 : G 2 = Vv main_v3) (h3 : G 3 = Vv main_v3) (h4 : G 4 = Vv main_v6) :
    (dat.arrays G : sProp 𝕄) ⊢ Pipeline.arrBufs (Ix := Unit) (Name := ℕ) (U := UR sig nD τ) (Lvl := ℕ) spec1 c Vv := by
  rw [arrBufs1_eq, arrays1_eq, hq0, hq1, hq2, hq3, h0, h1, h2, h3, h4]
  iintro ⟨Ha0, Ha1, Hb0, Hb1, Ho⟩
  isplitl [Ha0 Ha1]
  · iapply (pointsTo_share (PosShare.mem_left_op_right fullShare)).2
    isplitl [Ha0]; · iexact Ha0
    iexact Ha1
  isplitl [Hb0 Hb1]
  · iapply (pointsTo_share (PosShare.mem_left_op_right fullShare)).2
    isplitl [Hb0]; · iexact Hb0
    iexact Hb1
  iexact Ho

end

end Cert.KernelIdeal.Gen

end
-- ==== Proof.Body2Defs.lean ====
/-
  Launch 2: the two branch conditions of the body over the grid, where its result window is idle, and the
  body's memrefs at a point.
-/
import proofs.«134606_j77163382440707_2_alg».proof.Proof.Gen.KernelIdeal.Launch
import proofs.«134606_j77163382440707_2_alg».proof.Proof.Gen.KernelIdeal.Skeleton
import proofs.«134606_j77163382440707_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (the accumulator is reset): taken when the row tile and the column tile are both the first. -/
abbrev cond2_0 (i : grid2.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1
/-- It holds at the points ≡ 0 (mod 16). -/
theorem hcond2_0 : ∀ t : Fin cfg2.N, cond2_0 (grid2.coords t) ↔ t.val % 16 = 0 :=
  (by decide +kernel : ∀ t : Fin grid2.N, cond2_0 (grid2.coords t) ↔ t.val % 16 = 0)
/-- The second branch (the accumulator is copied to the result): taken when both tiles are the last. -/
abbrev cond2_1 (i : grid2.Coords) : Prop := k2_cond2 i = 1#1
/-- It holds at the points ≡ 15 (mod 16). -/
theorem hcond2_1 : ∀ t : Fin cfg2.N, cond2_1 (grid2.coords t) ↔ t.val % 16 = 15 :=
  (by decide +kernel : ∀ t : Fin grid2.N, cond2_1 (grid2.coords t) ↔ t.val % 16 = 15)

/-- The result window is idle exactly where the second branch is not taken, and is not written back there. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- Each window's current staging memref at point `t`, and its wholeness. -/
abbrev ms2_0 (t : Fin cfg2.N) : Memref sig .tc .vmem S1x3x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x3x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x3x1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x3x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1x1 .f32 := win2_4.stage (cfg2.slots t 4)
abbrev hs2_4 (t : Fin cfg2.N) : (ms2_4 t).IsWhole := hstage2_4 ((cfg2.slots t 4).cast nbuf2_4)
/-- The accumulator: a whole scoped buffer of the kernel's own. -/
abbrev scM2 : Memref sig .tc .vmem S1x1 .f32 := Memref.whole cc2_scratch0
/-- The accumulator and one staging buffer of the result window, as views through which contents are stated. -/
abbrev VS2 : View sig .tc .vmem S1x1 .f32 := (scM2).view
abbrev VO2 : View sig .tc .vmem S1x1x1 .f32 := (Memref.whole cc2_stg4_0 : Memref sig .tc .vmem S1x1x1 .f32).view

end Cert.KernelIdeal.Gen

end
-- ==== Proof.Body2RunA.lean ====
/-
  Launch 2, the first tile of a batch: the accumulator is reset, then the tile's total added.  The body run on whole staging memrefs: the four input blocks at given contents stay as they
  were, the result block (not touched in this case) is handed back as it came, and what the accumulator ends with is
  recorded as the list of its stores (last first).
-/
import proofs.«134606_j77163382440707_2_alg».proof.Proof.Body2Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i)
    (x0 x1 x2 x3 : Vec F S1x3x1024 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨[], ?_, fun xi4 E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    clear hf0 hf1 hf2 hf3 hf4
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body2RunB.lean ====
/-
  Launch 2, a middle tile of a batch: the tile's total is added to the accumulator.  The body run on whole staging memrefs: the four input blocks at given contents stay as they
  were, the result block (not touched in this case) is handed back as it came, and what the accumulator ends with is
  recorded as the list of its stores (last first).
-/
import proofs.«134606_j77163382440707_2_alg».proof.Proof.Body2Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the accumulator (none in the result block). -/
noncomputable def kernelRun2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (xi4 : Vec F S1x1x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare xi4 ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ owns (c : Thread nD τ) arg7 fullShare xi4
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨[], ?_, fun xi4 E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    clear hf0 hf1 hf2 hf3 hf4 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Gen

end
-- ==== Proof.Body2RunC.lean ====
/-
  Launch 2, the last tile of a batch: the tile's total is added and the accumulator copied to the result block.  The body run on whole staging memrefs: the four input blocks at given contents stay as they
  were, and what the result block and the accumulator end with is recorded as the lists of their stores (last first).
-/
import proofs.«134606_j77163382440707_2_alg».proof.Proof.Body2Defs

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's run in this case, with the stores it leaves in the result block and in the accumulator. -/
noncomputable def kernelRun2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i)
    (x0 x1 x2 x3 : Vec F S1x3x1024 .f32) (xs : Vec F S1x1 .f32) :
    Σ' (L4 : List (View.Piece (Elt F) S1x1x1 .f32)), { LS : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3
            ∗ (∃ d, owns (c : Thread nD τ) arg7 fullShare d) ∗ owns (c : Thread nD τ) arg8 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3
                ∗ (∃ f, arg7.view.loc (c : Thread nD τ) ↦[arg7.view.set]{fullShare} arg7.view.writes (Elt F) f L4)
                ∗ (∃ f, arg8.view.loc (c : Thread nD τ) ↦[arg8.view.set]{fullShare} arg8.view.writes (Elt F) f LS)) -∗ K ⟨⟩))
          ⊢ wp frame (wpE (defs₀ (F := F)) Variants.none c none) E (cc2__kernel_sum_kernel i arg3 harg3 arg4 harg4 arg5 harg5 arg6 harg6 arg7 harg7 arg8 harg8) K } := by
  refine ⟨?_, ?_, fun E K => ?run⟩
  case run =>
    simp only [cc2__kernel_sum_kernel_eq_skeleton]; unfold cc2__kernel_sum_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    clear hf0 hf1 hf2 hf3 hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Gen

end
-- ==== Proof.Region2.lean ====
/-
  Launch 2 at given entry contents `V` of the core's buffers: what the accumulator and the result block hold after
  each grid point (by recursion on the point, through the three cases of the body), the pipeline's proof data, and
  the body obligation at every point.
-/
import proofs.«134606_j77163382440707_2_alg».proof.Proof.Body2RunA
import proofs.«134606_j77163382440707_2_alg».proof.Proof.Body2RunB
import proofs.«134606_j77163382440707_2_alg».proof.Proof.Body2RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b)) (qs : Fin 5 → PosShare TreeShare)

/-- Window `w`'s block at point `t`, read off its array as the launch finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input windows are never idle. -/
theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## What each case leaves -/

/-- The first tile's stores into the accumulator cover it. -/
theorem scover2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i) (x0 x1 x2 x3 : Vec F S1x3x1024 .f32) (y : S1x1.Idx) :
    ∃ pc ∈ (kernelRun2_A c i arg3 harg3 arg4 harg4 arg5 harg5 arg6 harg6 arg7 harg7 arg8 harg8 hc0 hc1 x0 x1 x2 x3).2.1, y ∈ pc.1.set :=
  View.cover_of_tiledL (kernelRun2_A c i arg3 harg3 arg4 harg4 arg5 harg5 arg6 harg6 arg7 harg7 arg8 harg8 hc0 hc1 x0 x1 x2 x3).2.1 S1x1.size (by sl_kernel_rfl) y
/-- What the first tile leaves in the accumulator. -/
def sout2_A (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i) (x0 x1 x2 x3 : Vec F S1x3x1024 .f32) : Vec F S1x1 .f32 :=
  VS2.read (Elt F) (VS2.writes (Elt F) VS2.junk (kernelRun2_A c i arg3 harg3 arg4 harg4 arg5 harg5 arg6 harg6 arg7 harg7 arg8 harg8 hc0 hc1 x0 x1 x2 x3).2.1)
/-- A middle tile's store into the accumulator covers it. -/
theorem scover2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i) (x0 x1 x2 x3 : Vec F S1x3x1024 .f32) (xs : Vec F S1x1 .f32) (y : S1x1.Idx) :
    ∃ pc ∈ (kernelRun2_B c i arg3 harg3 arg4 harg4 arg5 harg5 arg6 harg6 arg7 harg7 arg8 harg8 hc0 hc1 x0 x1 x2 x3 xs).2.1, y ∈ pc.1.set :=
  View.cover_of_tiledL (kernelRun2_B c i arg3 harg3 arg4 harg4 arg5 harg5 arg6 harg6 arg7 harg7 arg8 harg8 hc0 hc1 x0 x1 x2 x3 xs).2.1 S1x1.size (by sl_kernel_rfl) y
/-- What a middle tile leaves in the accumulator, from what the tile before left. -/
def sout2_B (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i) (x0 x1 x2 x3 : Vec F S1x3x1024 .f32) (xs : Vec F S1x1 .f32) : Vec F S1x1 .f32 :=
  VS2.read (Elt F) (VS2.writes (Elt F) VS2.junk (kernelRun2_B c i arg3 harg3 arg4 harg4 arg5 harg5 arg6 harg6 arg7 harg7 arg8 harg8 hc0 hc1 x0 x1 x2 x3 xs).2.1)
/-- The last tile's store into the accumulator covers it, and its store into the result block covers that. -/
theorem scover2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) (y : S1x1.Idx) :
    ∃ pc ∈ (kernelRun2_C c i arg3 harg3 arg4 harg4 arg5 harg5 arg6 harg6 arg7 harg7 arg8 harg8 hc0 hc1 x0 x1 x2 x3 xs).2.1, y ∈ pc.1.set :=
  View.cover_of_tiledL (kernelRun2_C c i arg3 harg3 arg4 harg4 arg5 harg5 arg6 harg6 arg7 harg7 arg8 harg8 hc0 hc1 x0 x1 x2 x3 xs).2.1 S1x1.size (by sl_kernel_rfl) y
theorem cover2_C_4 (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) (y : S1x1x1.Idx) :
    ∃ pc ∈ (kernelRun2_C c i arg3 harg3 arg4 harg4 arg5 harg5 arg6 harg6 arg7 harg7 arg8 harg8 hc0 hc1 x0 x1 x2 x3 xs).1, y ∈ pc.1.set :=
  View.cover_of_tiledL (kernelRun2_C c i arg3 harg3 arg4 harg4 arg5 harg5 arg6 harg6 arg7 harg7 arg8 harg8 hc0 hc1 x0 x1 x2 x3 xs).1 S1x1x1.size (by sl_kernel_rfl) y
/-- What the last tile leaves in the accumulator and in the result block. -/
def sout2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) : Vec F S1x1 .f32 :=
  VS2.read (Elt F) (VS2.writes (Elt F) VS2.junk (kernelRun2_C c i arg3 harg3 arg4 harg4 arg5 harg5 arg6 harg6 arg7 harg7 arg8 harg8 hc0 hc1 x0 x1 x2 x3 xs).2.1)
def out2_C (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) : Vec F S1x1x1 .f32 :=
  VO2.read (Elt F) (VO2.writes (Elt F) VO2.junk (kernelRun2_C c i arg3 harg3 arg4 harg4 arg5 harg5 arg6 harg6 arg7 harg7 arg8 harg8 hc0 hc1 x0 x1 x2 x3 xs).1)
/-- Where the result block is not stored (and not written back) its recorded contents are a placeholder nothing reads. -/
def idle2 : Vec F S1x1x1 .f32 := VO2.read (Elt F) VO2.junk

/-! ## Point by point -/

/-- What the result block and the accumulator hold after the body at point `n`: the case the point is in (first, middle
    or last tile of its batch), a middle or last tile over what the point before left in the accumulator. -/
def outsAt2 (c : Dev nD) : (n : ℕ) → n < cfg2.N → Vec F S1x1x1 .f32 × Vec F S1x1 .f32
  | 0, hn => (idle2, sout2_A c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) scM2 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h0 : (n + 1) % 16 = 0 then
      if h1 : (n + 1) % 16 = 15 then
        False.elim (by omega)
      else
        (idle2, sout2_A c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩))
    else
      if h1 : (n + 1) % 16 = 15 then
        (out2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2,
         sout2_C c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)
      else
        (idle2, sout2_B c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) scM2 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2)

theorem outsAt2_A (c : Dev nD) (t : Fin cfg2.N) (h0 : t.val % 16 = 0) (h1 : ¬t.val % 16 = 15) :
    outsAt2 V c t.val t.isLt = (idle2, sout2_A c (grid2.coords t) (ms2_0 t) (hs2_0 t) (ms2_1 t) (hs2_1 t) (ms2_2 t) (hs2_2 t) (ms2_3 t) (hs2_3 t) (ms2_4 t) (hs2_4 t) scM2 (Memref.isWhole_whole _) ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact (dif_pos h0).trans ((dif_neg h1).trans rfl)
theorem outsAt2_B (c : Dev nD) (t : Fin cfg2.N) (h0 : ¬t.val % 16 = 0) (h1 : ¬t.val % 16 = 15) :
    outsAt2 V c t.val t.isLt = (idle2, sout2_B c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) (fun h => h1 ((hcond2_1 t).mp h)) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)
theorem outsAt2_C (c : Dev nD) (t : Fin cfg2.N) (h0 : ¬t.val % 16 = 0) (h1 : t.val % 16 = 15) :
    outsAt2 V c t.val t.isLt = (out2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2,
      sout2_C c (grid2.coords t) (ms2_0 t) (hs2_0 t) (ms2_1 t) (hs2_1 t) (ms2_2 t) (hs2_2 t) (ms2_3 t) (hs2_3 t) (ms2_4 t) (hs2_4 t) scM2 (Memref.isWhole_whole _) (fun h => h0 ((hcond2_0 t).mp h)) ((hcond2_1 t).mpr h1) (iblk2 V c 0 t) (iblk2 V c 1 t) (iblk2 V c 2 t) (iblk2 V c 3 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The core's scoped buffers other than this launch's staging buffers and its accumulator, each at some contents. -/
def restS2 (c : Dev nD) : sProp 𝕄 :=
  bigSep (((Finset.univ.filter fun b : Ref sig .tc => b.isScoped) \ Finset.univ.image (Pipeline.stageRef spec2)).erase cc2_scratch0)
    fun b => iprop(∃ f : Buf (Elt F) ((c : Thread nD τ).loc b), ((c : Thread nD τ).loc b) ↦{fullShare} f)

/-- The launch's invariant as the library hands it over: the accumulator at some contents, the other scoped buffers, the
    generator register. -/
theorem PhiA2_eq (c : Dev nD) :
    (Pipeline.ΦA spec2 c : sProp 𝕄)
      = iprop(iprop((∃ d, owns (c : Thread nD τ) scM2 fullShare d) ∗ restS2 c) ∗ (∃ r, prngReg c r)) := by
  unfold Pipeline.ΦA Pipeline.scopedRest restS2
  rw [bigSep_erase (i := cc2_scratch0) (by decide)]
  simp only [scM2, owns_whole]
  rfl

/-- Before the first point the library's invariant; after point `n` the accumulator at what that point left. -/
def PhiS2 (c : Dev nD) : (n : ℕ) → n ≤ cfg2.N → sProp 𝕄
  | 0, _ => Pipeline.ΦA spec2 c
  | n + 1, hn => iprop(iprop(owns (c : Thread nD τ) scM2 fullShare ((outsAt2 V c n hn).2) ∗ restS2 c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare ((outsAt2 V c n hn).2) ∗ restS2 c) ∗ (∃ r, prngReg c r)) := rfl
theorem PhiS2_pos (c : Dev nD) (n : ℕ) (h : n ≤ cfg2.N) (hz : n ≠ 0) :
    PhiS2 V c n h = iprop(iprop(owns (c : Thread nD τ) scM2 fullShare ((outsAt2 V c (n - 1) (by omega)).2) ∗ restS2 c) ∗ (∃ r, prngReg c r)) := by
  cases n with
  | zero => exact absurd rfl hz
  | succ n => rfl

/-! ## The proof data -/

/-- The launch's proof data on core `c`: the arrays as found; after the body each input's buffer at its block, the
    result block and the accumulator at `outsAt`; the inputs held at the shares `qs`; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS2 V c t.val (Nat.le_of_lt_succ t.isLt)
  q := qs
  owed _ := 0

theorem A_eq2 (c : Dev nD) (w : Fin cfg2.W) : (dat2 V qs c).A w = V c (Pipeline.arrRef spec2 w) := by
  dsimp only [dat2]
theorem PhiS2_castSucc (c : Dev nD) (t : Fin cfg2.N) :
    (dat2 V qs c).Φ t.castSucc = PhiS2 V c t.val (Nat.le_of_lt t.isLt) := by
  dsimp only [dat2]; simp only [Fin.coe_castSucc]
theorem after2_0 (c : Dev nD) (t : Fin cfg2.N) : (dat2 V qs c).after 0 t = iblk2 V c 0 t := by dsimp only [dat2]
theorem after2_1 (c : Dev nD) (t : Fin cfg2.N) : (dat2 V qs c).after 1 t = iblk2 V c 1 t := by dsimp only [dat2]
theorem after2_2 (c : Dev nD) (t : Fin cfg2.N) : (dat2 V qs c).after 2 t = iblk2 V c 2 t := by dsimp only [dat2]
theorem after2_3 (c : Dev nD) (t : Fin cfg2.N) : (dat2 V qs c).after 3 t = iblk2 V c 3 t := by dsimp only [dat2]
theorem after2_4 (c : Dev nD) (t : Fin cfg2.N) : (dat2 V qs c).after 4 t = (outsAt2 V c t.val t.isLt).1 := by dsimp only [dat2]
theorem before2_0 (c : Dev nD) (t : Fin cfg2.N) (d) : (dat2 V qs c).before 0 t d = iblk2 V c 0 t :=
  before2_0_of V (dat2 V qs c) (A_eq2 V qs c 0) (after2_0 V qs c) t d
theorem before2_1 (c : Dev nD) (t : Fin cfg2.N) (d) : (dat2 V qs c).before 1 t d = iblk2 V c 1 t :=
  before2_1_of V (dat2 V qs c) (A_eq2 V qs c 1) (after2_1 V qs c) t d
theorem before2_2 (c : Dev nD) (t : Fin cfg2.N) (d) : (dat2 V qs c).before 2 t d = iblk2 V c 2 t :=
  before2_2_of V (dat2 V qs c) (A_eq2 V qs c 2) (after2_2 V qs c) t d
theorem before2_3 (c : Dev nD) (t : Fin cfg2.N) (d) : (dat2 V qs c).before 3 t d = iblk2 V c 3 t :=
  before2_3_of V (dat2 V qs c) (A_eq2 V qs c 3) (after2_3 V qs c) t d

/-! ## The body obligation -/

def bodyPre2 (c : Dev nD) (t : Fin cfg2.N) : sProp 𝕄 :=
  iprop((dat2 V qs c).Φ t.castSucc ∗ (dat2 V qs c).owesAt () t.castSucc
    ∗ (∃ d, owns (c : Thread nD τ) (ms2_0 t) fullShare ((dat2 V qs c).before 0 t d))
    ∗ (∃ d, owns (c : Thread nD τ) (ms2_1 t) fullShare ((dat2 V qs c).before 1 t d))
    ∗ (∃ d, owns (c : Thread nD τ) (ms2_2 t) fullShare ((dat2 V qs c).before 2 t d))
    ∗ (∃ d, owns (c : Thread nD τ) (ms2_3 t) fullShare ((dat2 V qs c).before 3 t d))
    ∗ (∃ d, owns (c : Thread nD τ) (ms2_4 t) fullShare ((dat2 V qs c).before 4 t d)))

def bodyPost2 (c : Dev nD) (t : Fin cfg2.N) : sProp 𝕄 :=
  iprop((dat2 V qs c).Φ t.succ ∗ (dat2 V qs c).owesAt () t.succ
    ∗ (dat2 V qs c).leavesExact 0 t
    ∗ (dat2 V qs c).leavesExact 1 t
    ∗ (dat2 V qs c).leavesExact 2 t
    ∗ (dat2 V qs c).leavesExact 3 t
    ∗ (dat2 V qs c).leavesExact 4 t)

set_option maxHeartbeats 4800000 in
/-- The body at any point: the inputs' memrefs hold their blocks; the point's position in its batch says which case runs;
    the invariant hands the body the accumulator at what the point before left (at anything at the very first point) and
    takes it back at this point's contents; the core owes nothing throughout. -/
theorem sound_body2 (c : Dev nD) (t : Fin cfg2.N) :
    bodyPre2 V qs c t ⊢ wp frame (wpE (defs₀ (F := F)) Variants.none c none) Set.univ (bodyAt2 t) (fun _ => bodyPost2 V qs c t) := by
  unfold bodyPre2 bodyPost2 bodyAt2
  simp only [before2_0, before2_1, before2_2, before2_3]
  rw [show (dat2 V qs c).owesAt () t.succ = (dat2 V qs c).owesAt () t.castSucc from rfl]
  rw [show (dat2 V qs c).Φ t.succ = PhiS2 V c (t.val + 1) t.isLt from rfl, PhiS2_succ]
  have hN : t.val < 64 := lt_of_lt_of_eq t.isLt (show cfg2.N = 64 from N_2)
  by_cases h0 : t.val % 16 = 0
  · by_cases h1 : t.val % 16 = 15
    · exfalso; omega
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [Dat.leavesExact_idle (dat2 V qs c) 4 t (idleAt2_4 t (fun h => h1 ((hcond2_1 t).mp h))) (noFlush2_4 t (fun h => h1 ((hcond2_1 t).mp h)))]
      rw [outsAt2_A V c t h0 h1]
      unfold sout2_A; (try dsimp only)
      by_cases hz : t.val = 0
      · rw [PhiS2_castSucc V qs c t, PhiS2_zero V c _ _ hz, PhiA2_eq]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
      · rw [PhiS2_castSucc V qs c t, PhiS2_pos V c _ _ hz]
        iintro ⟨⟨⟨HS0, Hrest⟩, Hg⟩, Ho, ⟨%d0, H0⟩, ⟨%d1, H1⟩, ⟨%d2, H2⟩, ⟨%d3, H3⟩, ⟨%d4, H4⟩⟩
        iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover2_A c _ _ _ _ _ _ _ _ _ _ _ _ _ _ _ _ _ _ _)
            iexact Hrest
          iexact Hg
        isplitl [Ho]; · iexact Ho
        isplitl [H0]; · iexact H0
        isplitl [H1]; · iexact H1
        isplitl [H2]; · iexact H2
        isplitl [H3]; · iexact H3
        iexists _; iexact H4
  · by_cases h1 : t.val % 16 = 15
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [show (dat2 V qs c).leavesExact 4 t = owns (c : Thread nD τ) (ms2_4 t) fullShare ((dat2 V qs c).after 4 t) from by
        unfold Dat.leavesExact; rw [liveAt2_4 t ((hcond2_1 t).mpr h1)], after2_4]
      rw [outsAt2_C V c t h0 h1]
      unfold out2_C sout2_C; (try dsimp only)
      have hz : t.val ≠ 0 := by omega
      rw [PhiS2_castSucc V qs c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_C c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover2_C_4 c _ _ _ _ _ _ _ _ _ _ _ _ _ _ _ _ _ _ _ _)
    · rw [show (dat2 V qs c).leavesExact 0 t = owns (c : Thread nD τ) (ms2_0 t) fullShare ((dat2 V qs c).after 0 t) from by
        unfold Dat.leavesExact; rw [liveAt2_0 t], after2_0]
      rw [show (dat2 V qs c).leavesExact 1 t = owns (c : Thread nD τ) (ms2_1 t) fullShare ((dat2 V qs c).after 1 t) from by
        unfold Dat.leavesExact; rw [liveAt2_1 t], after2_1]
      rw [show (dat2 V qs c).leavesExact 2 t = owns (c : Thread nD τ) (ms2_2 t) fullShare ((dat2 V qs c).after 2 t) from by
        unfold Dat.leavesExact; rw [liveAt2_2 t], after2_2]
      rw [show (dat2 V qs c).leavesExact 3 t = owns (c : Thread nD τ) (ms2_3 t) fullShare ((dat2 V qs c).after 3 t) from by
        unfold Dat.leavesExact; rw [liveAt2_3 t], after2_3]
      rw [Dat.leavesExact_idle (dat2 V qs c) 4 t (idleAt2_4 t (fun h => h1 ((hcond2_1 t).mp h))) (noFlush2_4 t (fun h => h1 ((hcond2_1 t).mp h)))]
      rw [outsAt2_B V c t h0 h1]
      unfold sout2_B; (try dsimp only)
      have hz : t.val ≠ 0 := by omega
      rw [PhiS2_castSucc V qs c t, PhiS2_pos V c _ _ hz]
      iintro ⟨⟨⟨HS0, Hrest⟩, Hg⟩, Ho, ⟨%d0, H0⟩, ⟨%d1, H1⟩, ⟨%d2, H2⟩, ⟨%d3, H3⟩, ⟨%d4, H4⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_B c _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V qs c) (defs₀ (F := F)) Variants.none () Set.univ := fun t => by
  rw [bigSep_W2, bigSep_W2]
  exact sound_body2 V qs c t

/-- What the launch hands the region is the invariant before the first point. -/
theorem hin2 (c : Dev nD) : Pipeline.ΦA spec2 c ⊢ (dat2 V qs c).Φ 0 := by
  rw [show (dat2 V qs c).Φ 0 = PhiS2 V c 0 (Nat.zero_le _) from rfl, PhiS2_zero V c 0 _ rfl]
  try exact Idealize.SL.BI.Entails.refl _

/-- After the last point the invariant gives the library's back: the accumulator's contents are forgotten. -/
theorem hout2 (c : Dev nD) : (dat2 V qs c).Φ (Fin.last cfg2.N) ⊢ Pipeline.ΦA spec2 c := by
  rw [show (dat2 V qs c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨HS0, Hrest⟩, Hg⟩
  isplitl [HS0 Hrest]
  · isplitl [HS0]
    · iexists _; iexact HS0
    iexact Hrest
  iexact Hg

end Region

end Cert.KernelIdeal.Gen

end
-- ==== Proof.RunMain.lean ====
/-
  The whole program at any float instance: the core's buffer contents at every boundary between the host stretches and
  the three launches, the three launches as segments of @main, and the run — every weakly fair execution terminates with
  every unscoped buffer at the last boundary's contents.
-/
import proofs.«134606_j77163382440707_2_alg».proof.Proof.SharePair0
import proofs.«134606_j77163382440707_2_alg».proof.Proof.SharePair1
import proofs.«134606_j77163382440707_2_alg».proof.Proof.Region2
import proofs.«134606_j77163382440707_2_alg».proof.Proof.Gen.KernelIdeal.Regions

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Launches 0 and 1 read each input array through two windows: the windows get the two halves of the array's share. -/
def qsPair : Fin 5 → PosShare TreeShare := fun w => if w.val % 2 = 0 then fullShare.left else fullShare.right
/-- Launch 2's five windows are on five arrays, each held whole. -/
def qsFull : Fin 5 → PosShare TreeShare := fun _ => fullShare

/-! ## The buffer contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev U1 : (c : Dev nD) → (b : Ref sig .tc) → Buf (Elt F) ((c : Thread nD τ).loc b) := fun c b => W1 m ρ c b
/-- After launch 0: its result array at what the write-backs leave, every other buffer as entered. -/
def W2 (c : Dev nD) : Valuation τ sig (Elt F) :=
  Function.update (W1 m ρ c) (Proc.devRef .tc main_v4) ((dat0 (U1 m ρ) qsPair c).arrAt 4 cfg0.N)
abbrev U2 : (c : Dev nD) → (b : Ref sig .tc) → Buf (Elt F) ((c : Thread nD τ).loc b) := fun c b => W2 m ρ c b
abbrev W3 : Dev nD → Valuation τ sig (Elt F) := fun c => StableHlo.after hostOps1 (W2 m ρ c)
abbrev U3 : (c : Dev nD) → (b : Ref sig .tc) → Buf (Elt F) ((c : Thread nD τ).loc b) := fun c b => W3 m ρ c b
/-- After launch 1. -/
def W4 (c : Dev nD) : Valuation τ sig (Elt F) :=
  Function.update (W3 m ρ c) (Proc.devRef .tc main_v6) ((dat1 (U3 m ρ) qsPair c).arrAt 4 cfg1.N)
abbrev U4 : (c : Dev nD) → (b : Ref sig .tc) → Buf (Elt F) ((c : Thread nD τ).loc b) := fun c b => W4 m ρ c b
abbrev W5 : Dev nD → Valuation τ sig (Elt F) := fun c => StableHlo.after hostOps2 (W4 m ρ c)
abbrev U5 : (c : Dev nD) → (b : Ref sig .tc) → Buf (Elt F) ((c : Thread nD τ).loc b) := fun c b => W5 m ρ c b
/-- After launch 2. -/
def W6 (c : Dev nD) : Valuation τ sig (Elt F) :=
  Function.update (W5 m ρ c) (Proc.devRef .tc main_v8) ((dat2 (U5 m ρ) qsFull c).arrAt 4 cfg2.N)
abbrev U6 : (c : Dev nD) → (b : Ref sig .tc) → Buf (Elt F) ((c : Thread nD τ).loc b) := fun c b => W6 m ρ c b
abbrev W7 : Dev nD → Valuation τ sig (Elt F) := fun c => StableHlo.after hostOps3 (W6 m ρ c)

theorem W2_out (c : Dev nD) : W2 m ρ c (Proc.devRef .tc main_v4) = (dat0 (U1 m ρ) qsPair c).arrAt 4 cfg0.N := by
  unfold W2; exact Function.update_self ..
theorem W2_of_ne (c : Dev nD) (b : Ref sig .tc) (hb : b ≠ main_v4) : W2 m ρ c (Proc.devRef .tc b) = W1 m ρ c (Proc.devRef .tc b) := by
  unfold W2; exact Function.update_of_ne (StableHlo.devRef_ne_of_ne hb) ..

theorem W4_out (c : Dev nD) : W4 m ρ c (Proc.devRef .tc main_v6) = (dat1 (U3 m ρ) qsPair c).arrAt 4 cfg1.N := by
  unfold W4; exact Function.update_self ..
theorem W4_of_ne (c : Dev nD) (b : Ref sig .tc) (hb : b ≠ main_v6) : W4 m ρ c (Proc.devRef .tc b) = W3 m ρ c (Proc.devRef .tc b) := by
  unfold W4; exact Function.update_of_ne (StableHlo.devRef_ne_of_ne hb) ..

theorem W6_out (c : Dev nD) : W6 m ρ c (Proc.devRef .tc main_v8) = (dat2 (U5 m ρ) qsFull c).arrAt 4 cfg2.N := by
  unfold W6; exact Function.update_self ..
theorem W6_of_ne (c : Dev nD) (b : Ref sig .tc) (hb : b ≠ main_v8) : W6 m ρ c (Proc.devRef .tc b) = W5 m ρ c (Proc.devRef .tc b) := by
  unfold W6; exact Function.update_of_ne (StableHlo.devRef_ne_of_ne hb) ..

theorem W2_in0 (c : Dev nD) : W2 m ρ c (Proc.devRef .tc main_v0) = U1 m ρ c main_v0 := W2_of_ne m ρ c main_v0 (by decide)
theorem W2_in2 (c : Dev nD) : W2 m ρ c (Proc.devRef .tc main_v2) = U1 m ρ c main_v2 := W2_of_ne m ρ c main_v2 (by decide)
theorem W4_in0 (c : Dev nD) : W4 m ρ c (Proc.devRef .tc main_v1) = U3 m ρ c main_v1 := W4_of_ne m ρ c main_v1 (by decide)
theorem W4_in2 (c : Dev nD) : W4 m ρ c (Proc.devRef .tc main_v3) = U3 m ρ c main_v3 := W4_of_ne m ρ c main_v3 (by decide)
/-- Off a launch's arrays nothing changes across it. -/
theorem W2_rest (c : Dev nD) :
    (Pipeline.unscopedRest (Ix := Unit) (Name := ℕ) (U := UR sig nD τ) (Lvl := ℕ) spec0 c (U1 m ρ c) : sProp 𝕄)
      = Pipeline.unscopedRest (Ix := Unit) (Name := ℕ) (U := UR sig nD τ) (Lvl := ℕ) spec0 c (U2 m ρ c) := by
  unfold Pipeline.unscopedRest
  exact bigSep_congr fun b hb => by
    have h : U2 m ρ c b = U1 m ρ c b := W2_of_ne m ρ c b (fun e => (Finset.mem_sdiff.mp hb).2 (e ▸ (by decide : main_v4 ∈ Finset.univ.image (Pipeline.arrRef spec0))))
    rw [h]
theorem W4_rest (c : Dev nD) :
    (Pipeline.unscopedRest (Ix := Unit) (Name := ℕ) (U := UR sig nD τ) (Lvl := ℕ) spec1 c (U3 m ρ c) : sProp 𝕄)
      = Pipeline.unscopedRest (Ix := Unit) (Name := ℕ) (U := UR sig nD τ) (Lvl := ℕ) spec1 c (U4 m ρ c) := by
  unfold Pipeline.unscopedRest
  exact bigSep_congr fun b hb => by
    have h : U4 m ρ c b = U3 m ρ c b := W4_of_ne m ρ c b (fun e => (Finset.mem_sdiff.mp hb).2 (e ▸ (by decide : main_v6 ∈ Finset.univ.image (Pipeline.arrRef spec1))))
    rw [h]

/-! ## The proof data family and the thread state -/

/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (U1 m ρ) qsPair c
  | ⟨1, _⟩ => fun c => dat1 (U3 m ρ) qsPair c
  | ⟨2, _⟩ => fun c => dat2 (U5 m ρ) qsFull c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The launches as segments -/

set_option backward.isDefEq.respectTransparency.types false in
/-- Launch 0 over the thread state "every unscoped buffer at the boundary's contents, the generator register at some
    state, nothing owed": entered at `W1`, left at `W2`.  Its two input arrays are dealt to their two windows by
    halves and joined again; the result array comes back at what the write-backs leave. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation0 (U1 m ρ) qsPair c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (U1 m ρ c)
  hentry c := by
    rw [Pipeline.ownSems0_none]
    have hub := Pipeline.unscopedBufs_split₀ (Ix := Unit) (Name := ℕ) (U := UR sig nD τ) (Lvl := ℕ) cfgs 0 winFacts₀0.arr_unscoped c (U1 m ρ c)
    rw [Pipeline.unscopedBufs_held] at hub
    rw [hub]
    iintro ⟨⟨⟨Ha, Hrest⟩, Hp, HO⟩, -, -⟩
    imodintro
    isplitl [Ha]
    · iapply (arrays0_of_bufs c (pdats m ρ 0 c) rfl rfl rfl rfl (U1 m ρ c) ((pdats m ρ 0 c).arrAt · 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = PhiS0 (U1 m ρ) c 0 (Nat.zero_le _) from rfl, PhiS0_zero (U1 m ρ) c 0 _ rfl]; unfold Pipeline.ΦA
    iintro ⟨Hp, -, Hr⟩
    isplitl [Hr]; · iexact Hr
    iexact Hp
  hout c := by
    rw [Pipeline.ownSems0_none]
    refine (hout0 (U1 m ρ) qsPair c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 0 winFacts₀0.arr_unscoped c (U2 m ρ c)
    rw [Pipeline.unscopedBufs_held] at hub
    rw [hub]
    iintro ⟨Ha, HO, HY, Hrest⟩
    imodintro
    isplitl [Ha Hrest]
    · isplitl [Ha]
      · iapply (bufs0_of_arrays c (pdats m ρ 0 c) rfl rfl rfl rfl (U2 m ρ c) ((pdats m ρ 0 c).arrAt · cfg0.N)
          (((pdats m ρ 0 c).arrAt_in 0 rfl _).trans (W2_in0 m ρ c).symm) (((pdats m ρ 0 c).arrAt_in 1 rfl _).trans (W2_in0 m ρ c).symm)
          (((pdats m ρ 0 c).arrAt_in 2 rfl _).trans (W2_in2 m ρ c).symm) (((pdats m ρ 0 c).arrAt_in 3 rfl _).trans (W2_in2 m ρ c).symm)
          (W2_out m ρ c).symm)
        iexact Ha
      · iapply (Entails.of_eq (W2_rest m ρ c))
        iexact Hrest
    isplitl [HY]; · iexact HY
    unfold Pipeline.Dat.owesAt Pipeline.owesWithin
    icases HO with ⟨%W, -, HO⟩; iexists W; iexact HO

set_option backward.isDefEq.respectTransparency.types false in
/-- Launch 1 over the thread state "every unscoped buffer at the boundary's contents, the generator register at some
    state, nothing owed": entered at `W3`, left at `W4`.  Its two input arrays are dealt to their two windows by
    halves and joined again; the result array comes back at what the write-backs leave. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (U3 m ρ) qsPair c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (U3 m ρ c)
  hentry c := by
    rw [Pipeline.ownSems0_none]
    have hub := Pipeline.unscopedBufs_split₀ (Ix := Unit) (Name := ℕ) (U := UR sig nD τ) (Lvl := ℕ) cfgs 1 winFacts₀1.arr_unscoped c (U3 m ρ c)
    rw [Pipeline.unscopedBufs_held] at hub
    rw [hub]
    iintro ⟨⟨⟨Ha, Hrest⟩, Hp, HO⟩, -, -⟩
    imodintro
    isplitl [Ha]
    · iapply (arrays1_of_bufs c (pdats m ρ 1 c) rfl rfl rfl rfl (U3 m ρ c) ((pdats m ρ 1 c).arrAt · 0) rfl rfl rfl rfl rfl)
      iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (U3 m ρ) c 0 (Nat.zero_le _) from rfl, PhiS1_zero (U3 m ρ) c 0 _ rfl]; unfold Pipeline.ΦA
    iintro ⟨Hp, -, Hr⟩
    isplitl [Hr]; · iexact Hr
    iexact Hp
  hout c := by
    rw [Pipeline.ownSems0_none]
    refine (hout1 (U3 m ρ) qsPair c).trans ?_
    unfold Pipeline.ΦA
    iintro ⟨Hr, Hp⟩
    isplitl [Hp]; · iexact Hp
    isplitr; · iempintro
    iexact Hr
  hexit c := by
    have hub := Pipeline.unscopedBufs_split₀ (Ix := Unit) (Name := ℕ) (U := UR sig nD τ) (Lvl := ℕ) cfgs 1 winFacts₀1.arr_unscoped c (U4 m ρ c)
    rw [Pipeline.unscopedBufs_held] at hub
    rw [hub]
    iintro ⟨Ha, HO, HY, Hrest⟩
    imodintro
    isplitl [Ha Hrest]
    · isplitl [Ha]
      · iapply (bufs1_of_arrays c (pdats m ρ 1 c) rfl rfl rfl rfl (U4 m ρ c) ((pdats m ρ 1 c).arrAt · cfg1.N)
          (((pdats m ρ 1 c).arrAt_in 0 rfl _).trans (W4_in0 m ρ c).symm) (((pdats m ρ 1 c).arrAt_in 1 rfl _).trans (W4_in0 m ρ c).symm)
          (((pdats m ρ 1 c).arrAt_in 2 rfl _).trans (W4_in2 m ρ c).symm) (((pdats m ρ 1 c).arrAt_in 3 rfl _).trans (W4_in2 m ρ c).symm)
          (W4_out m ρ c).symm)
        iexact Ha
      · iapply (Entails.of_eq (W4_rest m ρ c))
        iexact Hrest
    isplitl [HY]; · iexact HY
    unfold Pipeline.Dat.owesAt Pipeline.owesWithin
    icases HO with ⟨%W, -, HO⟩; iexists W; iexact HO

/-! ### Launch 2: five windows on five arrays -/

theorem hF2 (c : Dev nD) (w : Fin cfg2.W) : (dat2 (U5 m ρ) qsFull c).arrAt w cfg2.N = U6 m ρ c (Pipeline.arrRef spec2 w) := by
  match w with
  | ⟨0, _⟩ => exact ((dat2 (U5 m ρ) qsFull c).arrAt_in 0 rfl _).trans ((A_eq2 (U5 m ρ) qsFull c 0).trans (W6_of_ne m ρ c main_v0 (by decide)).symm)
  | ⟨1, _⟩ => exact ((dat2 (U5 m ρ) qsFull c).arrAt_in 1 rfl _).trans ((A_eq2 (U5 m ρ) qsFull c 1).trans (W6_of_ne m ρ c main_v1 (by decide)).symm)
  | ⟨2, _⟩ => exact ((dat2 (U5 m ρ) qsFull c).arrAt_in 2 rfl _).trans ((A_eq2 (U5 m ρ) qsFull c 2).trans (W6_of_ne m ρ c main_v2 (by decide)).symm)
  | ⟨3, _⟩ => exact ((dat2 (U5 m ρ) qsFull c).arrAt_in 3 rfl _).trans ((A_eq2 (U5 m ρ) qsFull c 3).trans (W6_of_ne m ρ c main_v3 (by decide)).symm)
  | ⟨4, _⟩ => exact (W6_out m ρ c).symm
theorem hrest2 (c : Dev nD) : ∀ b, b ∉ Finset.univ.image (Pipeline.arrRef spec2) → U6 m ρ c b = U5 m ρ c b :=
  fun b hb => W6_of_ne m ρ c b fun e => hb (e ▸ (by decide : main_v8 ∈ Finset.univ.image (Pipeline.arrRef spec2)))

set_option backward.isDefEq.respectTransparency.types false in
/-- Launch 2 over the thread state: entered at `W5`, left at `W6`; its arrays split out of the unscoped buffers and
    put back, each whole. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m ρ) qsFull c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (U5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = PhiS2 (U5 m ρ) c 0 (Nat.zero_le _) from rfl, PhiS2_zero (U5 m ρ) c 0 _ rfl]; unfold Pipeline.ΦA
    iintro ⟨Hp, -, Hr⟩
    isplitl [Hr]; · iexact Hr
    iexact Hp
  hout c := by
    rw [Pipeline.ownSems0_none]
    refine (hout2 (U5 m ρ) qsFull c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (U5 m ρ c) (U6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev msegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (msegs m ρ) := (main_chain c).trans (by chain_rfl)

set_option backward.isDefEq.respectTransparency.types false in
/-- THE RUN.  At the compiled mesh, from any memory with zero counters, every weakly fair execution of @main on the
    TensorCores terminates, nothing faulting, and in every final state every unscoped buffer of every core holds the
    last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (msegs m ρ)
    (fun c Q => by rw [main_run m ρ c])
    (by simp only [msegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Gen

end
-- ==== Proof.Frames.lean ====
/-
  The frame: in every final state each argument array holds what it was launched with — no host stretch writes an
  argument and no launch's result array is one.
-/
import proofs.«134606_j77163382440707_2_alg».proof.Proof.RunMain

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer that no host stretch writes and that is no launch's result reaches the end as launched. -/
theorem W7_keep (c : Dev nD) (r : Ref sig .tc) (h0 : r ∉ hostOps0_W) (h1 : r ∉ hostOps1_W) (h2 : r ∉ hostOps2_W) (h3 : r ∉ hostOps3_W)
    (h4 : r ≠ main_v4) (h6 : r ≠ main_v6) (h8 : r ≠ main_v8) :
    W7 m ρ c (Proc.devRef .tc r) = m ((c : Thread nD τ).loc r) :=
  calc W7 m ρ c (Proc.devRef .tc r)
    _ = W6 m ρ c (Proc.devRef .tc r) := StableHlo.after_of_writes_sub hostOps3 _ hostOps3_writes h3
    _ = W5 m ρ c (Proc.devRef .tc r) := W6_of_ne m ρ c r h8
    _ = W4 m ρ c (Proc.devRef .tc r) := StableHlo.after_of_writes_sub hostOps2 _ hostOps2_writes h2
    _ = W3 m ρ c (Proc.devRef .tc r) := W4_of_ne m ρ c r h6
    _ = W2 m ρ c (Proc.devRef .tc r) := StableHlo.after_of_writes_sub hostOps1 _ hostOps1_writes h1
    _ = W1 m ρ c (Proc.devRef .tc r) := W2_of_ne m ρ c r h4
    _ = W0 m ρ c (Proc.devRef .tc r) := StableHlo.after_of_writes_sub hostOps0 _ hostOps0_writes h0
    _ = m ((c : Thread nD τ).loc r) := rfl

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W7_keep m ρ c main_arg0 (by decide) (by decide) (by decide) (by decide) (by decide) (by decide) (by decide)),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide))⟩)
    (run_all m ρ)

end Cert.KernelIdeal.Gen

end
-- ==== Proof.Pieces0.lean ====
/-
  Launch 0: what each case of the body leaves in the accumulator and in the result block, read back as values of the
  payloads.  The first tile of a batch leaves the tile's total added to the zero it has just stored; a middle tile and
  the last tile leave the tile's total added to what the accumulator held; the last tile also leaves the accumulator's
  new contents in the result block.
-/
import proofs.«134606_j77163382440707_2_alg».proof.Proof.Region0
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as functions. -/
theorem hz2_0 : (![0, 0] : Fin 2 → Nat) = fun _ => 0 := funext fun a => by fin_cases a <;> rfl
theorem hz3_0 : (![0, 0, 0] : Fin 3 → Nat) = fun _ => 0 := funext fun a => by fin_cases a <;> rfl

/-- A middle tile leaves the tile's total added to what the accumulator held. -/
theorem sout0_B_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : ¬cond0_1 i) (x0 x1 x2 x3 : Vec F S1x3x1024 .f32) (xs : Vec F S1x1 .f32) :
    sout0_B c i arg3 harg3 arg4 harg4 arg5 harg5 arg6 harg6 arg7 harg7 arg8 harg8 hc0 hc1 x0 x1 x2 x3 xs = k0_pay1 (k0_pay4 x0 x1 x2 x3) xs := by
  unfold sout0_B
  rw [View.read_writes_eq_canon _ _ _ (scover0_B c i arg3 harg3 arg4 harg4 arg5 harg5 arg6 harg6 arg7 harg7 arg8 harg8 hc0 hc1 x0 x1 x2 x3 xs)]
  unfold kernelRun0_B
  dsimp only
  sl_unfold_words
  rw [View.canon_unit_zero hz2_0]
  simp only [View.readAt_eq_ld, harg3.read_unread, harg4.read_unread, harg5.read_unread, harg6.read_unread, harg8.read_unread,
    View.ld_unit_zero (S := S1x1) hz2_0, View.ld_unit_zero (S := S1x3x1024) hz3_0]

/-- The first tile of a batch leaves the tile's total added to the zero it has just stored. -/
theorem sout0_A_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond0_0 i) (hc1 : ¬cond0_1 i) (x0 x1 x2 x3 : Vec F S1x3x1024 .f32) :
    sout0_A c i arg3 harg3 arg4 harg4 arg5 harg5 arg6 harg6 arg7 harg7 arg8 harg8 hc0 hc1 x0 x1 x2 x3 = k0_pay1 (k0_pay4 x0 x1 x2 x3) (k0_pay3 (F := F)) := by
  unfold sout0_A
  rw [View.read_writes_eq_canon _ _ _ (scover0_A c i arg3 harg3 arg4 harg4 arg5 harg5 arg6 harg6 arg7 harg7 arg8 harg8 hc0 hc1 x0 x1 x2 x3)]
  unfold kernelRun0_A
  dsimp only
  sl_unfold_words
  rw [View.canon_cons_unit_zero (S := S1x1) hz2_0, View.readCov_unit_zero (S := S1x1) _ hz2_0]
  simp only [View.readAt_eq_ld, harg3.read_unread, harg4.read_unread, harg5.read_unread, harg6.read_unread,
    View.ld_unit_zero (S := S1x3x1024) hz3_0]

/-- The last tile leaves the tile's total added to what the accumulator held … -/
theorem sout0_C_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) :
    sout0_C c i arg3 harg3 arg4 harg4 arg5 harg5 arg6 harg6 arg7 harg7 arg8 harg8 hc0 hc1 x0 x1 x2 x3 xs = k0_pay1 (k0_pay4 x0 x1 x2 x3) xs := by
  unfold sout0_C
  rw [View.read_writes_eq_canon _ _ _ (scover0_C c i arg3 harg3 arg4 harg4 arg5 harg5 arg6 harg6 arg7 harg7 arg8 harg8 hc0 hc1 x0 x1 x2 x3 xs)]
  unfold kernelRun0_C
  dsimp only
  sl_unfold_words
  rw [View.canon_unit_zero hz2_0]
  simp only [View.readAt_eq_ld, harg3.read_unread, harg4.read_unread, harg5.read_unread, harg6.read_unread, harg8.read_unread,
    View.ld_unit_zero (S := S1x1) hz2_0, View.ld_unit_zero (S := S1x3x1024) hz3_0]

/-- … and, in the result block, the accumulator's new contents. -/
theorem out0_C_eq (c : Dev nD) (i : grid0.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond0_0 i) (hc1 : cond0_1 i) (x0 x1 x2 x3 : Vec F S1x3x1024 .f32) (xs : Vec F S1x1 .f32) :
    out0_C c i arg3 harg3 arg4 harg4 arg5 harg5 arg6 harg6 arg7 harg7 arg8 harg8 hc0 hc1 x0 x1 x2 x3 xs = k0_pay2 (k0_pay1 (k0_pay4 x0 x1 x2 x3) xs) := by
  unfold out0_C
  rw [View.read_writes_eq_canon _ _ _ (cover0_C_4 c i arg3 harg3 arg4 harg4 arg5 harg5 arg6 harg6 arg7 harg7 arg8 harg8 hc0 hc1 x0 x1 x2 x3 xs)]
  unfold kernelRun0_C
  dsimp only
  sl_unfold_words
  rw [View.canon_unit_zero hz3_0, View.readCov_unit_zero (S := S1x1) _ hz2_0]
  simp only [View.readAt_eq_ld, harg3.read_unread, harg4.read_unread, harg5.read_unread, harg6.read_unread, harg8.read_unread,
    View.ld_unit_zero (S := S1x1) hz2_0, View.ld_unit_zero (S := S1x3x1024) hz3_0]

end Cert.KernelIdeal.Gen

end
-- ==== Proof.Spec.lean ====
/-
  The kernel's value as one function of the four argument arrays, for any float instance.

  Each of the three launches walks a 4 x 4 x 4 grid (batch b, row tile i, column tile j; the point number is
  16 b + 4 i + j).  At a point it reads four [1, 3, 1024] blocks — rows tile i of the first point cloud and its normals,
  columns tile j of the second cloud and its normals, each stored coordinate-major as [4, 3, 4096] — and adds the tile's
  total (the payload `pay4` summed once more by `pay1`) to a one-element accumulator that the first tile of a batch
  resets to zero (`pay3`) and the last tile of the batch copies to entry b of the launch's [4, 1, 1] result (`pay2`).
  The host then sums each [4, 1, 1] result and combines the three sums as kxx + kyy - 2 kxy.
-/
import proofs.«134606_j77163382440707_2_alg».proof.Proof.Gen.KernelIdeal.Skeleton
import Idealize.ShloMosaic.Lib.ValueIdx

noncomputable section

namespace Cert.KernelIdeal.Hand

open Idealize.ShloMosaic Idealize.ShloMosaic.ValueIdx Cert.KernelIdeal Cert.KernelIdeal.Gen

variable {F : FTy → Type} [FloatOps F]

/-- A point cloud [4, 4096, 3] stored coordinate-major, [4, 3, 4096]: the host's transpose in front of the launches. -/
def tr (x : FVec F S4x4096x3 .f32) : FVec F S4x3x4096 .f32 :=
  transpose S4x3x4096 [0, 2, 1] x transposes_S4x4096x3_S4x3x4096_0_2_1

/-- Tile `i` of batch `b` of a coordinate-major cloud: the [1, 3, 1024] block whose entry (0, k, p) is coordinate `k` of
    point `1024 i + p` of batch `b`. -/
def tile (X : FVec F S4x3x4096 .f32) (b i : Fin 4) : Vec F S1x3x1024 .f32 :=
  fun y => X (ix3 b (y 1) ⟨1024 * i.val + (y 2).val, by have h2 : (y 2).val < 1024 := (y 2).isLt; have := i.isLt; omega⟩)

/-- The accumulator of launch 0 in batch `b` after its first `n` tiles (tile `n` is row tile `n / 4`, column tile `n % 4`). -/
def acc0 (XA XB NA NB : FVec F S4x3x4096 .f32) (b : Fin 4) : ℕ → FVec F S1x1 .f32
  | 0 => k0_pay3
  | n + 1 => k0_pay1 (k0_pay4 (tile XA b ⟨n / 4 % 4, Nat.mod_lt _ (by decide)⟩) (tile XB b ⟨n % 4, Nat.mod_lt _ (by decide)⟩)
      (tile NA b ⟨n / 4 % 4, Nat.mod_lt _ (by decide)⟩) (tile NB b ⟨n % 4, Nat.mod_lt _ (by decide)⟩)) (acc0 XA XB NA NB b n)
/-- The same for launch 1. -/
def acc1 (XA XB NA NB : FVec F S4x3x4096 .f32) (b : Fin 4) : ℕ → FVec F S1x1 .f32
  | 0 => k1_pay3
  | n + 1 => k1_pay1 (k1_pay4 (tile XA b ⟨n / 4 % 4, Nat.mod_lt _ (by decide)⟩) (tile XB b ⟨n % 4, Nat.mod_lt _ (by decide)⟩)
      (tile NA b ⟨n / 4 % 4, Nat.mod_lt _ (by decide)⟩) (tile NB b ⟨n % 4, Nat.mod_lt _ (by decide)⟩)) (acc1 XA XB NA NB b n)
/-- The same for launch 2. -/
def acc2 (XA XB NA NB : FVec F S4x3x4096 .f32) (b : Fin 4) : ℕ → FVec F S1x1 .f32
  | 0 => k2_pay3
  | n + 1 => k2_pay1 (k2_pay4 (tile XA b ⟨n / 4 % 4, Nat.mod_lt _ (by decide)⟩) (tile XB b ⟨n % 4, Nat.mod_lt _ (by decide)⟩)
      (tile NA b ⟨n / 4 % 4, Nat.mod_lt _ (by decide)⟩) (tile NB b ⟨n % 4, Nat.mod_lt _ (by decide)⟩)) (acc2 XA XB NA NB b n)

/-- Launch 0's [4, 1, 1] result: entry `b` is the batch's accumulator after all sixteen tiles. -/
def out0 (XA XB NA NB : FVec F S4x3x4096 .f32) : FVec F S4x1x1 .f32 :=
  fun y => k0_pay2 (acc0 XA XB NA NB (y 0) 16) (ix3 0 0 0)
/-- Launch 1's. -/
def out1 (XA XB NA NB : FVec F S4x3x4096 .f32) : FVec F S4x1x1 .f32 :=
  fun y => k1_pay2 (acc1 XA XB NA NB (y 0) 16) (ix3 0 0 0)
/-- Launch 2's. -/
def out2 (XA XB NA NB : FVec F S4x3x4096 .f32) : FVec F S4x1x1 .f32 :=
  fun y => k2_pay2 (acc2 XA XB NA NB (y 0) 16) (ix3 0 0 0)

/-- The host's sum of a [4, 1, 1] result from zero. -/
def total (o : FVec F S4x1x1 .f32) : FVec F S_ .f32 :=
  Host.reduceAdd (F := F) o (constant (F := F) S_ .f32 0x00000000#32) reducesTo_S4x1x1_S_d0_1_2 h_S_

/-- The program's result: kxx + kyy - 2 kxy of the three launches' totals. -/
def kernelVal (a0 a1 a2 a3 : FVec F S4x4096x3 .f32) : FVec F S_ .f32 :=
  subf (addf (total (out0 (tr a0) (tr a0) (tr a2) (tr a2))) (total (out1 (tr a1) (tr a1) (tr a3) (tr a3))))
    (mulf (constant (F := F) S_ .f32 0x40000000#32) (total (out2 (tr a0) (tr a1) (tr a2) (tr a3))))

end Cert.KernelIdeal.Hand

end
-- ==== Proof.ValueCommon.lean ====
/-
  Shared by the three launches' value modules: a tile of a coordinate-major point cloud named by natural numbers
  (read modulo 4), and the one index of a [1, 1, 1] block.
-/
import proofs.«134606_j77163382440707_2_alg».proof.Proof.Spec
import proofs.«134606_j77163382440707_2_alg».proof.Proof.Gen.KernelIdeal.Launch
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Hand

/-- A tile named by natural numbers (read modulo 4). -/
def tileN (X : FVec F S4x3x4096 .f32) (b i : ℕ) : Vec F S1x3x1024 .f32 :=
  tile X ⟨b % 4, Nat.mod_lt _ (by decide)⟩ ⟨i % 4, Nat.mod_lt _ (by decide)⟩
theorem tileN_congr (X : FVec F S4x3x4096 .f32) {b b' i i' : ℕ} (hb : b % 4 = b' % 4) (hi : i % 4 = i' % 4) :
    tileN X b i = tileN X b' i' := by
  unfold tileN
  rw [show (⟨b % 4, Nat.mod_lt _ (by decide)⟩ : Fin 4) = ⟨b' % 4, Nat.mod_lt _ (by decide)⟩ from Fin.ext hb,
    show (⟨i % 4, Nat.mod_lt _ (by decide)⟩ : Fin 4) = ⟨i' % 4, Nat.mod_lt _ (by decide)⟩ from Fin.ext hi]

/-- Every index of a [1, 1, 1] block is the one. -/
theorem idx111 (y : S1x1x1.Idx) : y = ix3 0 0 0 := by
  funext a
  match a with
  | ⟨0, _⟩ => exact Fin.ext (by have : (y 0).val < 1 := (y 0).isLt; show (y 0).val = 0; omega)
  | ⟨1, _⟩ => exact Fin.ext (by have : (y 1).val < 1 := (y 1).isLt; show (y 1).val = 0; omega)
  | ⟨2, _⟩ => exact Fin.ext (by have : (y 2).val < 1 := (y 2).isLt; show (y 2).val = 0; omega)

end Cert.KernelIdeal.Gen

end
-- ==== Proof.Value0.lean ====
/-
  Launch 0's result array as one function of its four input arrays: entry b of the [4, 1, 1] result is batch b's
  accumulator after its sixteen tiles.  Each input block at a grid point is a tile of its array (the point's batch, row
  tile and column tile are read off the point's number); the accumulator after a point is the recursion of the
  specification; the sixteenth tile of each batch writes entry b back, and these four write-backs cover the result.
-/
import proofs.«134606_j77163382440707_2_alg».proof.Proof.Pieces0
import proofs.«134606_j77163382440707_2_alg».proof.Proof.ValueCommon
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Hand

section Value

variable (V : (c : Dev nD) → (b : Ref sig .tc) → Buf (Elt F) ((c : Thread nD τ).loc b)) (qs : Fin 5 → PosShare TreeShare)

/-- The block indices of the five windows at a grid point, decided over the grid: batch `t / 16`; the row tile
    `t / 4 % 4` for the windows of the first point cloud, the column tile `t % 4` for those of the second. -/
theorem idx0_0 : ∀ t : Fin cfg0.N, win0_0.index t 0 = t.val / 16 ∧ win0_0.index t 1 = 0 ∧ win0_0.index t 2 = t.val / 4 % 4 :=
  (by decide +kernel : ∀ t : Fin grid0.N, win0_0.index t 0 = t.val / 16 ∧ win0_0.index t 1 = 0 ∧ win0_0.index t 2 = t.val / 4 % 4)
theorem idx0_1 : ∀ t : Fin cfg0.N, win0_1.index t 0 = t.val / 16 ∧ win0_1.index t 1 = 0 ∧ win0_1.index t 2 = t.val % 4 :=
  (by decide +kernel : ∀ t : Fin grid0.N, win0_1.index t 0 = t.val / 16 ∧ win0_1.index t 1 = 0 ∧ win0_1.index t 2 = t.val % 4)
theorem idx0_2 : ∀ t : Fin cfg0.N, win0_2.index t 0 = t.val / 16 ∧ win0_2.index t 1 = 0 ∧ win0_2.index t 2 = t.val / 4 % 4 :=
  (by decide +kernel : ∀ t : Fin grid0.N, win0_2.index t 0 = t.val / 16 ∧ win0_2.index t 1 = 0 ∧ win0_2.index t 2 = t.val / 4 % 4)
theorem idx0_3 : ∀ t : Fin cfg0.N, win0_3.index t 0 = t.val / 16 ∧ win0_3.index t 1 = 0 ∧ win0_3.index t 2 = t.val % 4 :=
  (by decide +kernel : ∀ t : Fin grid0.N, win0_3.index t 0 = t.val / 16 ∧ win0_3.index t 1 = 0 ∧ win0_3.index t 2 = t.val % 4)
theorem idx0_4 : ∀ t : Fin cfg0.N, win0_4.index t 0 = t.val / 16 ∧ win0_4.index t 1 = 0 ∧ win0_4.index t 2 = 0 :=
  (by decide +kernel : ∀ t : Fin grid0.N, win0_4.index t 0 = t.val / 16 ∧ win0_4.index t 1 = 0 ∧ win0_4.index t 2 = 0)

/-- Each input window's block at a point is the tile of its array the point names. -/
theorem iblk0_0_eq (c : Dev nD) (t : Fin cfg0.N) :
    (iblk0 V c 0 t : Vec F S1x3x1024 .f32) = tileN (V c (Pipeline.arrRef spec0 0)) (t.val / 16) (t.val / 4) := by
  have hN : t.val < 64 := lt_of_lt_of_eq t.isLt (show cfg0.N = 64 from N_0)
  obtain ⟨i0, i1, i2⟩ := idx0_0 t
  funext y
  unfold iblk0 tileN Cert.KernelIdeal.Hand.tile
  rw [View.read_apply]
  show V c (Pipeline.arrRef spec0 0) _ = V c (Pipeline.arrRef spec0 0) _
  congr 1
  funext a
  apply Fin.ext
  have h0 : (y 0).val < 1 := (y 0).isLt
  match a with
  | ⟨0, _⟩ => show win0_0.index t 0 * 1 + 1 * (y 0).val = t.val / 16 % 4; rw [i0]; omega
  | ⟨1, _⟩ => show win0_0.index t 1 * 3 + 1 * (y 1).val = (y 1).val; rw [i1]; omega
  | ⟨2, _⟩ => show win0_0.index t 2 * 1024 + 1 * (y 2).val = 1024 * ((t.val / 4) % 4) + (y 2).val; rw [i2]; omega
theorem iblk0_1_eq (c : Dev nD) (t : Fin cfg0.N) :
    (iblk0 V c 1 t : Vec F S1x3x1024 .f32) = tileN (V c (Pipeline.arrRef spec0 1)) (t.val / 16) (t.val) := by
  have hN : t.val < 64 := lt_of_lt_of_eq t.isLt (show cfg0.N = 64 from N_0)
  obtain ⟨i0, i1, i2⟩ := idx0_1 t
  funext y
  unfold iblk0 tileN Cert.KernelIdeal.Hand.tile
  rw [View.read_apply]
  show V c (Pipeline.arrRef spec0 1) _ = V c (Pipeline.arrRef spec0 1) _
  congr 1
  funext a
  apply Fin.ext
  have h0 : (y 0).val < 1 := (y 0).isLt
  match a with
  | ⟨0, _⟩ => show win0_1.index t 0 * 1 + 1 * (y 0).val = t.val / 16 % 4; rw [i0]; omega
  | ⟨1, _⟩ => show win0_1.index t 1 * 3 + 1 * (y 1).val = (y 1).val; rw [i1]; omega
  | ⟨2, _⟩ => show win0_1.index t 2 * 1024 + 1 * (y 2).val = 1024 * ((t.val) % 4) + (y 2).val; rw [i2]; omega
theorem iblk0_2_eq (c : Dev nD) (t : Fin cfg0.N) :
    (iblk0 V c 2 t : Vec F S1x3x1024 .f32) = tileN (V c (Pipeline.arrRef spec0 2)) (t.val / 16) (t.val / 4) := by
  have hN : t.val < 64 := lt_of_lt_of_eq t.isLt (show cfg0.N = 64 from N_0)
  obtain ⟨i0, i1, i2⟩ := idx0_2 t
  funext y
  unfold iblk0 tileN Cert.KernelIdeal.Hand.tile
  rw [View.read_apply]
  show V c (Pipeline.arrRef spec0 2) _ = V c (Pipeline.arrRef spec0 2) _
  congr 1
  funext a
  apply Fin.ext
  have h0 : (y 0).val < 1 := (y 0).isLt
  match a with
  | ⟨0, _⟩ => show win0_2.index t 0 * 1 + 1 * (y 0).val = t.val / 16 % 4; rw [i0]; omega
  | ⟨1, _⟩ => show win0_2.index t 1 * 3 + 1 * (y 1).val = (y 1).val; rw [i1]; omega
  | ⟨2, _⟩ => show win0_2.index t 2 * 1024 + 1 * (y 2).val = 1024 * ((t.val / 4) % 4) + (y 2).val; rw [i2]; omega
theorem iblk0_3_eq (c : Dev nD) (t : Fin cfg0.N) :
    (iblk0 V c 3 t : Vec F S1x3x1024 .f32) = tileN (V c (Pipeline.arrRef spec0 3)) (t.val / 16) (t.val) := by
  have hN : t.val < 64 := lt_of_lt_of_eq t.isLt (show cfg0.N = 64 from N_0)
  obtain ⟨i0, i1, i2⟩ := idx0_3 t
  funext y
  unfold iblk0 tileN Cert.KernelIdeal.Hand.tile
  rw [View.read_apply]
  show V c (Pipeline.arrRef spec0 3) _ = V c (Pipeline.arrRef spec0 3) _
  congr 1
  funext a
  apply Fin.ext
  have h0 : (y 0).val < 1 := (y 0).isLt
  match a with
  | ⟨0, _⟩ => show win0_3.index t 0 * 1 + 1 * (y 0).val = t.val / 16 % 4; rw [i0]; omega
  | ⟨1, _⟩ => show win0_3.index t 1 * 3 + 1 * (y 1).val = (y 1).val; rw [i1]; omega
  | ⟨2, _⟩ => show win0_3.index t 2 * 1024 + 1 * (y 2).val = 1024 * ((t.val) % 4) + (y 2).val; rw [i2]; omega

/-- The specification's accumulator of batch `b` (read modulo 4) after `n` tiles. -/
def accN0 (c : Dev nD) (b n : ℕ) : FVec F S1x1 .f32 :=
  acc0 (V c (Pipeline.arrRef spec0 0)) (V c (Pipeline.arrRef spec0 1)) (V c (Pipeline.arrRef spec0 2)) (V c (Pipeline.arrRef spec0 3)) ⟨b % 4, Nat.mod_lt _ (by decide)⟩ n
theorem accN0_zero (c : Dev nD) (b : ℕ) : accN0 V c b 0 = k0_pay3 (F := F) := rfl
theorem accN0_succ (c : Dev nD) (b n : ℕ) :
    accN0 V c b (n + 1) = k0_pay1 (k0_pay4 (tileN (V c (Pipeline.arrRef spec0 0)) b (n / 4)) (tileN (V c (Pipeline.arrRef spec0 1)) b n)
      (tileN (V c (Pipeline.arrRef spec0 2)) b (n / 4)) (tileN (V c (Pipeline.arrRef spec0 3)) b n)) (accN0 V c b n) := rfl

/-- The payload of the point `t` over an accumulator `a` is the specification's step at the point's place in its batch. -/
theorem step0 (c : Dev nD) (t : Fin cfg0.N) (a : FVec F S1x1 .f32) :
    k0_pay1 (k0_pay4 (iblk0 V c 0 t) (iblk0 V c 1 t) (iblk0 V c 2 t) (iblk0 V c 3 t)) a
      = k0_pay1 (k0_pay4 (tileN (V c (Pipeline.arrRef spec0 0)) (t.val / 16) (t.val % 16 / 4)) (tileN (V c (Pipeline.arrRef spec0 1)) (t.val / 16) (t.val % 16))
          (tileN (V c (Pipeline.arrRef spec0 2)) (t.val / 16) (t.val % 16 / 4)) (tileN (V c (Pipeline.arrRef spec0 3)) (t.val / 16) (t.val % 16))) a := by
  rw [iblk0_0_eq, iblk0_1_eq, iblk0_2_eq, iblk0_3_eq,
    tileN_congr (V c (Pipeline.arrRef spec0 0)) (rfl : t.val / 16 % 4 = t.val / 16 % 4) (by omega : t.val / 4 % 4 = t.val % 16 / 4 % 4),
    tileN_congr (V c (Pipeline.arrRef spec0 1)) (rfl : t.val / 16 % 4 = t.val / 16 % 4) (by omega : t.val % 4 = t.val % 16 % 4),
    tileN_congr (V c (Pipeline.arrRef spec0 2)) (rfl : t.val / 16 % 4 = t.val / 16 % 4) (by omega : t.val / 4 % 4 = t.val % 16 / 4 % 4),
    tileN_congr (V c (Pipeline.arrRef spec0 3)) (rfl : t.val / 16 % 4 = t.val / 16 % 4) (by omega : t.val % 4 = t.val % 16 % 4)]

/-- THE ACCUMULATOR after every point: the specification's, at the point's batch and place in it. -/
theorem sAt0 (c : Dev nD) : ∀ (n : ℕ) (hn : n < cfg0.N), (outsAt0 V c n hn).2 = accN0 V c (n / 16) (n % 16 + 1) := by
  intro n
  induction n with
  | zero =>
    intro hn
    rw [outsAt0_A V c ⟨0, hn⟩ rfl (by show ¬ (0 : ℕ) % 16 = 15; decide)]
    dsimp only
    rw [sout0_A_eq, step0 V c ⟨0, hn⟩]
    rfl
  | succ n ih =>
    intro hn
    have hN : n + 1 < 64 := lt_of_lt_of_eq hn (show cfg0.N = 64 from N_0)
    by_cases h0 : (n + 1) % 16 = 0
    · rw [outsAt0_A V c ⟨n + 1, hn⟩ h0 (by dsimp only; omega)]
      dsimp only
      rw [sout0_A_eq, step0 V c ⟨n + 1, hn⟩]
      dsimp only
      rw [h0]
      rfl
    · have e : accN0 V c (n / 16) (n % 16 + 1) = accN0 V c ((n + 1) / 16) ((n + 1) % 16) := by
        rw [show n / 16 = (n + 1) / 16 from by omega, show n % 16 + 1 = (n + 1) % 16 from by omega]
      by_cases h1 : (n + 1) % 16 = 15
      · rw [outsAt0_C V c ⟨n + 1, hn⟩ h0 h1]
        dsimp only
        rw [sout0_C_eq, step0 V c ⟨n + 1, hn⟩]
        dsimp only
        rw [show (outsAt0 V c (n + 1 - 1) (Nat.lt_of_le_of_lt (Nat.sub_le _ _) hn)).2 = (outsAt0 V c n (Nat.lt_of_succ_lt hn)).2 from rfl,
          ih (Nat.lt_of_succ_lt hn), e]
        exact (accN0_succ V c ((n + 1) / 16) ((n + 1) % 16)).symm
      · rw [outsAt0_B V c ⟨n + 1, hn⟩ h0 h1]
        dsimp only
        rw [sout0_B_eq, step0 V c ⟨n + 1, hn⟩]
        dsimp only
        rw [show (outsAt0 V c (n + 1 - 1) (Nat.lt_of_le_of_lt (Nat.sub_le _ _) hn)).2 = (outsAt0 V c n (Nat.lt_of_succ_lt hn)).2 from rfl,
          ih (Nat.lt_of_succ_lt hn), e]
        exact (accN0_succ V c ((n + 1) / 16) ((n + 1) % 16)).symm

/-- At a batch's last point the result block holds the accumulator's new contents. -/
theorem oAt0 (c : Dev nD) (t : Fin cfg0.N) (h1 : t.val % 16 = 15) :
    (outsAt0 V c t.val t.isLt).1 = k0_pay2 (accN0 V c (t.val / 16) 16) := by
  have hs := sAt0 V c t.val t.isLt
  rw [h1] at hs
  rw [← hs, outsAt0_C V c t (by omega) h1]
  dsimp only
  rw [out0_C_eq, sout0_C_eq]

/-- What a write-back of the result window writes is the block of the specification's result. -/
theorem flushed0_eq (c : Dev nD) (t : Fin cfg0.N) (hf : (cfg0.win 4).flush t = true) :
    (dat0 V qs c).flushed 4 t = ((cfg0.win 4).blk t).view.read (Elt F) (out0 (V c (Pipeline.arrRef spec0 0)) (V c (Pipeline.arrRef spec0 1)) (V c (Pipeline.arrRef spec0 2)) (V c (Pipeline.arrRef spec0 3))) := by
  have h1 : t.val % 16 = 15 := (flush0_4 t).mp hf
  have hN : t.val < 64 := lt_of_lt_of_eq t.isLt (show cfg0.N = 64 from N_0)
  obtain ⟨i0, i1, i2⟩ := idx0_4 t
  show (cfg0.win 4).cut (grid0.coords t) ((dat0 V qs c).after 4 t) = _
  rw [after0_4, oAt0 V c t h1]
  funext y
  rw [View.read_apply]
  show k0_pay2 (accN0 V c (t.val / 16) 16) _ = out0 (V c (Pipeline.arrRef spec0 0)) (V c (Pipeline.arrRef spec0 1)) (V c (Pipeline.arrRef spec0 2)) (V c (Pipeline.arrRef spec0 3)) _
  unfold out0 accN0
  rw [idx111 ((cfg0.win 4).xinj (grid0.coords t) y)]
  have hb : ((((cfg0.win 4).blk t).view.emb y) 0 : Fin 4) = ⟨t.val / 16 % 4, Nat.mod_lt _ (by decide)⟩ := by
    apply Fin.ext
    have h0 : (y 0).val < 1 := (y 0).isLt
    show win0_4.index t 0 * 1 + 1 * (y 0).val = t.val / 16 % 4
    rw [i0]; omega
  rw [hb]
  rfl

/-- THE RESULT ARRAY after the launch is the specification's. -/
theorem final0 (c : Dev nD) : (dat0 V qs c).arrAt 4 cfg0.N = out0 (V c (Pipeline.arrRef spec0 0)) (V c (Pipeline.arrRef spec0 1)) (V c (Pipeline.arrRef spec0 2)) (V c (Pipeline.arrRef spec0 3)) :=
  (dat0 V qs c).arrAt_eq_of_cover 4 (out0 (V c (Pipeline.arrRef spec0 0)) (V c (Pipeline.arrRef spec0 1)) (V c (Pipeline.arrRef spec0 2)) (V c (Pipeline.arrRef spec0 3))) (flushed0_eq V qs c) fun i => by
    have hi : (i 0).val < 4 := (i 0).isLt
    have hlt : 16 * (i 0).val + 15 < cfg0.N := by rw [show cfg0.N = 64 from N_0]; omega
    refine ⟨⟨16 * (i 0).val + 15, hlt⟩, (flush0_4 _).mpr (by show (16 * (i 0).val + 15) % 16 = 15; omega), ?_⟩
    obtain ⟨i0, i1, i2⟩ := idx0_4 ⟨16 * (i 0).val + 15, hlt⟩
    show i ∈ ((View.whole main_v4).slice (win0_4.rect ⟨16 * (i 0).val + 15, hlt⟩)).set
    rw [View.set_slice_whole, Rect.mem_set_unit]
    intro a
    have h1 : (i 1 : Nat) < 1 := (i 1).isLt
    have h2 : (i 2 : Nat) < 1 := (i 2).isLt
    match a with
    | ⟨0, _⟩ =>
      show win0_4.index ⟨16 * (i 0).val + 15, hlt⟩ 0 * 1 ≤ (i 0 : Nat) ∧ (i 0 : Nat) < win0_4.index ⟨16 * (i 0).val + 15, hlt⟩ 0 * 1 + 1
      rw [i0]; dsimp only; omega
    | ⟨1, _⟩ =>
      show win0_4.index ⟨16 * (i 0).val + 15, hlt⟩ 1 * 1 ≤ (i 1 : Nat) ∧ (i 1 : Nat) < win0_4.index ⟨16 * (i 0).val + 15, hlt⟩ 1 * 1 + 1
      rw [i1]; omega
    | ⟨2, _⟩ =>
      show win0_4.index ⟨16 * (i 0).val + 15, hlt⟩ 2 * 1 ≤ (i 2 : Nat) ∧ (i 2 : Nat) < win0_4.index ⟨16 * (i 0).val + 15, hlt⟩ 2 * 1 + 1
      rw [i2]; omega

end Value

end Cert.KernelIdeal.Gen

end
-- ==== Proof.Pieces1.lean ====
/-
  Launch 1: what each case of the body leaves in the accumulator and in the result block, read back as values of the
  payloads.  The first tile of a batch leaves the tile's total added to the zero it has just stored; a middle tile and
  the last tile leave the tile's total added to what the accumulator held; the last tile also leaves the accumulator's
  new contents in the result block.
-/
import proofs.«134606_j77163382440707_2_alg».proof.Proof.Region1
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as functions. -/
theorem hz2_1 : (![0, 0] : Fin 2 → Nat) = fun _ => 0 := funext fun a => by fin_cases a <;> rfl
theorem hz3_1 : (![0, 0, 0] : Fin 3 → Nat) = fun _ => 0 := funext fun a => by fin_cases a <;> rfl

/-- A middle tile leaves the tile's total added to what the accumulator held. -/
theorem sout1_B_eq (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : ¬cond1_1 i) (x0 x1 x2 x3 : Vec F S1x3x1024 .f32) (xs : Vec F S1x1 .f32) :
    sout1_B c i arg3 harg3 arg4 harg4 arg5 harg5 arg6 harg6 arg7 harg7 arg8 harg8 hc0 hc1 x0 x1 x2 x3 xs = k1_pay1 (k1_pay4 x0 x1 x2 x3) xs := by
  unfold sout1_B
  rw [View.read_writes_eq_canon _ _ _ (scover1_B c i arg3 harg3 arg4 harg4 arg5 harg5 arg6 harg6 arg7 harg7 arg8 harg8 hc0 hc1 x0 x1 x2 x3 xs)]
  unfold kernelRun1_B
  dsimp only
  sl_unfold_words
  rw [View.canon_unit_zero hz2_1]
  simp only [View.readAt_eq_ld, harg3.read_unread, harg4.read_unread, harg5.read_unread, harg6.read_unread, harg8.read_unread,
    View.ld_unit_zero (S := S1x1) hz2_1, View.ld_unit_zero (S := S1x3x1024) hz3_1]

/-- The first tile of a batch leaves the tile's total added to the zero it has just stored. -/
theorem sout1_A_eq (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond1_0 i) (hc1 : ¬cond1_1 i) (x0 x1 x2 x3 : Vec F S1x3x1024 .f32) :
    sout1_A c i arg3 harg3 arg4 harg4 arg5 harg5 arg6 harg6 arg7 harg7 arg8 harg8 hc0 hc1 x0 x1 x2 x3 = k1_pay1 (k1_pay4 x0 x1 x2 x3) (k1_pay3 (F := F)) := by
  unfold sout1_A
  rw [View.read_writes_eq_canon _ _ _ (scover1_A c i arg3 harg3 arg4 harg4 arg5 harg5 arg6 harg6 arg7 harg7 arg8 harg8 hc0 hc1 x0 x1 x2 x3)]
  unfold kernelRun1_A
  dsimp only
  sl_unfold_words
  rw [View.canon_cons_unit_zero (S := S1x1) hz2_1, View.readCov_unit_zero (S := S1x1) _ hz2_1]
  simp only [View.readAt_eq_ld, harg3.read_unread, harg4.read_unread, harg5.read_unread, harg6.read_unread,
    View.ld_unit_zero (S := S1x3x1024) hz3_1]

/-- The last tile leaves the tile's total added to what the accumulator held … -/
theorem sout1_C_eq (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) :
    sout1_C c i arg3 harg3 arg4 harg4 arg5 harg5 arg6 harg6 arg7 harg7 arg8 harg8 hc0 hc1 x0 x1 x2 x3 xs = k1_pay1 (k1_pay4 x0 x1 x2 x3) xs := by
  unfold sout1_C
  rw [View.read_writes_eq_canon _ _ _ (scover1_C c i arg3 harg3 arg4 harg4 arg5 harg5 arg6 harg6 arg7 harg7 arg8 harg8 hc0 hc1 x0 x1 x2 x3 xs)]
  unfold kernelRun1_C
  dsimp only
  sl_unfold_words
  rw [View.canon_unit_zero hz2_1]
  simp only [View.readAt_eq_ld, harg3.read_unread, harg4.read_unread, harg5.read_unread, harg6.read_unread, harg8.read_unread,
    View.ld_unit_zero (S := S1x1) hz2_1, View.ld_unit_zero (S := S1x3x1024) hz3_1]

/-- … and, in the result block, the accumulator's new contents. -/
theorem out1_C_eq (c : Dev nD) (i : grid1.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond1_0 i) (hc1 : cond1_1 i) (x0 x1 x2 x3 : Vec F S1x3x1024 .f32) (xs : Vec F S1x1 .f32) :
    out1_C c i arg3 harg3 arg4 harg4 arg5 harg5 arg6 harg6 arg7 harg7 arg8 harg8 hc0 hc1 x0 x1 x2 x3 xs = k1_pay2 (k1_pay1 (k1_pay4 x0 x1 x2 x3) xs) := by
  unfold out1_C
  rw [View.read_writes_eq_canon _ _ _ (cover1_C_4 c i arg3 harg3 arg4 harg4 arg5 harg5 arg6 harg6 arg7 harg7 arg8 harg8 hc0 hc1 x0 x1 x2 x3 xs)]
  unfold kernelRun1_C
  dsimp only
  sl_unfold_words
  rw [View.canon_unit_zero hz3_1, View.readCov_unit_zero (S := S1x1) _ hz2_1]
  simp only [View.readAt_eq_ld, harg3.read_unread, harg4.read_unread, harg5.read_unread, harg6.read_unread, harg8.read_unread,
    View.ld_unit_zero (S := S1x1) hz2_1, View.ld_unit_zero (S := S1x3x1024) hz3_1]

end Cert.KernelIdeal.Gen

end
-- ==== Proof.Value1.lean ====
/-
  Launch 1's result array as one function of its four input arrays: entry b of the [4, 1, 1] result is batch b's
  accumulator after its sixteen tiles.  Each input block at a grid point is a tile of its array (the point's batch, row
  tile and column tile are read off the point's number); the accumulator after a point is the recursion of the
  specification; the sixteenth tile of each batch writes entry b back, and these four write-backs cover the result.
-/
import proofs.«134606_j77163382440707_2_alg».proof.Proof.Pieces1
import proofs.«134606_j77163382440707_2_alg».proof.Proof.ValueCommon
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Hand

section Value

variable (V : (c : Dev nD) → (b : Ref sig .tc) → Buf (Elt F) ((c : Thread nD τ).loc b)) (qs : Fin 5 → PosShare TreeShare)

/-- The block indices of the five windows at a grid point, decided over the grid: batch `t / 16`; the row tile
    `t / 4 % 4` for the windows of the first point cloud, the column tile `t % 4` for those of the second. -/
theorem idx1_0 : ∀ t : Fin cfg1.N, win1_0.index t 0 = t.val / 16 ∧ win1_0.index t 1 = 0 ∧ win1_0.index t 2 = t.val / 4 % 4 :=
  (by decide +kernel : ∀ t : Fin grid1.N, win1_0.index t 0 = t.val / 16 ∧ win1_0.index t 1 = 0 ∧ win1_0.index t 2 = t.val / 4 % 4)
theorem idx1_1 : ∀ t : Fin cfg1.N, win1_1.index t 0 = t.val / 16 ∧ win1_1.index t 1 = 0 ∧ win1_1.index t 2 = t.val % 4 :=
  (by decide +kernel : ∀ t : Fin grid1.N, win1_1.index t 0 = t.val / 16 ∧ win1_1.index t 1 = 0 ∧ win1_1.index t 2 = t.val % 4)
theorem idx1_2 : ∀ t : Fin cfg1.N, win1_2.index t 0 = t.val / 16 ∧ win1_2.index t 1 = 0 ∧ win1_2.index t 2 = t.val / 4 % 4 :=
  (by decide +kernel : ∀ t : Fin grid1.N, win1_2.index t 0 = t.val / 16 ∧ win1_2.index t 1 = 0 ∧ win1_2.index t 2 = t.val / 4 % 4)
theorem idx1_3 : ∀ t : Fin cfg1.N, win1_3.index t 0 = t.val / 16 ∧ win1_3.index t 1 = 0 ∧ win1_3.index t 2 = t.val % 4 :=
  (by decide +kernel : ∀ t : Fin grid1.N, win1_3.index t 0 = t.val / 16 ∧ win1_3.index t 1 = 0 ∧ win1_3.index t 2 = t.val % 4)
theorem idx1_4 : ∀ t : Fin cfg1.N, win1_4.index t 0 = t.val / 16 ∧ win1_4.index t 1 = 0 ∧ win1_4.index t 2 = 0 :=
  (by decide +kernel : ∀ t : Fin grid1.N, win1_4.index t 0 = t.val / 16 ∧ win1_4.index t 1 = 0 ∧ win1_4.index t 2 = 0)

/-- Each input window's block at a point is the tile of its array the point names. -/
theorem iblk1_0_eq (c : Dev nD) (t : Fin cfg1.N) :
    (iblk1 V c 0 t : Vec F S1x3x1024 .f32) = tileN (V c (Pipeline.arrRef spec1 0)) (t.val / 16) (t.val / 4) := by
  have hN : t.val < 64 := lt_of_lt_of_eq t.isLt (show cfg1.N = 64 from N_1)
  obtain ⟨i0, i1, i2⟩ := idx1_0 t
  funext y
  unfold iblk1 tileN Cert.KernelIdeal.Hand.tile
  rw [View.read_apply]
  show V c (Pipeline.arrRef spec1 0) _ = V c (Pipeline.arrRef spec1 0) _
  congr 1
  funext a
  apply Fin.ext
  have h0 : (y 0).val < 1 := (y 0).isLt
  match a with
  | ⟨0, _⟩ => show win1_0.index t 0 * 1 + 1 * (y 0).val = t.val / 16 % 4; rw [i0]; omega
  | ⟨1, _⟩ => show win1_0.index t 1 * 3 + 1 * (y 1).val = (y 1).val; rw [i1]; omega
  | ⟨2, _⟩ => show win1_0.index t 2 * 1024 + 1 * (y 2).val = 1024 * ((t.val / 4) % 4) + (y 2).val; rw [i2]; omega
theorem iblk1_1_eq (c : Dev nD) (t : Fin cfg1.N) :
    (iblk1 V c 1 t : Vec F S1x3x1024 .f32) = tileN (V c (Pipeline.arrRef spec1 1)) (t.val / 16) (t.val) := by
  have hN : t.val < 64 := lt_of_lt_of_eq t.isLt (show cfg1.N = 64 from N_1)
  obtain ⟨i0, i1, i2⟩ := idx1_1 t
  funext y
  unfold iblk1 tileN Cert.KernelIdeal.Hand.tile
  rw [View.read_apply]
  show V c (Pipeline.arrRef spec1 1) _ = V c (Pipeline.arrRef spec1 1) _
  congr 1
  funext a
  apply Fin.ext
  have h0 : (y 0).val < 1 := (y 0).isLt
  match a with
  | ⟨0, _⟩ => show win1_1.index t 0 * 1 + 1 * (y 0).val = t.val / 16 % 4; rw [i0]; omega
  | ⟨1, _⟩ => show win1_1.index t 1 * 3 + 1 * (y 1).val = (y 1).val; rw [i1]; omega
  | ⟨2, _⟩ => show win1_1.index t 2 * 1024 + 1 * (y 2).val = 1024 * ((t.val) % 4) + (y 2).val; rw [i2]; omega
theorem iblk1_2_eq (c : Dev nD) (t : Fin cfg1.N) :
    (iblk1 V c 2 t : Vec F S1x3x1024 .f32) = tileN (V c (Pipeline.arrRef spec1 2)) (t.val / 16) (t.val / 4) := by
  have hN : t.val < 64 := lt_of_lt_of_eq t.isLt (show cfg1.N = 64 from N_1)
  obtain ⟨i0, i1, i2⟩ := idx1_2 t
  funext y
  unfold iblk1 tileN Cert.KernelIdeal.Hand.tile
  rw [View.read_apply]
  show V c (Pipeline.arrRef spec1 2) _ = V c (Pipeline.arrRef spec1 2) _
  congr 1
  funext a
  apply Fin.ext
  have h0 : (y 0).val < 1 := (y 0).isLt
  match a with
  | ⟨0, _⟩ => show win1_2.index t 0 * 1 + 1 * (y 0).val = t.val / 16 % 4; rw [i0]; omega
  | ⟨1, _⟩ => show win1_2.index t 1 * 3 + 1 * (y 1).val = (y 1).val; rw [i1]; omega
  | ⟨2, _⟩ => show win1_2.index t 2 * 1024 + 1 * (y 2).val = 1024 * ((t.val / 4) % 4) + (y 2).val; rw [i2]; omega
theorem iblk1_3_eq (c : Dev nD) (t : Fin cfg1.N) :
    (iblk1 V c 3 t : Vec F S1x3x1024 .f32) = tileN (V c (Pipeline.arrRef spec1 3)) (t.val / 16) (t.val) := by
  have hN : t.val < 64 := lt_of_lt_of_eq t.isLt (show cfg1.N = 64 from N_1)
  obtain ⟨i0, i1, i2⟩ := idx1_3 t
  funext y
  unfold iblk1 tileN Cert.KernelIdeal.Hand.tile
  rw [View.read_apply]
  show V c (Pipeline.arrRef spec1 3) _ = V c (Pipeline.arrRef spec1 3) _
  congr 1
  funext a
  apply Fin.ext
  have h0 : (y 0).val < 1 := (y 0).isLt
  match a with
  | ⟨0, _⟩ => show win1_3.index t 0 * 1 + 1 * (y 0).val = t.val / 16 % 4; rw [i0]; omega
  | ⟨1, _⟩ => show win1_3.index t 1 * 3 + 1 * (y 1).val = (y 1).val; rw [i1]; omega
  | ⟨2, _⟩ => show win1_3.index t 2 * 1024 + 1 * (y 2).val = 1024 * ((t.val) % 4) + (y 2).val; rw [i2]; omega

/-- The specification's accumulator of batch `b` (read modulo 4) after `n` tiles. -/
def accN1 (c : Dev nD) (b n : ℕ) : FVec F S1x1 .f32 :=
  acc1 (V c (Pipeline.arrRef spec1 0)) (V c (Pipeline.arrRef spec1 1)) (V c (Pipeline.arrRef spec1 2)) (V c (Pipeline.arrRef spec1 3)) ⟨b % 4, Nat.mod_lt _ (by decide)⟩ n
theorem accN1_zero (c : Dev nD) (b : ℕ) : accN1 V c b 0 = k1_pay3 (F := F) := rfl
theorem accN1_succ (c : Dev nD) (b n : ℕ) :
    accN1 V c b (n + 1) = k1_pay1 (k1_pay4 (tileN (V c (Pipeline.arrRef spec1 0)) b (n / 4)) (tileN (V c (Pipeline.arrRef spec1 1)) b n)
      (tileN (V c (Pipeline.arrRef spec1 2)) b (n / 4)) (tileN (V c (Pipeline.arrRef spec1 3)) b n)) (accN1 V c b n) := rfl

/-- The payload of the point `t` over an accumulator `a` is the specification's step at the point's place in its batch. -/
theorem step1 (c : Dev nD) (t : Fin cfg1.N) (a : FVec F S1x1 .f32) :
    k1_pay1 (k1_pay4 (iblk1 V c 0 t) (iblk1 V c 1 t) (iblk1 V c 2 t) (iblk1 V c 3 t)) a
      = k1_pay1 (k1_pay4 (tileN (V c (Pipeline.arrRef spec1 0)) (t.val / 16) (t.val % 16 / 4)) (tileN (V c (Pipeline.arrRef spec1 1)) (t.val / 16) (t.val % 16))
          (tileN (V c (Pipeline.arrRef spec1 2)) (t.val / 16) (t.val % 16 / 4)) (tileN (V c (Pipeline.arrRef spec1 3)) (t.val / 16) (t.val % 16))) a := by
  rw [iblk1_0_eq, iblk1_1_eq, iblk1_2_eq, iblk1_3_eq,
    tileN_congr (V c (Pipeline.arrRef spec1 0)) (rfl : t.val / 16 % 4 = t.val / 16 % 4) (by omega : t.val / 4 % 4 = t.val % 16 / 4 % 4),
    tileN_congr (V c (Pipeline.arrRef spec1 1)) (rfl : t.val / 16 % 4 = t.val / 16 % 4) (by omega : t.val % 4 = t.val % 16 % 4),
    tileN_congr (V c (Pipeline.arrRef spec1 2)) (rfl : t.val / 16 % 4 = t.val / 16 % 4) (by omega : t.val / 4 % 4 = t.val % 16 / 4 % 4),
    tileN_congr (V c (Pipeline.arrRef spec1 3)) (rfl : t.val / 16 % 4 = t.val / 16 % 4) (by omega : t.val % 4 = t.val % 16 % 4)]

/-- THE ACCUMULATOR after every point: the specification's, at the point's batch and place in it. -/
theorem sAt1 (c : Dev nD) : ∀ (n : ℕ) (hn : n < cfg1.N), (outsAt1 V c n hn).2 = accN1 V c (n / 16) (n % 16 + 1) := by
  intro n
  induction n with
  | zero =>
    intro hn
    rw [outsAt1_A V c ⟨0, hn⟩ rfl (by show ¬ (0 : ℕ) % 16 = 15; decide)]
    dsimp only
    rw [sout1_A_eq, step1 V c ⟨0, hn⟩]
    rfl
  | succ n ih =>
    intro hn
    have hN : n + 1 < 64 := lt_of_lt_of_eq hn (show cfg1.N = 64 from N_1)
    by_cases h0 : (n + 1) % 16 = 0
    · rw [outsAt1_A V c ⟨n + 1, hn⟩ h0 (by dsimp only; omega)]
      dsimp only
      rw [sout1_A_eq, step1 V c ⟨n + 1, hn⟩]
      dsimp only
      rw [h0]
      rfl
    · have e : accN1 V c (n / 16) (n % 16 + 1) = accN1 V c ((n + 1) / 16) ((n + 1) % 16) := by
        rw [show n / 16 = (n + 1) / 16 from by omega, show n % 16 + 1 = (n + 1) % 16 from by omega]
      by_cases h1 : (n + 1) % 16 = 15
      · rw [outsAt1_C V c ⟨n + 1, hn⟩ h0 h1]
        dsimp only
        rw [sout1_C_eq, step1 V c ⟨n + 1, hn⟩]
        dsimp only
        rw [show (outsAt1 V c (n + 1 - 1) (Nat.lt_of_le_of_lt (Nat.sub_le _ _) hn)).2 = (outsAt1 V c n (Nat.lt_of_succ_lt hn)).2 from rfl,
          ih (Nat.lt_of_succ_lt hn), e]
        exact (accN1_succ V c ((n + 1) / 16) ((n + 1) % 16)).symm
      · rw [outsAt1_B V c ⟨n + 1, hn⟩ h0 h1]
        dsimp only
        rw [sout1_B_eq, step1 V c ⟨n + 1, hn⟩]
        dsimp only
        rw [show (outsAt1 V c (n + 1 - 1) (Nat.lt_of_le_of_lt (Nat.sub_le _ _) hn)).2 = (outsAt1 V c n (Nat.lt_of_succ_lt hn)).2 from rfl,
          ih (Nat.lt_of_succ_lt hn), e]
        exact (accN1_succ V c ((n + 1) / 16) ((n + 1) % 16)).symm

/-- At a batch's last point the result block holds the accumulator's new contents. -/
theorem oAt1 (c : Dev nD) (t : Fin cfg1.N) (h1 : t.val % 16 = 15) :
    (outsAt1 V c t.val t.isLt).1 = k1_pay2 (accN1 V c (t.val / 16) 16) := by
  have hs := sAt1 V c t.val t.isLt
  rw [h1] at hs
  rw [← hs, outsAt1_C V c t (by omega) h1]
  dsimp only
  rw [out1_C_eq, sout1_C_eq]

/-- What a write-back of the result window writes is the block of the specification's result. -/
theorem flushed1_eq (c : Dev nD) (t : Fin cfg1.N) (hf : (cfg1.win 4).flush t = true) :
    (dat1 V qs c).flushed 4 t = ((cfg1.win 4).blk t).view.read (Elt F) (out1 (V c (Pipeline.arrRef spec1 0)) (V c (Pipeline.arrRef spec1 1)) (V c (Pipeline.arrRef spec1 2)) (V c (Pipeline.arrRef spec1 3))) := by
  have h1 : t.val % 16 = 15 := (flush1_4 t).mp hf
  have hN : t.val < 64 := lt_of_lt_of_eq t.isLt (show cfg1.N = 64 from N_1)
  obtain ⟨i0, i1, i2⟩ := idx1_4 t
  show (cfg1.win 4).cut (grid1.coords t) ((dat1 V qs c).after 4 t) = _
  rw [after1_4, oAt1 V c t h1]
  funext y
  rw [View.read_apply]
  show k1_pay2 (accN1 V c (t.val / 16) 16) _ = out1 (V c (Pipeline.arrRef spec1 0)) (V c (Pipeline.arrRef spec1 1)) (V c (Pipeline.arrRef spec1 2)) (V c (Pipeline.arrRef spec1 3)) _
  unfold out1 accN1
  rw [idx111 ((cfg1.win 4).xinj (grid1.coords t) y)]
  have hb : ((((cfg1.win 4).blk t).view.emb y) 0 : Fin 4) = ⟨t.val / 16 % 4, Nat.mod_lt _ (by decide)⟩ := by
    apply Fin.ext
    have h0 : (y 0).val < 1 := (y 0).isLt
    show win1_4.index t 0 * 1 + 1 * (y 0).val = t.val / 16 % 4
    rw [i0]; omega
  rw [hb]
  rfl

/-- THE RESULT ARRAY after the launch is the specification's. -/
theorem final1 (c : Dev nD) : (dat1 V qs c).arrAt 4 cfg1.N = out1 (V c (Pipeline.arrRef spec1 0)) (V c (Pipeline.arrRef spec1 1)) (V c (Pipeline.arrRef spec1 2)) (V c (Pipeline.arrRef spec1 3)) :=
  (dat1 V qs c).arrAt_eq_of_cover 4 (out1 (V c (Pipeline.arrRef spec1 0)) (V c (Pipeline.arrRef spec1 1)) (V c (Pipeline.arrRef spec1 2)) (V c (Pipeline.arrRef spec1 3))) (flushed1_eq V qs c) fun i => by
    have hi : (i 0).val < 4 := (i 0).isLt
    have hlt : 16 * (i 0).val + 15 < cfg1.N := by rw [show cfg1.N = 64 from N_1]; omega
    refine ⟨⟨16 * (i 0).val + 15, hlt⟩, (flush1_4 _).mpr (by show (16 * (i 0).val + 15) % 16 = 15; omega), ?_⟩
    obtain ⟨i0, i1, i2⟩ := idx1_4 ⟨16 * (i 0).val + 15, hlt⟩
    show i ∈ ((View.whole main_v6).slice (win1_4.rect ⟨16 * (i 0).val + 15, hlt⟩)).set
    rw [View.set_slice_whole, Rect.mem_set_unit]
    intro a
    have h1 : (i 1 : Nat) < 1 := (i 1).isLt
    have h2 : (i 2 : Nat) < 1 := (i 2).isLt
    match a with
    | ⟨0, _⟩ =>
      show win1_4.index ⟨16 * (i 0).val + 15, hlt⟩ 0 * 1 ≤ (i 0 : Nat) ∧ (i 0 : Nat) < win1_4.index ⟨16 * (i 0).val + 15, hlt⟩ 0 * 1 + 1
      rw [i0]; dsimp only; omega
    | ⟨1, _⟩ =>
      show win1_4.index ⟨16 * (i 0).val + 15, hlt⟩ 1 * 1 ≤ (i 1 : Nat) ∧ (i 1 : Nat) < win1_4.index ⟨16 * (i 0).val + 15, hlt⟩ 1 * 1 + 1
      rw [i1]; omega
    | ⟨2, _⟩ =>
      show win1_4.index ⟨16 * (i 0).val + 15, hlt⟩ 2 * 1 ≤ (i 2 : Nat) ∧ (i 2 : Nat) < win1_4.index ⟨16 * (i 0).val + 15, hlt⟩ 2 * 1 + 1
      rw [i2]; omega

end Value

end Cert.KernelIdeal.Gen

end
-- ==== Proof.Pieces2.lean ====
/-
  Launch 2: what each case of the body leaves in the accumulator and in the result block, read back as values of the
  payloads.  The first tile of a batch leaves the tile's total added to the zero it has just stored; a middle tile and
  the last tile leave the tile's total added to what the accumulator held; the last tile also leaves the accumulator's
  new contents in the result block.
-/
import proofs.«134606_j77163382440707_2_alg».proof.Proof.Region2
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 and of a rank-3 rectangle, as functions. -/
theorem hz2_2 : (![0, 0] : Fin 2 → Nat) = fun _ => 0 := funext fun a => by fin_cases a <;> rfl
theorem hz3_2 : (![0, 0, 0] : Fin 3 → Nat) = fun _ => 0 := funext fun a => by fin_cases a <;> rfl

/-- A middle tile leaves the tile's total added to what the accumulator held. -/
theorem sout2_B_eq (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : ¬cond2_1 i) (x0 x1 x2 x3 : Vec F S1x3x1024 .f32) (xs : Vec F S1x1 .f32) :
    sout2_B c i arg3 harg3 arg4 harg4 arg5 harg5 arg6 harg6 arg7 harg7 arg8 harg8 hc0 hc1 x0 x1 x2 x3 xs = k2_pay1 (k2_pay4 x0 x1 x2 x3) xs := by
  unfold sout2_B
  rw [View.read_writes_eq_canon _ _ _ (scover2_B c i arg3 harg3 arg4 harg4 arg5 harg5 arg6 harg6 arg7 harg7 arg8 harg8 hc0 hc1 x0 x1 x2 x3 xs)]
  unfold kernelRun2_B
  dsimp only
  sl_unfold_words
  rw [View.canon_unit_zero hz2_2]
  simp only [View.readAt_eq_ld, harg3.read_unread, harg4.read_unread, harg5.read_unread, harg6.read_unread, harg8.read_unread,
    View.ld_unit_zero (S := S1x1) hz2_2, View.ld_unit_zero (S := S1x3x1024) hz3_2]

/-- The first tile of a batch leaves the tile's total added to the zero it has just stored. -/
theorem sout2_A_eq (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : cond2_0 i) (hc1 : ¬cond2_1 i) (x0 x1 x2 x3 : Vec F S1x3x1024 .f32) :
    sout2_A c i arg3 harg3 arg4 harg4 arg5 harg5 arg6 harg6 arg7 harg7 arg8 harg8 hc0 hc1 x0 x1 x2 x3 = k2_pay1 (k2_pay4 x0 x1 x2 x3) (k2_pay3 (F := F)) := by
  unfold sout2_A
  rw [View.read_writes_eq_canon _ _ _ (scover2_A c i arg3 harg3 arg4 harg4 arg5 harg5 arg6 harg6 arg7 harg7 arg8 harg8 hc0 hc1 x0 x1 x2 x3)]
  unfold kernelRun2_A
  dsimp only
  sl_unfold_words
  rw [View.canon_cons_unit_zero (S := S1x1) hz2_2, View.readCov_unit_zero (S := S1x1) _ hz2_2]
  simp only [View.readAt_eq_ld, harg3.read_unread, harg4.read_unread, harg5.read_unread, harg6.read_unread,
    View.ld_unit_zero (S := S1x3x1024) hz3_2]

/-- The last tile leaves the tile's total added to what the accumulator held … -/
theorem sout2_C_eq (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) :
    sout2_C c i arg3 harg3 arg4 harg4 arg5 harg5 arg6 harg6 arg7 harg7 arg8 harg8 hc0 hc1 x0 x1 x2 x3 xs = k2_pay1 (k2_pay4 x0 x1 x2 x3) xs := by
  unfold sout2_C
  rw [View.read_writes_eq_canon _ _ _ (scover2_C c i arg3 harg3 arg4 harg4 arg5 harg5 arg6 harg6 arg7 harg7 arg8 harg8 hc0 hc1 x0 x1 x2 x3 xs)]
  unfold kernelRun2_C
  dsimp only
  sl_unfold_words
  rw [View.canon_unit_zero hz2_2]
  simp only [View.readAt_eq_ld, harg3.read_unread, harg4.read_unread, harg5.read_unread, harg6.read_unread, harg8.read_unread,
    View.ld_unit_zero (S := S1x1) hz2_2, View.ld_unit_zero (S := S1x3x1024) hz3_2]

/-- … and, in the result block, the accumulator's new contents. -/
theorem out2_C_eq (c : Dev nD) (i : grid2.Coords) (arg3 : Memref sig .tc .vmem S1x3x1024 .f32) (harg3 : arg3.IsWhole) (arg4 : Memref sig .tc .vmem S1x3x1024 .f32) (harg4 : arg4.IsWhole) (arg5 : Memref sig .tc .vmem S1x3x1024 .f32) (harg5 : arg5.IsWhole) (arg6 : Memref sig .tc .vmem S1x3x1024 .f32) (harg6 : arg6.IsWhole) (arg7 : Memref sig .tc .vmem S1x1x1 .f32) (harg7 : arg7.IsWhole) (arg8 : Memref sig .tc .vmem S1x1 .f32) (harg8 : arg8.IsWhole) (hc0 : ¬cond2_0 i) (hc1 : cond2_1 i) (x0 x1 x2 x3 : Vec F S1x3x1024 .f32) (xs : Vec F S1x1 .f32) :
    out2_C c i arg3 harg3 arg4 harg4 arg5 harg5 arg6 harg6 arg7 harg7 arg8 harg8 hc0 hc1 x0 x1 x2 x3 xs = k2_pay2 (k2_pay1 (k2_pay4 x0 x1 x2 x3) xs) := by
  unfold out2_C
  rw [View.read_writes_eq_canon _ _ _ (cover2_C_4 c i arg3 harg3 arg4 harg4 arg5 harg5 arg6 harg6 arg7 harg7 arg8 harg8 hc0 hc1 x0 x1 x2 x3 xs)]
  unfold kernelRun2_C
  dsimp only
  sl_unfold_words
  rw [View.canon_unit_zero hz3_2, View.readCov_unit_zero (S := S1x1) _ hz2_2]
  simp only [View.readAt_eq_ld, harg3.read_unread, harg4.read_unread, harg5.read_unread, harg6.read_unread, harg8.read_unread,
    View.ld_unit_zero (S := S1x1) hz2_2, View.ld_unit_zero (S := S1x3x1024) hz3_2]

end Cert.KernelIdeal.Gen

end
-- ==== Proof.Value2.lean ====
/-
  Launch 2's result array as one function of its four input arrays: entry b of the [4, 1, 1] result is batch b's
  accumulator after its sixteen tiles.  Each input block at a grid point is a tile of its array (the point's batch, row
  tile and column tile are read off the point's number); the accumulator after a point is the recursion of the
  specification; the sixteenth tile of each batch writes entry b back, and these four write-backs cover the result.
-/
import proofs.«134606_j77163382440707_2_alg».proof.Proof.Pieces2
import proofs.«134606_j77163382440707_2_alg».proof.Proof.ValueCommon
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Cert.KernelIdeal.Hand

section Value

variable (V : (c : Dev nD) → (b : Ref sig .tc) → Buf (Elt F) ((c : Thread nD τ).loc b)) (qs : Fin 5 → PosShare TreeShare)

/-- The block indices of the five windows at a grid point, decided over the grid: batch `t / 16`; the row tile
    `t / 4 % 4` for the windows of the first point cloud, the column tile `t % 4` for those of the second. -/
theorem idx2_0 : ∀ t : Fin cfg2.N, win2_0.index t 0 = t.val / 16 ∧ win2_0.index t 1 = 0 ∧ win2_0.index t 2 = t.val / 4 % 4 :=
  (by decide +kernel : ∀ t : Fin grid2.N, win2_0.index t 0 = t.val / 16 ∧ win2_0.index t 1 = 0 ∧ win2_0.index t 2 = t.val / 4 % 4)
theorem idx2_1 : ∀ t : Fin cfg2.N, win2_1.index t 0 = t.val / 16 ∧ win2_1.index t 1 = 0 ∧ win2_1.index t 2 = t.val % 4 :=
  (by decide +kernel : ∀ t : Fin grid2.N, win2_1.index t 0 = t.val / 16 ∧ win2_1.index t 1 = 0 ∧ win2_1.index t 2 = t.val % 4)
theorem idx2_2 : ∀ t : Fin cfg2.N, win2_2.index t 0 = t.val / 16 ∧ win2_2.index t 1 = 0 ∧ win2_2.index t 2 = t.val / 4 % 4 :=
  (by decide +kernel : ∀ t : Fin grid2.N, win2_2.index t 0 = t.val / 16 ∧ win2_2.index t 1 = 0 ∧ win2_2.index t 2 = t.val / 4 % 4)
theorem idx2_3 : ∀ t : Fin cfg2.N, win2_3.index t 0 = t.val / 16 ∧ win2_3.index t 1 = 0 ∧ win2_3.index t 2 = t.val % 4 :=
  (by decide +kernel : ∀ t : Fin grid2.N, win2_3.index t 0 = t.val / 16 ∧ win2_3.index t 1 = 0 ∧ win2_3.index t 2 = t.val % 4)
theorem idx2_4 : ∀ t : Fin cfg2.N, win2_4.index t 0 = t.val / 16 ∧ win2_4.index t 1 = 0 ∧ win2_4.index t 2 = 0 :=
  (by decide +kernel : ∀ t : Fin grid2.N, win2_4.index t 0 = t.val / 16 ∧ win2_4.index t 1 = 0 ∧ win2_4.index t 2 = 0)

/-- Each input window's block at a point is the tile of its array the point names. -/
theorem iblk2_0_eq (c : Dev nD) (t : Fin cfg2.N) :
    (iblk2 V c 0 t : Vec F S1x3x1024 .f32) = tileN (V c (Pipeline.arrRef spec2 0)) (t.val / 16) (t.val / 4) := by
  have hN : t.val < 64 := lt_of_lt_of_eq t.isLt (show cfg2.N = 64 from N_2)
  obtain ⟨i0, i1, i2⟩ := idx2_0 t
  funext y
  unfold iblk2 tileN Cert.KernelIdeal.Hand.tile
  rw [View.read_apply]
  show V c (Pipeline.arrRef spec2 0) _ = V c (Pipeline.arrRef spec2 0) _
  congr 1
  funext a
  apply Fin.ext
  have h0 : (y 0).val < 1 := (y 0).isLt
  match a with
  | ⟨0, _⟩ => show win2_0.index t 0 * 1 + 1 * (y 0).val = t.val / 16 % 4; rw [i0]; omega
  | ⟨1, _⟩ => show win2_0.index t 1 * 3 + 1 * (y 1).val = (y 1).val; rw [i1]; omega
  | ⟨2, _⟩ => show win2_0.index t 2 * 1024 + 1 * (y 2).val = 1024 * ((t.val / 4) % 4) + (y 2).val; rw [i2]; omega
theorem iblk2_1_eq (c : Dev nD) (t : Fin cfg2.N) :
    (iblk2 V c 1 t : Vec F S1x3x1024 .f32) = tileN (V c (Pipeline.arrRef spec2 1)) (t.val / 16) (t.val) := by
  have hN : t.val < 64 := lt_of_lt_of_eq t.isLt (show cfg2.N = 64 from N_2)
  obtain ⟨i0, i1, i2⟩ := idx2_1 t
  funext y
  unfold iblk2 tileN Cert.KernelIdeal.Hand.tile
  rw [View.read_apply]
  show V c (Pipeline.arrRef spec2 1) _ = V c (Pipeline.arrRef spec2 1) _
  congr 1
  funext a
  apply Fin.ext
  have h0 : (y 0).val < 1 := (y 0).isLt
  match a with
  | ⟨0, _⟩ => show win2_1.index t 0 * 1 + 1 * (y 0).val = t.val / 16 % 4; rw [i0]; omega
  | ⟨1, _⟩ => show win2_1.index t 1 * 3 + 1 * (y 1).val = (y 1).val; rw [i1]; omega
  | ⟨2, _⟩ => show win2_1.index t 2 * 1024 + 1 * (y 2).val = 1024 * ((t.val) % 4) + (y 2).val; rw [i2]; omega
theorem iblk2_2_eq (c : Dev nD) (t : Fin cfg2.N) :
    (iblk2 V c 2 t : Vec F S1x3x1024 .f32) = tileN (V c (Pipeline.arrRef spec2 2)) (t.val / 16) (t.val / 4) := by
  have hN : t.val < 64 := lt_of_lt_of_eq t.isLt (show cfg2.N = 64 from N_2)
  obtain ⟨i0, i1, i2⟩ := idx2_2 t
  funext y
  unfold iblk2 tileN Cert.KernelIdeal.Hand.tile
  rw [View.read_apply]
  show V c (Pipeline.arrRef spec2 2) _ = V c (Pipeline.arrRef spec2 2) _
  congr 1
  funext a
  apply Fin.ext
  have h0 : (y 0).val < 1 := (y 0).isLt
  match a with
  | ⟨0, _⟩ => show win2_2.index t 0 * 1 + 1 * (y 0).val = t.val / 16 % 4; rw [i0]; omega
  | ⟨1, _⟩ => show win2_2.index t 1 * 3 + 1 * (y 1).val = (y 1).val; rw [i1]; omega
  | ⟨2, _⟩ => show win2_2.index t 2 * 1024 + 1 * (y 2).val = 1024 * ((t.val / 4) % 4) + (y 2).val; rw [i2]; omega
theorem iblk2_3_eq (c : Dev nD) (t : Fin cfg2.N) :
    (iblk2 V c 3 t : Vec F S1x3x1024 .f32) = tileN (V c (Pipeline.arrRef spec2 3)) (t.val / 16) (t.val) := by
  have hN : t.val < 64 := lt_of_lt_of_eq t.isLt (show cfg2.N = 64 from N_2)
  obtain ⟨i0, i1, i2⟩ := idx2_3 t
  funext y
  unfold iblk2 tileN Cert.KernelIdeal.Hand.tile
  rw [View.read_apply]
  show V c (Pipeline.arrRef spec2 3) _ = V c (Pipeline.arrRef spec2 3) _
  congr 1
  funext a
  apply Fin.ext
  have h0 : (y 0).val < 1 := (y 0).isLt
  match a with
  | ⟨0, _⟩ => show win2_3.index t 0 * 1 + 1 * (y 0).val = t.val / 16 % 4; rw [i0]; omega
  | ⟨1, _⟩ => show win2_3.index t 1 * 3 + 1 * (y 1).val = (y 1).val; rw [i1]; omega
  | ⟨2, _⟩ => show win2_3.index t 2 * 1024 + 1 * (y 2).val = 1024 * ((t.val) % 4) + (y 2).val; rw [i2]; omega

/-- The specification's accumulator of batch `b` (read modulo 4) after `n` tiles. -/
def accN2 (c : Dev nD) (b n : ℕ) : FVec F S1x1 .f32 :=
  acc2 (V c (Pipeline.arrRef spec2 0)) (V c (Pipeline.arrRef spec2 1)) (V c (Pipeline.arrRef spec2 2)) (V c (Pipeline.arrRef spec2 3)) ⟨b % 4, Nat.mod_lt _ (by decide)⟩ n
theorem accN2_zero (c : Dev nD) (b : ℕ) : accN2 V c b 0 = k2_pay3 (F := F) := rfl
theorem accN2_succ (c : Dev nD) (b n : ℕ) :
    accN2 V c b (n + 1) = k2_pay1 (k2_pay4 (tileN (V c (Pipeline.arrRef spec2 0)) b (n / 4)) (tileN (V c (Pipeline.arrRef spec2 1)) b n)
      (tileN (V c (Pipeline.arrRef spec2 2)) b (n / 4)) (tileN (V c (Pipeline.arrRef spec2 3)) b n)) (accN2 V c b n) := rfl

/-- The payload of the point `t` over an accumulator `a` is the specification's step at the point's place in its batch. -/
theorem step2 (c : Dev nD) (t : Fin cfg2.N) (a : FVec F S1x1 .f32) :
    k2_pay1 (k2_pay4 (iblk2 V c 0 t) (iblk2 V c 1 t) (iblk2 V c 2 t) (iblk2 V c 3 t)) a
      = k2_pay1 (k2_pay4 (tileN (V c (Pipeline.arrRef spec2 0)) (t.val / 16) (t.val % 16 / 4)) (tileN (V c (Pipeline.arrRef spec2 1)) (t.val / 16) (t.val % 16))
          (tileN (V c (Pipeline.arrRef spec2 2)) (t.val / 16) (t.val % 16 / 4)) (tileN (V c (Pipeline.arrRef spec2 3)) (t.val / 16) (t.val % 16))) a := by
  rw [iblk2_0_eq, iblk2_1_eq, iblk2_2_eq, iblk2_3_eq,
    tileN_congr (V c (Pipeline.arrRef spec2 0)) (rfl : t.val / 16 % 4 = t.val / 16 % 4) (by omega : t.val / 4 % 4 = t.val % 16 / 4 % 4),
    tileN_congr (V c (Pipeline.arrRef spec2 1)) (rfl : t.val / 16 % 4 = t.val / 16 % 4) (by omega : t.val % 4 = t.val % 16 % 4),
    tileN_congr (V c (Pipeline.arrRef spec2 2)) (rfl : t.val / 16 % 4 = t.val / 16 % 4) (by omega : t.val / 4 % 4 = t.val % 16 / 4 % 4),
    tileN_congr (V c (Pipeline.arrRef spec2 3)) (rfl : t.val / 16 % 4 = t.val / 16 % 4) (by omega : t.val % 4 = t.val % 16 % 4)]

/-- THE ACCUMULATOR after every point: the specification's, at the point's batch and place in it. -/
theorem sAt2 (c : Dev nD) : ∀ (n : ℕ) (hn : n < cfg2.N), (outsAt2 V c n hn).2 = accN2 V c (n / 16) (n % 16 + 1) := by
  intro n
  induction n with
  | zero =>
    intro hn
    rw [outsAt2_A V c ⟨0, hn⟩ rfl (by show ¬ (0 : ℕ) % 16 = 15; decide)]
    dsimp only
    rw [sout2_A_eq, step2 V c ⟨0, hn⟩]
    rfl
  | succ n ih =>
    intro hn
    have hN : n + 1 < 64 := lt_of_lt_of_eq hn (show cfg2.N = 64 from N_2)
    by_cases h0 : (n + 1) % 16 = 0
    · rw [outsAt2_A V c ⟨n + 1, hn⟩ h0 (by dsimp only; omega)]
      dsimp only
      rw [sout2_A_eq, step2 V c ⟨n + 1, hn⟩]
      dsimp only
      rw [h0]
      rfl
    · have e : accN2 V c (n / 16) (n % 16 + 1) = accN2 V c ((n + 1) / 16) ((n + 1) % 16) := by
        rw [show n / 16 = (n + 1) / 16 from by omega, show n % 16 + 1 = (n + 1) % 16 from by omega]
      by_cases h1 : (n + 1) % 16 = 15
      · rw [outsAt2_C V c ⟨n + 1, hn⟩ h0 h1]
        dsimp only
        rw [sout2_C_eq, step2 V c ⟨n + 1, hn⟩]
        dsimp only
        rw [show (outsAt2 V c (n + 1 - 1) (Nat.lt_of_le_of_lt (Nat.sub_le _ _) hn)).2 = (outsAt2 V c n (Nat.lt_of_succ_lt hn)).2 from rfl,
          ih (Nat.lt_of_succ_lt hn), e]
        exact (accN2_succ V c ((n + 1) / 16) ((n + 1) % 16)).symm
      · rw [outsAt2_B V c ⟨n + 1, hn⟩ h0 h1]
        dsimp only
        rw [sout2_B_eq, step2 V c ⟨n + 1, hn⟩]
        dsimp only
        rw [show (outsAt2 V c (n + 1 - 1) (Nat.lt_of_le_of_lt (Nat.sub_le _ _) hn)).2 = (outsAt2 V c n (Nat.lt_of_succ_lt hn)).2 from rfl,
          ih (Nat.lt_of_succ_lt hn), e]
        exact (accN2_succ V c ((n + 1) / 16) ((n + 1) % 16)).symm

/-- At a batch's last point the result block holds the accumulator's new contents. -/
theorem oAt2 (c : Dev nD) (t : Fin cfg2.N) (h1 : t.val % 16 = 15) :
    (outsAt2 V c t.val t.isLt).1 = k2_pay2 (accN2 V c (t.val / 16) 16) := by
  have hs := sAt2 V c t.val t.isLt
  rw [h1] at hs
  rw [← hs, outsAt2_C V c t (by omega) h1]
  dsimp only
  rw [out2_C_eq, sout2_C_eq]

/-- What a write-back of the result window writes is the block of the specification's result. -/
theorem flushed2_eq (c : Dev nD) (t : Fin cfg2.N) (hf : (cfg2.win 4).flush t = true) :
    (dat2 V qs c).flushed 4 t = ((cfg2.win 4).blk t).view.read (Elt F) (out2 (V c (Pipeline.arrRef spec2 0)) (V c (Pipeline.arrRef spec2 1)) (V c (Pipeline.arrRef spec2 2)) (V c (Pipeline.arrRef spec2 3))) := by
  have h1 : t.val % 16 = 15 := (flush2_4 t).mp hf
  have hN : t.val < 64 := lt_of_lt_of_eq t.isLt (show cfg2.N = 64 from N_2)
  obtain ⟨i0, i1, i2⟩ := idx2_4 t
  show (cfg2.win 4).cut (grid2.coords t) ((dat2 V qs c).after 4 t) = _
  rw [after2_4, oAt2 V c t h1]
  funext y
  rw [View.read_apply]
  show k2_pay2 (accN2 V c (t.val / 16) 16) _ = out2 (V c (Pipeline.arrRef spec2 0)) (V c (Pipeline.arrRef spec2 1)) (V c (Pipeline.arrRef spec2 2)) (V c (Pipeline.arrRef spec2 3)) _
  unfold out2 accN2
  rw [idx111 ((cfg2.win 4).xinj (grid2.coords t) y)]
  have hb : ((((cfg2.win 4).blk t).view.emb y) 0 : Fin 4) = ⟨t.val / 16 % 4, Nat.mod_lt _ (by decide)⟩ := by
    apply Fin.ext
    have h0 : (y 0).val < 1 := (y 0).isLt
    show win2_4.index t 0 * 1 + 1 * (y 0).val = t.val / 16 % 4
    rw [i0]; omega
  rw [hb]
  rfl

/-- THE RESULT ARRAY after the launch is the specification's. -/
theorem final2 (c : Dev nD) : (dat2 V qs c).arrAt 4 cfg2.N = out2 (V c (Pipeline.arrRef spec2 0)) (V c (Pipeline.arrRef spec2 1)) (V c (Pipeline.arrRef spec2 2)) (V c (Pipeline.arrRef spec2 3)) :=
  (dat2 V qs c).arrAt_eq_of_cover 4 (out2 (V c (Pipeline.arrRef spec2 0)) (V c (Pipeline.arrRef spec2 1)) (V c (Pipeline.arrRef spec2 2)) (V c (Pipeline.arrRef spec2 3))) (flushed2_eq V qs c) fun i => by
    have hi : (i 0).val < 4 := (i 0).isLt
    have hlt : 16 * (i 0).val + 15 < cfg2.N := by rw [show cfg2.N = 64 from N_2]; omega
    refine ⟨⟨16 * (i 0).val + 15, hlt⟩, (flush2_4 _).mpr (by show (16 * (i 0).val + 15) % 16 = 15; omega), ?_⟩
    obtain ⟨i0, i1, i2⟩ := idx2_4 ⟨16 * (i 0).val + 15, hlt⟩
    show i ∈ ((View.whole main_v8).slice (win2_4.rect ⟨16 * (i 0).val + 15, hlt⟩)).set
    rw [View.set_slice_whole, Rect.mem_set_unit]
    intro a
    have h1 : (i 1 : Nat) < 1 := (i 1).isLt
    have h2 : (i 2 : Nat) < 1 := (i 2).isLt
    match a with
    | ⟨0, _⟩ =>
      show win2_4.index ⟨16 * (i 0).val + 15, hlt⟩ 0 * 1 ≤ (i 0 : Nat) ∧ (i 0 : Nat) < win2_4.index ⟨16 * (i 0).val + 15, hlt⟩ 0 * 1 + 1
      rw [i0]; dsimp only; omega
    | ⟨1, _⟩ =>
      show win2_4.index ⟨16 * (i 0).val + 15, hlt⟩ 1 * 1 ≤ (i 1 : Nat) ∧ (i 1 : Nat) < win2_4.index ⟨16 * (i 0).val + 15, hlt⟩ 1 * 1 + 1
      rw [i1]; omega
    | ⟨2, _⟩ =>
      show win2_4.index ⟨16 * (i 0).val + 15, hlt⟩ 2 * 1 ≤ (i 2 : Nat) ∧ (i 2 : Nat) < win2_4.index ⟨16 * (i 0).val + 15, hlt⟩ 2 * 1 + 1
      rw [i2]; omega

end Value

end Cert.KernelIdeal.Gen

end
-- ==== Proof.KernelValue.lean ====
/-
  The program's result, read off the last boundary: the three launches' result arrays are the specification's
  (each at the transposed arguments), the host sums each and combines the three sums.
-/
import proofs.«134606_j77163382440707_2_alg».proof.Proof.Frames
import proofs.«134606_j77163382440707_2_alg».proof.Proof.Value0
import proofs.«134606_j77163382440707_2_alg».proof.Proof.Value1
import proofs.«134606_j77163382440707_2_alg».proof.Proof.Value2

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.KernelIdeal.Hand

variable (m : (ℓ : Loc nD τ sig) → Buf (Elt F) ℓ) (ρ : Dev nD → PrngReg)

/-- The first host stretch transposes the four arguments. -/
theorem W1_v0 (c : Dev nD) : W1 m ρ c (Proc.devRef .tc main_v0) = tr (F := F) (m ((c : Thread nD τ).loc main_arg0)) := by
  show StableHlo.after hostOps0 (W0 m ρ c) (Proc.devRef .tc main_v0) = _
  after_results; rfl
theorem W1_v1 (c : Dev nD) : W1 m ρ c (Proc.devRef .tc main_v1) = tr (F := F) (m ((c : Thread nD τ).loc main_arg1)) := by
  show StableHlo.after hostOps0 (W0 m ρ c) (Proc.devRef .tc main_v1) = _
  after_results; rfl
theorem W1_v2 (c : Dev nD) : W1 m ρ c (Proc.devRef .tc main_v2) = tr (F := F) (m ((c : Thread nD τ).loc main_arg2)) := by
  show StableHlo.after hostOps0 (W0 m ρ c) (Proc.devRef .tc main_v2) = _
  after_results; rfl
theorem W1_v3 (c : Dev nD) : W1 m ρ c (Proc.devRef .tc main_v3) = tr (F := F) (m ((c : Thread nD τ).loc main_arg3)) := by
  show StableHlo.after hostOps0 (W0 m ρ c) (Proc.devRef .tc main_v3) = _
  after_results; rfl

/-- A buffer the second host stretch does not write, other than launch 0's result, is at launch 1's entry what it was at launch 0's. -/
theorem W3_keep (c : Dev nD) (r : Ref sig .tc) (h1 : r ∉ hostOps1_W) (h4 : r ≠ main_v4) :
    W3 m ρ c (Proc.devRef .tc r) = W1 m ρ c (Proc.devRef .tc r) :=
  (StableHlo.after_of_writes_sub hostOps1 _ hostOps1_writes h1).trans (W2_of_ne m ρ c r h4)
/-- The same across the third host stretch and launch 1. -/
theorem W5_keep (c : Dev nD) (r : Ref sig .tc) (h2 : r ∉ hostOps2_W) (h6 : r ≠ main_v6) :
    W5 m ρ c (Proc.devRef .tc r) = W3 m ρ c (Proc.devRef .tc r) :=
  (StableHlo.after_of_writes_sub hostOps2 _ hostOps2_writes h2).trans (W4_of_ne m ρ c r h6)

/-- Launch 0's result array: the specification's at the first point cloud and its normals, both twice. -/
theorem W2_v4 (c : Dev nD) : W2 m ρ c (Proc.devRef .tc main_v4)
    = out0 (F := F) (tr (m ((c : Thread nD τ).loc main_arg0))) (tr (m ((c : Thread nD τ).loc main_arg0))) (tr (m ((c : Thread nD τ).loc main_arg2))) (tr (m ((c : Thread nD τ).loc main_arg2))) := by
  rw [W2_out, final0 (U1 m ρ) qsPair c]
  show out0 (W1 m ρ c (Proc.devRef .tc main_v0)) (W1 m ρ c (Proc.devRef .tc main_v0)) (W1 m ρ c (Proc.devRef .tc main_v2)) (W1 m ρ c (Proc.devRef .tc main_v2)) = _
  rw [W1_v0, W1_v2]
/-- Launch 1's: at the second point cloud and its normals. -/
theorem W4_v6 (c : Dev nD) : W4 m ρ c (Proc.devRef .tc main_v6)
    = out1 (F := F) (tr (m ((c : Thread nD τ).loc main_arg1))) (tr (m ((c : Thread nD τ).loc main_arg1))) (tr (m ((c : Thread nD τ).loc main_arg3))) (tr (m ((c : Thread nD τ).loc main_arg3))) := by
  rw [W4_out, final1 (U3 m ρ) qsPair c]
  show out1 (W3 m ρ c (Proc.devRef .tc main_v1)) (W3 m ρ c (Proc.devRef .tc main_v1)) (W3 m ρ c (Proc.devRef .tc main_v3)) (W3 m ρ c (Proc.devRef .tc main_v3)) = _
  rw [W3_keep m ρ c main_v1 (by decide) (by decide), W3_keep m ρ c main_v3 (by decide) (by decide), W1_v1, W1_v3]
/-- Launch 2's: the first cloud against the second. -/
theorem W6_v8 (c : Dev nD) : W6 m ρ c (Proc.devRef .tc main_v8)
    = out2 (F := F) (tr (m ((c : Thread nD τ).loc main_arg0))) (tr (m ((c : Thread nD τ).loc main_arg1))) (tr (m ((c : Thread nD τ).loc main_arg2))) (tr (m ((c : Thread nD τ).loc main_arg3))) := by
  rw [W6_out, final2 (U5 m ρ) qsFull c]
  show out2 (W5 m ρ c (Proc.devRef .tc main_v0)) (W5 m ρ c (Proc.devRef .tc main_v1)) (W5 m ρ c (Proc.devRef .tc main_v2)) (W5 m ρ c (Proc.devRef .tc main_v3)) = _
  rw [W5_keep m ρ c main_v0 (by decide) (by decide), W5_keep m ρ c main_v1 (by decide) (by decide), W5_keep m ρ c main_v2 (by decide) (by decide), W5_keep m ρ c main_v3 (by decide) (by decide),
    W3_keep m ρ c main_v0 (by decide) (by decide), W3_keep m ρ c main_v1 (by decide) (by decide), W3_keep m ρ c main_v2 (by decide) (by decide), W3_keep m ρ c main_v3 (by decide) (by decide),
    W1_v0, W1_v1, W1_v2, W1_v3]

/-- The host's sum of launch 0's result, carried to the last stretch. -/
theorem W6_v5 (c : Dev nD) : W6 m ρ c (Proc.devRef .tc main_v5) = total (F := F) (W2 m ρ c (Proc.devRef .tc main_v4)) := by
  rw [W6_of_ne m ρ c main_v5 (by decide)]
  show StableHlo.after hostOps2 (W4 m ρ c) (Proc.devRef .tc main_v5) = _
  rw [StableHlo.after_of_writes_sub hostOps2 _ hostOps2_writes (by decide : main_v5 ∉ hostOps2_W), W4_of_ne m ρ c main_v5 (by decide)]
  show StableHlo.after hostOps1 (W2 m ρ c) (Proc.devRef .tc main_v5) = _
  after_results; rfl
/-- The host's sum of launch 1's result. -/
theorem W6_v7 (c : Dev nD) : W6 m ρ c (Proc.devRef .tc main_v7) = total (F := F) (W4 m ρ c (Proc.devRef .tc main_v6)) := by
  rw [W6_of_ne m ρ c main_v7 (by decide)]
  show StableHlo.after hostOps2 (W4 m ρ c) (Proc.devRef .tc main_v7) = _
  after_results; rfl

/-- THE RESULT at the last boundary is the specification's value of the four arguments. -/
theorem W7_result (c : Dev nD) : W7 m ρ c (Proc.devRef .tc main_v12)
    = kernelVal (F := F) (m ((c : Thread nD τ).loc main_arg0)) (m ((c : Thread nD τ).loc main_arg1)) (m ((c : Thread nD τ).loc main_arg2)) (m ((c : Thread nD τ).loc main_arg3)) := by
  have e : W7 m ρ c (Proc.devRef .tc main_v12)
      = subf (addf (W6 m ρ c (Proc.devRef .tc main_v5)) (W6 m ρ c (Proc.devRef .tc main_v7)))
          (mulf (constant (F := F) S_ .f32 0x40000000#32) (total (F := F) (W6 m ρ c (Proc.devRef .tc main_v8)))) := by
    show StableHlo.after hostOps3 (W6 m ρ c) (Proc.devRef .tc main_v12) = _
    after_results; rfl
  rw [e, W6_v5, W6_v7, W2_v4, W4_v6, W6_v8]
  rfl

/-- THE RUN, read at the result: it ends at the specification's value, the arguments unchanged. -/
theorem run_value : θ_run defs (onTc (τ := τ) (main (F := F))) ⟨m, fun _ => 0, ρ⟩ (fun r => ∀ c : Dev nD,
      r.2.mem ((c.tc : Thread nD τ).loc main_v12) = kernelVal (F := F) (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_v12 (by decide))).trans (W7_result m ρ c),
     (h c _ (mem_uc main_arg0 (by decide))).trans (W7_keep m ρ c main_arg0 (by decide) (by decide) (by decide) (by decide) (by decide) (by decide) (by decide)),
     (h c _ (mem_uc main_arg1 (by decide))).trans (W7_keep m ρ c main_arg1 (by decide) (by decide) (by decide) (by decide) (by decide) (by decide) (by decide)),
     (h c _ (mem_uc main_arg2 (by decide))).trans (W7_keep m ρ c main_arg2 (by decide) (by decide) (by decide) (by decide) (by decide) (by decide) (by decide)),
     (h c _ (mem_uc main_arg3 (by decide))).trans (W7_keep m ρ c main_arg3 (by decide) (by decide) (by decide) (by decide) (by decide) (by decide) (by decide))⟩)
    (run_all m ρ)

end Cert.KernelIdeal.Gen

end
-- ==== Proof.MathGram.lean ====
/-
  Pure mathematics used by the bridge between the tiled kernel and the one-reduce reference.

  * The pair term: for two points a, b in R^3 with normals n, m, the reference takes exp(-|a - b|^2) (n . m)^2
    with |a - b|^2 spelt as the sum of the squared coordinate differences, the kernel with |a - b|^2 spelt by the
    Gram identity |a|^2 + |b|^2 - 2 a . b.  The two agree on the extended reals when the coordinates are real numbers
    (the Gram identity uses distributivity, which the extended reals only have on the finite part).
  * Sums: a sum over 4096 points is the sum over 4 tiles of the sum over the 1024 points of a tile; sixteen tiles
    numbered 4 i + j are all pairs (i, j); a sum over a rank-3 index set is the triple sum over its coordinates.
-/
import Idealize.ShloMosaic.PureOps.Ideal.Laws
import Idealize.ShloMosaic.Lib.ValueIdx

noncomputable section

namespace Cert.KernelIdeal.Hand

open Idealize.ShloMosaic Idealize.ShloMosaic.ValueIdx
open scoped BigOperators

/-- The f32 pattern `0x40000000` is the real number two. -/
theorem ofBits_two_f32 : Ideal.ofBits .f32 0x40000000#32 = ((2 : ℝ) : EReal) := by
  simp [Ideal.ofBits, Ideal.ieee, -EReal.coe_mul]; norm_num

/-- One pair's term as the reference spells it: exp(-Σ (a_k - b_k)^2) (Σ n_k m_k)^2. -/
def pairTerm (xa xb na nb : Fin 3 → EReal) : EReal :=
  Ideal.exp (-(∑ k, (xa k - xb k) * (xa k - xb k))) * ((∑ k, na k * nb k) * (∑ k, na k * nb k))

/-- One pair's term as the kernel spells it: exp(0 - (Σ a_k^2 + Σ b_k^2 - 2 Σ a_k b_k)) (Σ n_k m_k)^2. -/
def gramTerm (xa xb na nb : Fin 3 → EReal) : EReal :=
  Ideal.exp (0 - ((∑ k, xa k * xa k) + (∑ k, xb k * xb k) - Ideal.ofBits .f32 0x40000000#32 * (∑ k, xa k * xb k)))
    * ((∑ k, na k * nb k) * (∑ k, na k * nb k))

/-- The Gram identity on real coordinates: the two spellings agree. -/
theorem gramTerm_eq_pairTerm (xa xb na nb : Fin 3 → EReal) (ha : ∀ k, ∃ r : ℝ, xa k = (r : EReal))
    (hb : ∀ k, ∃ r : ℝ, xb k = (r : EReal)) : gramTerm xa xb na nb = pairTerm xa xb na nb := by
  choose a ha using ha
  choose b hb using hb
  unfold gramTerm pairTerm
  refine congrArg (fun t => Ideal.exp t * _) ?_
  simp only [Fin.sum_univ_three, ha, hb, ofBits_two_f32]
  rw [zero_sub]
  refine congrArg Neg.neg ?_
  have h : (a 0 * a 0 + a 1 * a 1 + a 2 * a 2 + (b 0 * b 0 + b 1 * b 1 + b 2 * b 2) - 2 * (a 0 * b 0 + a 1 * b 1 + a 2 * b 2) : ℝ)
      = (a 0 - b 0) * (a 0 - b 0) + (a 1 - b 1) * (a 1 - b 1) + (a 2 - b 2) * (a 2 - b 2) := by ring
  exact_mod_cast congrArg (fun r : ℝ => (r : EReal)) h

/-- The kernel sum of two clouds with normals, each [4, 4096, 3]: over the batches and all pairs of points, the
    pair term of point i of the first cloud and point j of the second. -/
def kSum (xa xb na nb : (⟨3, ![4, 4096, 3]⟩ : Shape).Idx → EReal) : EReal :=
  ∑ b : Fin 4, ∑ i : Fin 4096, ∑ j : Fin 4096,
    pairTerm (fun k => xa (ix3 b i k)) (fun k => xb (ix3 b j k)) (fun k => na (ix3 b i k)) (fun k => nb (ix3 b j k))

/-- A sum over 4096 points is the sum over 4 tiles of the sum over the tile's 1024 points. -/
theorem sum_fin4096 {M : Type*} [AddCommMonoid M] (f : Fin 4096 → M) :
    ∑ x, f x = ∑ i : Fin 4, ∑ p : Fin 1024, f ⟨1024 * i.val + p.val, by have := i.isLt; have := p.isLt; omega⟩ := by
  have e : Fin 4 × Fin 1024 ≃ Fin 4096 := (finProdFinEquiv (m := 4) (n := 1024))
  rw [← Fintype.sum_prod_type (f := fun x : Fin 4 × Fin 1024 => f ⟨1024 * x.1.val + x.2.val, by have := x.1.isLt; have := x.2.isLt; omega⟩)]
  refine (Fintype.sum_equiv (finProdFinEquiv (m := 4) (n := 1024)) _ f (fun x => ?_)).symm
  refine congrArg f (Fin.ext ?_)
  show 1024 * x.1.val + x.2.val = x.2.val + 1024 * x.1.val
  omega

/-- Sixteen tiles numbered `4 i + j` are all pairs `(i, j)` of four row tiles and four column tiles. -/
theorem sum_range16 {M : Type*} [AddCommMonoid M] (f : Fin 4 → Fin 4 → M) :
    ∑ t ∈ Finset.range 16, f ⟨t / 4 % 4, Nat.mod_lt _ (by decide)⟩ ⟨t % 4, Nat.mod_lt _ (by decide)⟩ = ∑ i, ∑ j, f i j := by
  simp only [Finset.sum_range_succ, Finset.sum_range_zero, Fin.sum_univ_four]
  rw [zero_add]
  show f 0 0 + f 0 1 + f 0 2 + f 0 3 + f 1 0 + f 1 1 + f 1 2 + f 1 3 + f 2 0 + f 2 1 + f 2 2 + f 2 3
      + f 3 0 + f 3 1 + f 3 2 + f 3 3 = _
  simp only [add_assoc]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.KernelIdeal.Hand

end
-- ==== Proof.TileLayout.lean ====
/-
  The layout operations of one tile's payload read at an index, at the ideal values: the two small contractions
  over the size-3 coordinate axis, the sum of squares over that axis, the column and row broadcasts of the squared
  norms, and the row sums and the total of the 1024 x 1024 tile.
-/
import proofs.«134606_j77163382440707_2_alg».proof.Proof.Gen.KernelIdeal.Skeleton
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen
open scoped BigOperators

/-- On the kept axis of the left block the contraction's left index is the output row. -/
theorem gram_lhs_1 (i : S1024x1024.Idx) (c : dot_S3x1024_S3x1024_S1024x1024_0_0_1_1_n_n.contr.Idx) :
    (dot_S3x1024_S3x1024_S1024x1024_0_0_1_1_n_n.lhsIdx i c 1).val = (i 0).val := by
  unfold DotDims.lhsIdx
  rw [dif_neg (show ¬(1 : Fin S3x1024.rank) ∈ dot_S3x1024_S3x1024_S1024x1024_0_0_1_1_n_n.lhsBatch by decide), dif_pos (show (1 : Fin S3x1024.rank) ∈ dot_S3x1024_S3x1024_S1024x1024_0_0_1_1_n_n.lhsNonContracting by decide)]
  rfl
/-- On the kept axis of the right block the contraction's right index is the output column. -/
theorem gram_rhs_1 (i : S1024x1024.Idx) (c : dot_S3x1024_S3x1024_S1024x1024_0_0_1_1_n_n.contr.Idx) :
    (dot_S3x1024_S3x1024_S1024x1024_0_0_1_1_n_n.rhsIdx i c 1).val = (i 1).val := by
  unfold DotDims.rhsIdx
  rw [dif_neg (show ¬(1 : Fin S3x1024.rank) ∈ dot_S3x1024_S3x1024_S1024x1024_0_0_1_1_n_n.rhsBatch by decide), dif_pos (show (1 : Fin S3x1024.rank) ∈ dot_S3x1024_S3x1024_S1024x1024_0_0_1_1_n_n.rhsNonContracting by decide)]
  rfl

/-- The contraction of two [3, 1024] blocks over the coordinate axis, into the zero splat: entry (p, q) is the
    dot product of column p of the left block and column q of the right one. -/
theorem gram_matmul_apply (l r : FVec Ideal S3x1024 .f32) (p q : Fin 1024) :
    matmul dot_S3x1024_S3x1024_S1024x1024_0_0_1_1_n_n (some .fp32) l r (constant (F := Ideal) S1024x1024 .f32 0x00000000#32) (ix2 p q)
      = ∑ k : Fin 3, l (ix2 k p) * r (ix2 k q) := by
  simp only [matmul]
  rw [Ideal.matmul_constant_zero_apply, ← Equiv.sum_comp (contrEquiv1 dot_S3x1024_S3x1024_S1024x1024_0_0_1_1_n_n 3 rfl rfl).symm]
  refine Finset.sum_congr rfl fun k _ => ?_
  have hk := contrEquiv1_symm_val dot_S3x1024_S3x1024_S1024x1024_0_0_1_1_n_n 3 rfl rfl k
  have el : dot_S3x1024_S3x1024_S1024x1024_0_0_1_1_n_n.lhsIdx (ix2 p q) ((contrEquiv1 dot_S3x1024_S3x1024_S1024x1024_0_0_1_1_n_n 3 rfl rfl).symm k) = ix2 k p := funext fun a => Fin.ext (by
    match a with
    | ⟨0, _⟩ => exact (dot_S3x1024_S3x1024_S1024x1024_0_0_1_1_n_n.lhsIdx_val_of_single rfl _ _).trans hk
    | ⟨1, _⟩ => exact gram_lhs_1 _ _)
  have er : dot_S3x1024_S3x1024_S1024x1024_0_0_1_1_n_n.rhsIdx (ix2 p q) ((contrEquiv1 dot_S3x1024_S3x1024_S1024x1024_0_0_1_1_n_n 3 rfl rfl).symm k) = ix2 k q := funext fun a => Fin.ext (by
    match a with
    | ⟨0, _⟩ => exact (dot_S3x1024_S3x1024_S1024x1024_0_0_1_1_n_n.rhsIdx_val_of_single rfl _ _).trans hk
    | ⟨1, _⟩ => exact gram_rhs_1 _ _)
  rw [el, er]

/-- The sum over the coordinate axis of a [3, 1024] block: entry p is the sum of column p. -/
theorem coordSum_apply (v : FVec Ideal S3x1024 .f32) (hacc : (0x00000000#32 : BitVec 32) = 0x00000000#32) (p : Fin 1024) :
    multiReduction (F := Ideal) .add [0] S1024 v 0x00000000#32 Facts₀.reduces_S3x1024_S1024 (.inl rfl) hacc (ix1 p)
      = ∑ k : Fin 3, v (ix2 k p) := by
  refine (Ideal.multiReduction_add_single v 0x00000000#32 Facts₀.reduces_S3x1024_S1024 (.inl rfl) hacc (ix1 p)).trans ?_
  refine Finset.sum_congr rfl fun k _ => congrArg v ?_
  funext a; match a with | ⟨0, _⟩ => rfl | ⟨1, _⟩ => rfl

/-- The row sums of a [1024, 1024] tile: entry p is the sum of row p. -/
theorem rowSum_apply (v : FVec Ideal S1024x1024 .f32) (hacc : (0x00000000#32 : BitVec 32) = 0x00000000#32) (p : Fin 1024) :
    multiReduction (F := Ideal) .add [1] S1024 v 0x00000000#32 Facts₀.reduces_S1024x1024_S1024 (.inl rfl) hacc (ix1 p)
      = ∑ q : Fin 1024, v (ix2 p q) := by
  refine (Ideal.multiReduction_add_single v 0x00000000#32 Facts₀.reduces_S1024x1024_S1024 (.inl rfl) hacc (ix1 p)).trans ?_
  refine Finset.sum_congr rfl fun k _ => congrArg v ?_
  funext a; match a with | ⟨0, _⟩ => rfl | ⟨1, _⟩ => rfl

/-- The sum of a [1024, 1] column: its one entry is the sum of the column. -/
theorem colSum_apply (v : FVec Ideal S1024x1 .f32) (hacc : (0x00000000#32 : BitVec 32) = 0x00000000#32) (u : Fin 1) :
    multiReduction (F := Ideal) .add [0] S1 v 0x00000000#32 Facts₀.reduces_S1024x1_S1 (.inl rfl) hacc (ix1 u)
      = ∑ p : Fin 1024, v (ix2 p u) := by
  refine (Ideal.multiReduction_add_single v 0x00000000#32 Facts₀.reduces_S1024x1_S1 (.inl rfl) hacc (ix1 u)).trans ?_
  refine Finset.sum_congr rfl fun k _ => congrArg v ?_
  funext a; match a with | ⟨0, _⟩ => rfl | ⟨1, _⟩ => rfl

variable {α : Type}

/-- A vector [a] cast to a column [a, 1] reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1] array cast to [1, 1] is itself. -/
theorem shapeCast_11_11_apply (x : (⟨2, ![1, 1]⟩ : Shape).Idx → α) (h : (⟨2, ![1, 1]⟩ : Shape).ShapeCasts ⟨2, ![1, 1]⟩)
    (j : (⟨2, ![1, 1]⟩ : Shape).Idx) : shapeCast ⟨2, ![1, 1]⟩ x h j = x j :=
  shapeCast_apply x h _ _ rfl

/-- A [1] array cast to [1, 1] reads its one entry. -/
theorem shapeCast_1_11_apply (x : (⟨1, ![1]⟩ : Shape).Idx → α) (h : (⟨1, ![1]⟩ : Shape).ShapeCasts ⟨2, ![1, 1]⟩)
    (u w : Fin 1) : shapeCast ⟨2, ![1, 1]⟩ x h (ix2 u w) = x (ix1 (0 : Fin 1)) :=
  shapeCast_apply x h _ _ (by
    have hu : u.val = 0 := by omega
    have hw : w.val = 0 := by omega
    rw [Shape.rowMajor_val_two, Shape.rowMajor_val_one]
    show 0 = u.val * 1 + w.val
    rw [hu, hw])

/-- A [1, 1] array cast to [1, 1, 1] reads its one entry. -/
theorem shapeCast_11_111_apply (x : (⟨2, ![1, 1]⟩ : Shape).Idx → α) (h : (⟨2, ![1, 1]⟩ : Shape).ShapeCasts ⟨3, ![1, 1, 1]⟩)
    (u w z : Fin 1) : shapeCast ⟨3, ![1, 1, 1]⟩ x h (ix3 u w z) = x (ix2 (0 : Fin 1) (0 : Fin 1)) :=
  shapeCast_apply x h _ _ (by
    have hu : u.val = 0 := by omega
    have hw : w.val = 0 := by omega
    have hz : z.val = 0 := by omega
    rw [Shape.rowMajor_val_three, Shape.rowMajor_val_two]
    show 0 * 1 + 0 = (u.val * 1 + w.val) * 1 + z.val
    rw [hu, hw, hz])

end Cert.KernelIdeal.Hand

end
-- ==== Proof.TileValue.lean ====
/-
  The four payloads of a launch read at an index, at the ideal values.

  * `pay4`: the row sums of one 1024 x 1024 tile: entry p is the sum over the tile's columns q of the kernel's pair
    term (Gram spelling) of point p of the row blocks and point q of the column blocks.
  * `pay1`: the accumulator plus the total of the row sums.   * `pay3`: zero.   * `pay2`: the accumulator's entry.
  The three launches' payloads are textually the same; each lemma is proved for launch 0 and repeated for 1 and 2.
-/
import proofs.«134606_j77163382440707_2_alg».proof.Proof.Spec
import proofs.«134606_j77163382440707_2_alg».proof.Proof.TileLayout
import proofs.«134606_j77163382440707_2_alg».proof.Proof.MathGram

noncomputable section

namespace Cert.KernelIdeal.Hand

open Idealize.ShloMosaic Idealize.ShloMosaic.ValueIdx Cert.KernelIdeal Cert.KernelIdeal.Gen
open scoped BigOperators

/-- The squared norms of the row block's points, as a column broadcast over the tile: entry (p, q) is entry p. -/
theorem colNorm_apply (w : FVec Ideal S1024 .f32) (p q : Fin 1024) :
    broadcastTo S1024x1024 (transpose S1024x1 [1, 0] (shapeCast S1x1024 w Facts₀.shapeCasts_S1024_S1x1024)
      Facts₀.transposes_S1x1024_p1_0_S1024x1) Facts₀.broadcasts_S1024x1_S1024x1024 (ix2 p q) = w (ix1 p) :=
  (broadcastTo_a1_ab_apply _ _ p q).trans ((transpose_ix2_apply _ _ p 0).trans (shapeCast_a_1a_apply w _ 0 p))

/-- The squared norms of the column block's points, as a row broadcast over the tile: entry (p, q) is entry q. -/
theorem rowNorm_apply (w : FVec Ideal S1024 .f32) (p q : Fin 1024) :
    broadcastTo S1024x1024 (shapeCast S1x1024 w Facts₀.shapeCasts_S1024_S1x1024) Facts₀.broadcasts_S1x1024_S1024x1024 (ix2 p q)
      = w (ix1 q) :=
  (broadcastTo_1b_ab_apply _ _ p q).trans (shapeCast_a_1a_apply w _ 0 q)

/-- The squared norms of a block's points: entry r is the sum over the coordinates of the squares. -/
theorem sqNorm_apply (x : FVec Ideal S1x3x1024 .f32) (hacc : (0x00000000#32 : BitVec 32) = 0x00000000#32) (r : Fin 1024) :
    multiReduction (F := Ideal) .add [0] S1024
        (mulf (shapeCast S3x1024 x Facts₀.shapeCasts_S1x3x1024_S3x1024) (shapeCast S3x1024 x Facts₀.shapeCasts_S1x3x1024_S3x1024))
        0x00000000#32 Facts₀.reduces_S3x1024_S1024 (.inl rfl) hacc (ix1 r)
      = ∑ k : Fin 3, x (ix3 0 k r) * x (ix3 0 k r) :=
  (coordSum_apply _ hacc r).trans (Finset.sum_congr rfl fun k _ => by
    show shapeCast S3x1024 x _ (ix2 k r) * shapeCast S3x1024 x _ (ix2 k r) = _
    rw [shapeCast_1ab_ab_apply])

/-- The dot products of the points of two blocks: entry (p, q) is the sum over the coordinates of the products. -/
theorem dot_apply (x y : FVec Ideal S1x3x1024 .f32) (p q : Fin 1024) :
    matmul dot_S3x1024_S3x1024_S1024x1024_0_0_1_1_n_n (some .fp32) (shapeCast S3x1024 x Facts₀.shapeCasts_S1x3x1024_S3x1024)
        (shapeCast S3x1024 y Facts₀.shapeCasts_S1x3x1024_S3x1024) (constant (F := Ideal) S1024x1024 .f32 0x00000000#32) (ix2 p q)
      = ∑ k : Fin 3, x (ix3 0 k p) * y (ix3 0 k q) :=
  (gram_matmul_apply _ _ p q).trans (Finset.sum_congr rfl fun k _ => by
    rw [shapeCast_1ab_ab_apply, shapeCast_1ab_ab_apply])

/-- One entry of a tile from the squared norms `n1`, `n2`, the cross products `c` and the normals' products `d`. -/
theorem tile_entry (n1 n2 : FVec Ideal S1024 .f32) (c d : FVec Ideal S1024x1024 .f32) (p q : Fin 1024) :
    mulf (exp (subf (broadcast S1024x1024 (FloatOps.ofBits (F := Ideal) .f32 0x00000000#32))
        (subf (addf (broadcastTo S1024x1024 (transpose S1024x1 [1, 0] (shapeCast S1x1024 n1 Facts₀.shapeCasts_S1024_S1x1024)
              Facts₀.transposes_S1x1024_p1_0_S1024x1) Facts₀.broadcasts_S1024x1_S1024x1024)
            (broadcastTo S1024x1024 (shapeCast S1x1024 n2 Facts₀.shapeCasts_S1024_S1x1024) Facts₀.broadcasts_S1x1024_S1024x1024))
          (mulf (broadcast S1024x1024 (FloatOps.ofBits (F := Ideal) .f32 0x40000000#32)) c)))) (mulf d d) (ix2 p q)
      = Ideal.exp (0 - ((n1 (ix1 p) + n2 (ix1 q)) - Ideal.ofBits .f32 0x40000000#32 * c (ix2 p q))) * (d (ix2 p q) * d (ix2 p q)) := by
  show Ideal.exp (Ideal.ofBits .f32 0x00000000#32 - ((broadcastTo S1024x1024 _ _ (ix2 p q) + broadcastTo S1024x1024 _ _ (ix2 p q))
    - Ideal.ofBits .f32 0x40000000#32 * c (ix2 p q))) * (d (ix2 p q) * d (ix2 p q)) = _
  rw [colNorm_apply, rowNorm_apply, Ideal.ofBits_zero_f32]

/-- Launch 0's tile payload: the row sums of the tile's pair terms. -/
theorem k0_pay4_apply (x0 x1 x2 x3 : FVec Ideal S1x3x1024 .f32) (p : Fin 1024) :
    k0_pay4 (F := Ideal) x0 x1 x2 x3 (ix1 p)
      = ∑ q : Fin 1024, gramTerm (fun k => x0 (ix3 0 k p)) (fun k => x1 (ix3 0 k q)) (fun k => x2 (ix3 0 k p)) (fun k => x3 (ix3 0 k q)) := by
  unfold k0_pay4
  refine (rowSum_apply _ rfl p).trans (Finset.sum_congr rfl fun q _ => ?_)
  unfold gramTerm
  refine (tile_entry _ _ _ _ p q).trans ?_
  exact congrArg₂ (fun s d : EReal => Ideal.exp (0 - s) * d)
    (congrArg₂ (fun n c : EReal => n - Ideal.ofBits .f32 0x40000000#32 * c)
      (congrArg₂ (fun u v : EReal => u + v) (sqNorm_apply x0 rfl p) (sqNorm_apply x1 rfl q)) (dot_apply x0 x1 p q))
    (congrArg₂ (fun u v : EReal => u * v) (dot_apply x2 x3 p q) (dot_apply x2 x3 p q))

/-- Launch 0's accumulation: the accumulator plus the total of the row sums. -/
theorem k0_pay1_apply (v : FVec Ideal S1024 .f32) (a : FVec Ideal S1x1 .f32) (u w : Fin 1) :
    k0_pay1 (F := Ideal) v a (ix2 u w) = a (ix2 u w) + ∑ p : Fin 1024, v (ix1 p) := by
  unfold k0_pay1
  refine (shapeCast_11_11_apply _ _ _).trans ?_
  refine congrArg (fun t : EReal => a (ix2 u w) + t) ?_
  refine (shapeCast_1_11_apply _ _ u w).trans ?_
  refine (colSum_apply _ rfl 0).trans (Finset.sum_congr rfl fun p _ => ?_)
  exact shapeCast_a_a1_apply v _ p 0

/-- Launch 0's reset: zero. -/
theorem k0_pay3_apply (j : S1x1.Idx) : k0_pay3 (F := Ideal) j = 0 := by
  unfold k0_pay3
  refine (shapeCast_11_11_apply _ _ _).trans ?_
  exact Ideal.ofBits_zero_f32

/-- Launch 0's result block: the accumulator's entry. -/
theorem k0_pay2_apply (a : FVec Ideal S1x1 .f32) (u w z : Fin 1) :
    k0_pay2 (F := Ideal) a (ix3 u w z) = a (ix2 0 0) := by
  unfold k0_pay2
  exact shapeCast_11_111_apply _ _ u w z

/-- Launch 1's tile payload: the row sums of the tile's pair terms. -/
theorem k1_pay4_apply (x0 x1 x2 x3 : FVec Ideal S1x3x1024 .f32) (p : Fin 1024) :
    k1_pay4 (F := Ideal) x0 x1 x2 x3 (ix1 p)
      = ∑ q : Fin 1024, gramTerm (fun k => x0 (ix3 0 k p)) (fun k => x1 (ix3 0 k q)) (fun k => x2 (ix3 0 k p)) (fun k => x3 (ix3 0 k q)) := by
  unfold k1_pay4
  refine (rowSum_apply _ rfl p).trans (Finset.sum_congr rfl fun q _ => ?_)
  unfold gramTerm
  refine (tile_entry _ _ _ _ p q).trans ?_
  exact congrArg₂ (fun s d : EReal => Ideal.exp (0 - s) * d)
    (congrArg₂ (fun n c : EReal => n - Ideal.ofBits .f32 0x40000000#32 * c)
      (congrArg₂ (fun u v : EReal => u + v) (sqNorm_apply x0 rfl p) (sqNorm_apply x1 rfl q)) (dot_apply x0 x1 p q))
    (congrArg₂ (fun u v : EReal => u * v) (dot_apply x2 x3 p q) (dot_apply x2 x3 p q))

/-- Launch 1's accumulation: the accumulator plus the total of the row sums. -/
theorem k1_pay1_apply (v : FVec Ideal S1024 .f32) (a : FVec Ideal S1x1 .f32) (u w : Fin 1) :
    k1_pay1 (F := Ideal) v a (ix2 u w) = a (ix2 u w) + ∑ p : Fin 1024, v (ix1 p) := by
  unfold k1_pay1
  refine (shapeCast_11_11_apply _ _ _).trans ?_
  refine congrArg (fun t : EReal => a (ix2 u w) + t) ?_
  refine (shapeCast_1_11_apply _ _ u w).trans ?_
  refine (colSum_apply _ rfl 0).trans (Finset.sum_congr rfl fun p _ => ?_)
  exact shapeCast_a_a1_apply v _ p 0

/-- Launch 1's reset: zero. -/
theorem k1_pay3_apply (j : S1x1.Idx) : k1_pay3 (F := Ideal) j = 0 := by
  unfold k1_pay3
  refine (shapeCast_11_11_apply _ _ _).trans ?_
  exact Ideal.ofBits_zero_f32

/-- Launch 1's result block: the accumulator's entry. -/
theorem k1_pay2_apply (a : FVec Ideal S1x1 .f32) (u w z : Fin 1) :
    k1_pay2 (F := Ideal) a (ix3 u w z) = a (ix2 0 0) := by
  unfold k1_pay2
  exact shapeCast_11_111_apply _ _ u w z

/-- Launch 2's tile payload: the row sums of the tile's pair terms. -/
theorem k2_pay4_apply (x0 x1 x2 x3 : FVec Ideal S1x3x1024 .f32) (p : Fin 1024) :
    k2_pay4 (F := Ideal) x0 x1 x2 x3 (ix1 p)
      = ∑ q : Fin 1024, gramTerm (fun k => x0 (ix3 0 k p)) (fun k => x1 (ix3 0 k q)) (fun k => x2 (ix3 0 k p)) (fun k => x3 (ix3 0 k q)) := by
  unfold k2_pay4
  refine (rowSum_apply _ rfl p).trans (Finset.sum_congr rfl fun q _ => ?_)
  unfold gramTerm
  refine (tile_entry _ _ _ _ p q).trans ?_
  exact congrArg₂ (fun s d : EReal => Ideal.exp (0 - s) * d)
    (congrArg₂ (fun n c : EReal => n - Ideal.ofBits .f32 0x40000000#32 * c)
      (congrArg₂ (fun u v : EReal => u + v) (sqNorm_apply x0 rfl p) (sqNorm_apply x1 rfl q)) (dot_apply x0 x1 p q))
    (congrArg₂ (fun u v : EReal => u * v) (dot_apply x2 x3 p q) (dot_apply x2 x3 p q))

/-- Launch 2's accumulation: the accumulator plus the total of the row sums. -/
theorem k2_pay1_apply (v : FVec Ideal S1024 .f32) (a : FVec Ideal S1x1 .f32) (u w : Fin 1) :
    k2_pay1 (F := Ideal) v a (ix2 u w) = a (ix2 u w) + ∑ p : Fin 1024, v (ix1 p) := by
  unfold k2_pay1
  refine (shapeCast_11_11_apply _ _ _).trans ?_
  refine congrArg (fun t : EReal => a (ix2 u w) + t) ?_
  refine (shapeCast_1_11_apply _ _ u w).trans ?_
  refine (colSum_apply _ rfl 0).trans (Finset.sum_congr rfl fun p _ => ?_)
  exact shapeCast_a_a1_apply v _ p 0

/-- Launch 2's reset: zero. -/
theorem k2_pay3_apply (j : S1x1.Idx) : k2_pay3 (F := Ideal) j = 0 := by
  unfold k2_pay3
  refine (shapeCast_11_11_apply _ _ _).trans ?_
  exact Ideal.ofBits_zero_f32

/-- Launch 2's result block: the accumulator's entry. -/
theorem k2_pay2_apply (a : FVec Ideal S1x1 .f32) (u w z : Fin 1) :
    k2_pay2 (F := Ideal) a (ix3 u w z) = a (ix2 0 0) := by
  unfold k2_pay2
  exact shapeCast_11_111_apply _ _ u w z

end Cert.KernelIdeal.Hand

end
-- ==== Proof.RefValue.lean ====
/-
  The reference read at its one index: each of its three reduces over [4, 4096, 4096] is the kernel sum of MathGram,
  and the result is kxx + kyy - 2 kxy of them.
-/
import proofs.«134606_j77163382440707_2_alg».proof.Proof.Gen.ReferenceIdeal.Read
import proofs.«134606_j77163382440707_2_alg».proof.Proof.MathGram

noncomputable section

namespace Cert.KernelIdeal.Hand

open Idealize.ShloMosaic Idealize.ShloMosaic.ValueIdx Cert.ReferenceIdeal Cert.ReferenceIdeal.Read
open scoped BigOperators

/-- One entry of the array the third reduce sums: the pair term of point i of the first cloud and point j of the second. -/
theorem ref_pair_apply (x0 x1 x2 x3 : FVec Ideal Cert.ReferenceIdeal.S4x4096x3 .f32) (b : Fin 4) (i j : Fin 4096) :
    val_main_v37 (F := Ideal) x0 x1 x2 x3 (ix3 b i j)
      = pairTerm (fun k => x0 (ix3 b i k)) (fun k => x1 (ix3 b j k)) (fun k => x2 (ix3 b i k)) (fun k => x3 (ix3 b j k)) := by
  have e0 : ∀ k : Fin 3, idx_main_v26 (idx_main_v28 (idx_main_v32 (ix3 b i j) k)) = ix3 b i k := fun k =>
    funext fun a => Fin.ext (by match a with | ⟨0, _⟩ => rfl | ⟨1, _⟩ => rfl | ⟨2, _⟩ => rfl)
  have e1 : ∀ k : Fin 3, idx_main_v27 (idx_main_v29 (idx_main_v32 (ix3 b i j) k)) = ix3 b j k := fun k =>
    funext fun a => Fin.ext (by match a with | ⟨0, _⟩ => rfl | ⟨1, _⟩ => rfl | ⟨2, _⟩ => rfl)
  have e2 : ∀ k : Fin 3, lidx_main_v33 (ix3 b i j) k = ix3 b i k := fun k =>
    funext fun a => Fin.ext (by match a with | ⟨0, _⟩ => rfl | ⟨1, _⟩ => rfl | ⟨2, _⟩ => rfl)
  have e3 : ∀ k : Fin 3, ridx_main_v33 (ix3 b i j) k = ix3 b j k := fun k =>
    funext fun a => Fin.ext (by match a with | ⟨0, _⟩ => rfl | ⟨1, _⟩ => rfl | ⟨2, _⟩ => rfl)
  rw [val_main_v37_apply, val_main_v35_apply, val_main_v34_apply, val_main_v32_apply, val_main_v36_apply, val_main_v33_apply,
    val_main_cst_3_apply]
  simp only [val_main_v31_apply, val_main_v30_apply, val_main_v28_apply, val_main_v29_apply, val_main_v26_apply,
    val_main_v27_apply, e0, e1, e2, e3, Ideal.mulf_def, Ideal.subf_def, Ideal.hostUnary_exp_def, Ideal.hostNegf_def,
    Ideal.negf_def, Ideal.ofBits_def, Ideal.ofBits_zero_f32, zero_add]
  rfl

/-- The third reduce is the kernel sum of the first cloud against the second. -/
theorem ref_block_apply (x0 x1 x2 x3 : FVec Ideal Cert.ReferenceIdeal.S4x4096x3 .f32) (i : Cert.ReferenceIdeal.S_.Idx) :
    val_main_v38 (F := Ideal) x0 x1 x2 x3 i = kSum x0 x1 x2 x3 := by
  rw [val_main_v38_apply, val_main_cst_4_apply, sum_idx3]
  simp only [ref_pair_apply, Ideal.ofBits_def, Ideal.ofBits_zero_f32, zero_add]
  rfl

/-- The first and second reduces are the same function of their clouds as the third. -/
theorem ref_v12_eq (x0 x2 : FVec Ideal Cert.ReferenceIdeal.S4x4096x3 .f32) :
    val_main_v12 (F := Ideal) x0 x2 = val_main_v38 (F := Ideal) x0 x0 x2 x2 := rfl
theorem ref_v25_eq (x1 x3 : FVec Ideal Cert.ReferenceIdeal.S4x4096x3 .f32) :
    val_main_v25 (F := Ideal) x1 x3 = val_main_v38 (F := Ideal) x1 x1 x3 x3 := rfl

/-- The reference's result: kxx + kyy - 2 kxy. -/
theorem ref_apply (a0 a1 a2 a3 : FVec Ideal Cert.ReferenceIdeal.S4x4096x3 .f32) (i : Cert.ReferenceIdeal.S_.Idx) :
    val_main_v41 (F := Ideal) a0 a1 a2 a3 i
      = (kSum a0 a0 a2 a2 + kSum a1 a1 a3 a3) - Ideal.ofBits .f32 0x40000000#32 * kSum a0 a1 a2 a3 := by
  rw [val_main_v41_apply, val_main_v39_apply, val_main_v40_apply, val_main_cst_5_apply, ref_v12_eq, ref_v25_eq,
    ref_block_apply, ref_block_apply, ref_block_apply]
  rfl

end Cert.KernelIdeal.Hand

end
-- ==== Proof.Finite.lean ====
/-
  From the precondition to "every entry of every argument array is a real number".

  The predicate is the conjunction, over the four arrays, of "all entries have absolute value below +inf".  On the
  extended reals an absolute value below +inf excludes exactly the two infinities.
-/
import proofs.«134606_j77163382440707_2_alg».proof.Defs
import Idealize.ShloMosaic.Lib.ReduceAll
import Idealize.ShloMosaic.Lib.ValueIdx
import Idealize.ShloMosaic.PureOps.Ideal.Laws

noncomputable section

namespace Cert.KernelIdeal.Hand

open Idealize.ShloMosaic Idealize.ShloMosaic.ValueIdx Idealize.SL.Sem

/-- The scalar shape has one index. -/
instance subsingleton_scalarIdx : Subsingleton Cert.Pre_finite_inputs.S_.Idx := ⟨fun _ _ => funext fun d => d.elim0⟩

/-- An extended real whose absolute value compares below the pattern of +inf is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One array's test: if the reduce by `and` of "absolute value below +inf" is one, every entry is a real number. -/
theorem real_of_test [Cert.Pre_finite_inputs.Facts] (x : FVec Ideal Cert.Pre_finite_inputs.S4x4096x3 .f32)
    (init : IVec Cert.Pre_finite_inputs.S_ 1)
    (h : Host.reduce IntOp.andi
        (cmpf .olt (Host.absf x) (broadcastInDim Cert.Pre_finite_inputs.S4x4096x3 ![] Cert.Pre_finite_inputs.Facts.bcast_S_S4x4096x3
          (constant (F := Ideal) Cert.Pre_finite_inputs.S_ .f32 0x7F800000#32)))
        init Cert.Pre_finite_inputs.Facts.reducesTo_S4x4096x3_S_d0_1_2 Cert.Pre_finite_inputs.Facts.h_S_ ix0 = 1#1)
    (i : Cert.Pre_finite_inputs.S4x4096x3.Idx) : ∃ r : ℝ, x i = (r : EReal) :=
  real_of_abs_lt_inf (x i) (Host.reduce_andi_all _ init _ _ ix0 h i)

/-- Under the precondition every entry of the four argument arrays is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) := by
  have h0 := congrFun (h c) ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_test _ _ h0' i, fun i => real_of_test _ _ h1 i, fun i => real_of_test _ _ h2 i,
    fun i => real_of_test _ _ h3 i⟩

end Cert.KernelIdeal.Hand

end
-- ==== Proof.Bridge.lean ====
/-
  The kernel's value is the reference's, at the ideal values, when every input is a real number.

  Each launch's accumulator after n tiles is the sum of the first n tile totals (induction through the payloads);
  sixteen tiles are all pairs of a row tile and a column tile; a tile total is the double sum over the tile's points
  of the pair term in the kernel's Gram spelling, which on real coordinates is the reference's spelling; and the sum
  over 4096 x 4096 pairs of points splits into the sums over tiles and points of a tile.  So each launch's host sum
  is the kernel sum of its two clouds, and both programs combine the three kernel sums in the same way.
-/
import proofs.«134606_j77163382440707_2_alg».proof.Proof.Spec
import proofs.«134606_j77163382440707_2_alg».proof.Proof.Gen.ReferenceIdeal.Read
import proofs.«134606_j77163382440707_2_alg».proof.Proof.MathGram
import proofs.«134606_j77163382440707_2_alg».proof.Proof.TileLayout
import proofs.«134606_j77163382440707_2_alg».proof.Proof.TileValue
import proofs.«134606_j77163382440707_2_alg».proof.Proof.RefValue
import proofs.«134606_j77163382440707_2_alg».proof.Proof.Finite

noncomputable section

namespace Cert.KernelIdeal.Hand

open Idealize.ShloMosaic Idealize.ShloMosaic.ValueIdx Cert.KernelIdeal Cert.KernelIdeal.Gen
open scoped BigOperators

/-- The total of the tile (row tile i, column tile j) of batch b: the double sum over the tile's points of the pair
    term in the kernel's spelling. -/
def tileSum (XA XB NA NB : FVec Ideal S4x3x4096 .f32) (b i j : Fin 4) : EReal :=
  ∑ p : Fin 1024, ∑ q : Fin 1024,
    gramTerm (fun k => tile (F := Ideal) XA b i (ix3 0 k p)) (fun k => tile (F := Ideal) XB b j (ix3 0 k q))
      (fun k => tile (F := Ideal) NA b i (ix3 0 k p)) (fun k => tile (F := Ideal) NB b j (ix3 0 k q))

/-- The host's sum of a [4, 1, 1] result from zero is the sum of its four entries. -/
theorem total_apply (o : FVec Ideal S4x1x1 .f32) (i : S_.Idx) :
    total (F := Ideal) o i = ∑ b : Fin 4, o (ix3 b 0 0) := by
  unfold total
  simp only [Host.reduceAdd, Ideal.hostReduceAdd_def]
  refine (Ideal.hostReduceAdd_total Facts₀.reducesTo_S4x1x1_S_d0_1_2 (fun b => b.elim0) o _ i).trans ?_
  rw [sum_idx3]
  simp only [Fin.sum_univ_one]
  show Ideal.ofBits .f32 0x00000000#32 + _ = _
  rw [Ideal.ofBits_zero_f32, zero_add]

/-- Launch 0: the accumulator of batch `b` after `n` tiles is the sum of the first `n` tiles' totals. -/
theorem acc0_apply (XA XB NA NB : FVec Ideal S4x3x4096 .f32) (b : Fin 4) (n : ℕ) :
    acc0 (F := Ideal) XA XB NA NB b n (ix2 0 0)
      = ∑ t ∈ Finset.range n, tileSum XA XB NA NB b ⟨t / 4 % 4, Nat.mod_lt _ (by decide)⟩ ⟨t % 4, Nat.mod_lt _ (by decide)⟩ := by
  induction n with
  | zero => exact k0_pay3_apply _
  | succ n ih =>
    rw [Finset.sum_range_succ, ← ih]
    show k0_pay1 (F := Ideal) (k0_pay4 (F := Ideal) _ _ _ _) (acc0 (F := Ideal) XA XB NA NB b n) (ix2 0 0) = _
    rw [k0_pay1_apply]
    refine congrArg (fun t : EReal => acc0 (F := Ideal) XA XB NA NB b n (ix2 0 0) + t) ?_
    unfold tileSum
    exact Finset.sum_congr rfl fun p _ => k0_pay4_apply _ _ _ _ p

/-- Launch 0's result summed by the host: the sum over the batches and all sixteen tiles of the tile totals. -/
theorem total_out0 (XA XB NA NB : FVec Ideal S4x3x4096 .f32) (i : S_.Idx) :
    total (F := Ideal) (out0 (F := Ideal) XA XB NA NB) i = ∑ b : Fin 4, ∑ I : Fin 4, ∑ J : Fin 4, tileSum XA XB NA NB b I J := by
  rw [total_apply]
  refine Finset.sum_congr rfl fun b _ => ?_
  show k0_pay2 (F := Ideal) (acc0 (F := Ideal) XA XB NA NB b 16) (ix3 0 0 0) = _
  rw [k0_pay2_apply, acc0_apply, sum_range16 (fun I J => tileSum XA XB NA NB b I J)]

/-- Launch 1: the accumulator of batch `b` after `n` tiles is the sum of the first `n` tiles' totals. -/
theorem acc1_apply (XA XB NA NB : FVec Ideal S4x3x4096 .f32) (b : Fin 4) (n : ℕ) :
    acc1 (F := Ideal) XA XB NA NB b n (ix2 0 0)
      = ∑ t ∈ Finset.range n, tileSum XA XB NA NB b ⟨t / 4 % 4, Nat.mod_lt _ (by decide)⟩ ⟨t % 4, Nat.mod_lt _ (by decide)⟩ := by
  induction n with
  | zero => exact k1_pay3_apply _
  | succ n ih =>
    rw [Finset.sum_range_succ, ← ih]
    show k1_pay1 (F := Ideal) (k1_pay4 (F := Ideal) _ _ _ _) (acc1 (F := Ideal) XA XB NA NB b n) (ix2 0 0) = _
    rw [k1_pay1_apply]
    refine congrArg (fun t : EReal => acc1 (F := Ideal) XA XB NA NB b n (ix2 0 0) + t) ?_
    unfold tileSum
    exact Finset.sum_congr rfl fun p _ => k1_pay4_apply _ _ _ _ p

/-- Launch 1's result summed by the host: the sum over the batches and all sixteen tiles of the tile totals. -/
theorem total_out1 (XA XB NA NB : FVec Ideal S4x3x4096 .f32) (i : S_.Idx) :
    total (F := Ideal) (out1 (F := Ideal) XA XB NA NB) i = ∑ b : Fin 4, ∑ I : Fin 4, ∑ J : Fin 4, tileSum XA XB NA NB b I J := by
  rw [total_apply]
  refine Finset.sum_congr rfl fun b _ => ?_
  show k1_pay2 (F := Ideal) (acc1 (F := Ideal) XA XB NA NB b 16) (ix3 0 0 0) = _
  rw [k1_pay2_apply, acc1_apply, sum_range16 (fun I J => tileSum XA XB NA NB b I J)]

/-- Launch 2: the accumulator of batch `b` after `n` tiles is the sum of the first `n` tiles' totals. -/
theorem acc2_apply (XA XB NA NB : FVec Ideal S4x3x4096 .f32) (b : Fin 4) (n : ℕ) :
    acc2 (F := Ideal) XA XB NA NB b n (ix2 0 0)
      = ∑ t ∈ Finset.range n, tileSum XA XB NA NB b ⟨t / 4 % 4, Nat.mod_lt _ (by decide)⟩ ⟨t % 4, Nat.mod_lt _ (by decide)⟩ := by
  induction n with
  | zero => exact k2_pay3_apply _
  | succ n ih =>
    rw [Finset.sum_range_succ, ← ih]
    show k2_pay1 (F := Ideal) (k2_pay4 (F := Ideal) _ _ _ _) (acc2 (F := Ideal) XA XB NA NB b n) (ix2 0 0) = _
    rw [k2_pay1_apply]
    refine congrArg (fun t : EReal => acc2 (F := Ideal) XA XB NA NB b n (ix2 0 0) + t) ?_
    unfold tileSum
    exact Finset.sum_congr rfl fun p _ => k2_pay4_apply _ _ _ _ p

/-- Launch 2's result summed by the host: the sum over the batches and all sixteen tiles of the tile totals. -/
theorem total_out2 (XA XB NA NB : FVec Ideal S4x3x4096 .f32) (i : S_.Idx) :
    total (F := Ideal) (out2 (F := Ideal) XA XB NA NB) i = ∑ b : Fin 4, ∑ I : Fin 4, ∑ J : Fin 4, tileSum XA XB NA NB b I J := by
  rw [total_apply]
  refine Finset.sum_congr rfl fun b _ => ?_
  show k2_pay2 (F := Ideal) (acc2 (F := Ideal) XA XB NA NB b 16) (ix3 0 0 0) = _
  rw [k2_pay2_apply, acc2_apply, sum_range16 (fun I J => tileSum XA XB NA NB b I J)]

/-- A tile of a transposed cloud read at a point: coordinate k of point 1024 i + p of batch b of the cloud. -/
theorem tile_tr_apply (x : FVec Ideal S4x4096x3 .f32) (b i : Fin 4) (k : Fin 3) (p : Fin 1024) :
    tile (F := Ideal) (tr (F := Ideal) x) b i (ix3 0 k p)
      = x (ix3 b ⟨1024 * i.val + p.val, by have := i.isLt; have := p.isLt; omega⟩ k) :=
  transpose_ix3_021_apply x Facts₀.transposes_S4x4096x3_S4x3x4096_0_2_1 b k _

/-- On real coordinates the sum over the batches and all tiles of the tile totals of two transposed clouds is their
    kernel sum. -/
theorem tiles_eq_kSum (xa xb na nb : FVec Ideal S4x4096x3 .f32) (ha : ∀ i, ∃ r : ℝ, xa i = (r : EReal))
    (hb : ∀ i, ∃ r : ℝ, xb i = (r : EReal)) :
    ∑ b : Fin 4, ∑ I : Fin 4, ∑ J : Fin 4, tileSum (tr (F := Ideal) xa) (tr (F := Ideal) xb) (tr (F := Ideal) na) (tr (F := Ideal) nb) b I J
      = kSum xa xb na nb := by
  unfold kSum
  refine Finset.sum_congr rfl fun b _ => ?_
  rw [sum_fin4096]
  refine Finset.sum_congr rfl fun I _ => ?_
  refine Eq.trans ?_ ((Finset.sum_congr rfl fun p _ => sum_fin4096 _).trans Finset.sum_comm).symm
  refine Finset.sum_congr rfl fun J _ => ?_
  unfold tileSum
  refine Finset.sum_congr rfl fun p _ => Finset.sum_congr rfl fun q _ => ?_
  simp only [tile_tr_apply]
  exact gramTerm_eq_pairTerm _ _ _ _ (fun k => ha _) (fun k => hb _)

/-- The kernel's value is the reference's when every input is a real number. -/
theorem kernelVal_eq_ref (a0 a1 a2 a3 : FVec Ideal Cert.KernelIdeal.S4x4096x3 .f32)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal)) :
    kernelVal (F := Ideal) a0 a1 a2 a3 = Cert.ReferenceIdeal.Read.val_main_v41 (F := Ideal) a0 a1 a2 a3 := by
  funext i
  rw [ref_apply]
  show (total (F := Ideal) (out0 (F := Ideal) _ _ _ _) i + total (F := Ideal) (out1 (F := Ideal) _ _ _ _) i)
      - Ideal.ofBits .f32 0x40000000#32 * total (F := Ideal) (out2 (F := Ideal) _ _ _ _) i = _
  rw [total_out0, total_out1, total_out2, tiles_eq_kSum a0 a0 a2 a2 h0 h0, tiles_eq_kSum a1 a1 a3 a3 h1 h1,
    tiles_eq_kSum a0 a1 a2 a3 h0 h1]

end Cert.KernelIdeal.Hand

end
-- ==== Proof.lean ====
/-
  The certificate of the varifold-distance kernel against its jnp reference.

  The kernel computes kxx + kyy - 2 kxy, where k(xa, xb, na, nb) sums exp(-|xa_i - xb_j|²) · (na_i · nb_j)² over the batch
  and all pairs of points.  It transposes each input to coordinate-major form and runs three launches over a 4 × 4 × 4
  grid (batch, row tile, column tile): each point forms a 1024 × 1024 tile of squared distances by the Gram identity
  |a|² + |b|² - 2 a·b (two small matrix products contracting the three coordinates), multiplies exp(-S) by the squared
  normal products, and adds the tile's total to a one-element accumulator that is reset at a batch's first tile and
  copied to the batch's entry of the launch's [4, 1, 1] result at its last; the host sums each result.

  The frames (both programs run to the end on every weakly fair schedule, fault nowhere and leave the arguments as
  launched) come from one run of @main as a list of segments — host stretches and the three launches —, each launch's
  body run in its three cases (first, middle, last tile of a batch) and the accumulator's contents tracked from point to
  point.  Launches 0 and 1 read each input array through two windows; the array's share is dealt to them by halves.

  The value: the same run names the result array of each launch as the specification's function of its input arrays
  (`Hand.kernelVal`), and on the extended reals that function is the reference's — the Gram identity holds because every
  input is a real number (the precondition), and the sums over tiles re-bracket the reference's one sum over all pairs,
  which needs no finiteness.  The idealization rewrote nothing, so `preserves` has nothing to state.
-/
import proofs.«134606_j77163382440707_2_alg».proof.Defs
import proofs.«134606_j77163382440707_2_alg».proof.Proof.Gen.Kernel
import proofs.«134606_j77163382440707_2_alg».proof.Proof.Gen.KernelIdeal
import proofs.«134606_j77163382440707_2_alg».proof.Proof.Gen.ReferenceIdeal
import proofs.«134606_j77163382440707_2_alg».proof.Proof.Gen.ReferenceIdeal.Run
import proofs.«134606_j77163382440707_2_alg».proof.Proof.Gen.ReferenceIdeal.Read
import proofs.«134606_j77163382440707_2_alg».proof.Proof.Gen.Pre_finite_inputs
import proofs.«134606_j77163382440707_2_alg».proof.Proof.KFrames
import proofs.«134606_j77163382440707_2_alg».proof.Proof.KernelValue
import proofs.«134606_j77163382440707_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel runs and leaves its arguments as launched. -/
theorem frame_p : Cert.frame_Kernel := fun m ρ _ => Cert.Kernel.Gen.frame m ρ
/-- So does its idealization. -/
theorem frame_pi : Cert.frame_KernelIdeal := fun m ρ _ => Cert.KernelIdeal.Gen.frame m ρ
/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals the kernel's result is the specification's value of the arguments, the reference's its own
    term of arguments that agree; the two are one function wherever the arguments are real numbers. -/
theorem algebraic : Cert.algebraic_KernelIdeal_ReferenceIdeal := by
  intro m ρ m' ρ' hpre hagree
  refine ⟨fun c => Cert.KernelIdeal.Hand.kernelVal (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.Gen.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3⟩ := Cert.KernelIdeal.Hand.finite_of_pre m hpre c
  rw [Cert.ReferenceIdeal.Read.val_main_v41_eq, (hagree c).1, (hagree c).2.1, (hagree c).2.2.1, (hagree c).2.2.2]
  exact (Cert.KernelIdeal.Hand.kernelVal_eq_ref _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
